-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x8192 : Shape := ⟨2, ![8192, 8192]⟩
abbrev S64x256 : Shape := ⟨2, ![64, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x2048 : Shape := ⟨2, ![1024, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x256 : S_.BroadcastsInDim S64x256 (![] : Fin 0 → Fin S64x256.rank)
  reducesTo_S64x256_S_d0_1 : S64x256.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S512x1024 .f32) (main_arg12 : FVec F S1024 .f32) (main_arg13 : FVec F S1024x2048 .f32) (main_arg14 : FVec F S2048 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1024 .f32 := Host.absf main_arg11
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x2048 .f32 := Host.absf main_arg13
  let main_cst_24 : FVec F S_ .f32 := constant S_ .f32 0x7F800000#32
  let main_v65 : FVec F S1024x2048 .f32 := broadcastInDim S1024x2048 ![] bcast_S_S1024x2048 main_cst_24
  let main_v66 : IVec S1024x2048 1 := cmpf .olt main_v64 main_v65
  let main_c_25 : IVec S_ 1 := constantI S_ 1 1#1
  let main_v67 : IVec S_ 1 := (fun x v => Host.reduce IntOp.andi x v reducesTo_S1024x2048_S_d0_1 h_S_) main_v66 main_c_25
  fn_part4 (F := F) main_arg14 main_v63 main_v67

def fn_part2 {F : FTy → Type} [FloatOps F] (main_arg7 : FVec F S512x256 .f32) (main_arg8 : FVec F S256 .f32) (main_arg9 : FVec F S256x512 .f32) (main_arg10 : FVec F S512 .f32) (main_arg11 : FVec F S512x1024 .f32) (main_arg12 : FVec F S1024 .f32) (main_arg13 : FVec F S1024x2048 .f32) (main_arg14 : FVec F S2048 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S1024 .f32) (main_arg5 : FVec F S1024x512 .f32) (main_arg6 : FVec F S512 .f32) (main_arg7 : FVec F S512x256 .f32) (main_arg8 : FVec F S256 .f32) (main_arg9 : FVec F S256x512 .f32) (main_arg10 : FVec F S512 .f32) (main_arg11 : FVec F S512x1024 .f32) (main_arg12 : FVec F S1024 .f32) (main_arg13 : FVec F S1024x2048 .f32) (main_arg14 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x2048 .f32) (main_arg1 : FVec F S8192x8192 .f32) (main_arg2 : FVec F S64x256 .f32) (main_arg3 : FVec F S2048x1024 .f32) (main_arg4 : FVec F S1024 .f32) (main_arg5 : FVec F S1024x512 .f32) (main_arg6 : FVec F S512 .f32) (main_arg7 : FVec F S512x256 .f32) (main_arg8 : FVec F S256 .f32) (main_arg9 : FVec F S256x512 .f32) (main_arg10 : FVec F S512 .f32) (main_arg11 : FVec F S512x1024 .f32) (main_arg12 : FVec F S1024 .f32) (main_arg13 : FVec F S1024x2048 .f32) (main_arg14 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x2048 : Shape := ⟨2, ![8192, 2048]⟩
abbrev S8192x8192 : Shape := ⟨2, ![8192, 8192]⟩
abbrev S64x256 : Shape := ⟨2, ![64, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x2048 : Shape := ⟨2, ![1024, 2048]⟩
abbrev S2048 : Shape := ⟨1, ![2048]⟩
abbrev S1x1024 : Shape := ⟨2, ![1, 1024]⟩
abbrev S1x512 : Shape := ⟨2, ![1, 512]⟩
abbrev S1x256 : Shape := ⟨2, ![1, 256]⟩
abbrev S8192x256 : Shape := ⟨2, ![8192, 256]⟩
abbrev S512x2048 : Shape := ⟨2, ![512, 2048]⟩
abbrev S512x512 : Shape := ⟨2, ![512, 512]⟩
abbrev S1024x256 : Shape := ⟨2, ![1024, 256]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S256x64 : Shape := ⟨2, ![256, 64]⟩
abbrev S8192x64 : Shape := ⟨2, ![8192, 64]⟩
abbrev S64 : Shape := ⟨1, ![64]⟩
abbrev S1x64 : Shape := ⟨2, ![1, 64]⟩

abbrev nBuf : Space → Nat
  | .hbm => 93
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S64x256, .f32⟩
  | .hbm, ⟨3, _⟩ => ⟨S2048x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x512, .f32⟩
  | .hbm, ⟨10, _⟩ => ⟨S512, .f32⟩
  | .hbm, ⟨11, _⟩ => ⟨S512x1024, .f32⟩
  | .hbm, ⟨12, _⟩ => ⟨S1024, .f32⟩
  | .hbm, ⟨13, _⟩ => ⟨S1024x2048, .f32⟩
  | .hbm, ⟨14, _⟩ => ⟨S2048, .f32⟩
  | .hbm, ⟨15, _⟩ => ⟨S1x1024, .f32⟩
  | .hbm, ⟨16, _⟩ => ⟨S1x512, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S1x512, .f32⟩
  | .hbm, ⟨21, _⟩ => ⟨S1x1024, .f32⟩
  | .hbm, ⟨22, _⟩ => ⟨S1x2048, .f32⟩
  | .hbm, ⟨23, _⟩ => ⟨S8192x2048, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S256x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S64x256, .f32⟩
  | .hbm, ⟨36, _⟩ => ⟨S_, .f32⟩
  | .hbm, ⟨37, _⟩ => ⟨S64, .f32⟩
  | .hbm, ⟨38, _⟩ => ⟨S1x64, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S8192x64, .f32⟩
  | .hbm, ⟨43, _⟩ => ⟨S8192x64, .f32⟩
  | .hbm, ⟨44, _⟩ => ⟨S_, .f32⟩
  | .hbm, ⟨45, _⟩ => ⟨S8192x64, .f32⟩
  | .hbm, ⟨46, _⟩ => ⟨S8192x64, .f32⟩
  | .hbm, ⟨47, _⟩ => ⟨S_, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S64, .f32⟩
  | .hbm, ⟨57, _⟩ => ⟨S8192x64, .f32⟩
  | .hbm, ⟨58, _⟩ => ⟨S1x64, .f32⟩
  | .hbm, ⟨59, _⟩ => ⟨S8192x64, .f32⟩
  | .hbm, ⟨60, _⟩ => ⟨S8192x64, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x64, .f32⟩
  | .hbm, ⟨65, _⟩ => ⟨S8192x64, .f32⟩
  | .hbm, ⟨66, _⟩ => ⟨S_, .f32⟩
  | .hbm, ⟨67, _⟩ => ⟨S_, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S8192x64, .f32⟩
  | .hbm, ⟨82, _⟩ => ⟨S8192x64, .f32⟩
  | .hbm, ⟨83, _⟩ => ⟨S8192x64, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S1x1024, .f32⟩
  | .local _ .vmem, ⟨4, _⟩ => ⟨S1024x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S1024x512, .f32⟩
  | .local _ .vmem, ⟨11, _⟩ => ⟨S1024x512, .f32⟩
  | .local _ .vmem, ⟨12, _⟩ => ⟨S8192x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S256x512, .f32⟩
  | .local _ .vmem, ⟨19, _⟩ => ⟨S1x512, .f32⟩
  | .local _ .vmem, ⟨20, _⟩ => ⟨S512x1024, .f32⟩
  | .local _ .vmem, ⟨21, _⟩ => ⟨S1x1024, .f32⟩
  | .local _ .vmem, ⟨22, _⟩ => ⟨S1024x2048, .f32⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_call0_v0 : Ref sig .tc := ⟨.hbm, 67, rfl⟩
abbrev main_call0_v1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S1024_S1x1024 : S1024.ShapeCasts S1x1024
  shapeCasts_S512_S1x512 : S512.ShapeCasts S1x512
  shapeCasts_S256_S1x256 : S256.ShapeCasts S1x256
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S512x256_S512x256 : S512x256.ShapeCasts S512x256
  h_S1024x256 : 0 < S1024x256.numel
  shapeCasts_S1024x256_S1024x256 : S1024x256.ShapeCasts S1024x256
  shapeCasts_S2048_S1x2048 : S2048.ShapeCasts S1x2048
  inb_S256x512_S256x512_0_0 : ∀ a, (![0, 0] : Fin 2 → Nat) a + S256x512.size a ≤ S256x512.size a
  h_S256x512 : 0 < S256x512.numel
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x256 : S_.BroadcastsInDim S8192x256 (![] : Fin 0 → Fin S8192x256.rank)
  transposes_S64x256_S256x64_1_0 : S64x256.Transposes [1, 0] S256x64
  bcast_S8192x1_S8192x64_0_1 : S8192x1.BroadcastsInDim S8192x64 (![0, 1] : Fin 2 → Fin S8192x64.rank)
  reducesTo_S64x256_S64_d1 : S64x256.ReducesTo [1] S64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  reducesTo_S8192x64_S64_d0 : S8192x64.ReducesTo [0] S64
  bcast_S_S8192x2048 : S_.BroadcastsInDim S8192x2048 (![] : Fin 0 → Fin S8192x2048.rank)
  reducesTo_S8192x2048_S_d0_1 : S8192x2048.ReducesTo [0, 1] S_
  reducesTo_S8192x64_S_d0_1 : S8192x64.ReducesTo [0, 1] S_
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  dot_S1024x512_S1024x256_S512x256_0_0_1_1_n_n_wf : DotDims.WF S1024x512 S1024x256 S512x256 [0] [0] [1] [1] [] []
  dot_S512x256_S256x512_S512x512_1_0_0_1_n_n_wf : DotDims.WF S512x256 S256x512 S512x512 [1] [0] [0] [1] [] []
  dot_S512x512_S512x1024_S512x1024_1_0_0_1_n_n_wf : DotDims.WF S512x512 S512x1024 S512x1024 [1] [0] [0] [1] [] []
  dot_S512x1024_S1024x2048_S512x2048_1_0_0_1_n_n_wf : DotDims.WF S512x1024 S1024x2048 S512x2048 [1] [0] [0] [1] [] []
  dot_S8192x256_S256x64_S8192x64_1_0_0_1_n_n_wf : DotDims.WF S8192x256 S256x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S8192x256.size a
  hwx0_7 : ∀ i : grid0.Coords, EltTy.bits .f32 = 32 ∨ (Rect.block (s := S8192x256) S512x256.size (cc0_transform_7 i) (hinb0_7 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .f32 = 32 ∨ (Rect.block (s := S8192x256) S512x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S512x1024.size a
  hwx2_3 : ∀ i : grid2.Coords, EltTy.bits .f32 = 32 ∨ (Rect.block (s := S512x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x2048.size a ≤ S1024x2048.size a
  hwx2_5 : ∀ i : grid2.Coords, EltTy.bits .f32 = 32 ∨ (Rect.block (s := S1024x2048) S1024x2048.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x2048.size a ≤ S8192x2048.size a
  hwx2_7 : ∀ i : grid2.Coords, EltTy.bits .f32 = 32 ∨ (Rect.block (s := S8192x2048) S512x2048.size (cc2_transform_7 i) (hinb2_7 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S1024x512_S1024x256_S512x256_0_0_1_1_n_n : DotDims S1024x512 S1024x256 S512x256 where
  lhsContracting := [0]
  rhsContracting := [0]
  lhsNonContracting := [1]
  rhsNonContracting := [1]
  lhsBatch := []
  rhsBatch := []
  wf := dot_S1024x512_S1024x256_S512x256_0_0_1_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v4) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S512x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S1024x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S512x2048.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S8192x8192 : Shape := ⟨2, ![8192, 8192]⟩
abbrev S64x256 : Shape := ⟨2, ![64, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x2048 : Shape := ⟨2, ![1024, 2048]⟩
abbrev S2048 : Shape := ⟨1, ![2048]⟩
abbrev S8192x1024 : Shape := ⟨2, ![8192, 1024]⟩
abbrev S1x1024 : Shape := ⟨2, ![1, 1024]⟩
abbrev S8192x512 : Shape := ⟨2, ![8192, 512]⟩
abbrev S1x512 : Shape := ⟨2, ![1, 512]⟩
abbrev S8192x256 : Shape := ⟨2, ![8192, 256]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S256x64 : Shape := ⟨2, ![256, 64]⟩
abbrev S8192x64 : Shape := ⟨2, ![8192, 64]⟩
abbrev S64 : Shape := ⟨1, ![64]⟩
abbrev S1x64 : Shape := ⟨2, ![1, 64]⟩
abbrev S1x2048 : Shape := ⟨2, ![1, 2048]⟩

abbrev nBuf : Space → Nat
  | .hbm => 110
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S64x256, .f32⟩
  | .hbm, ⟨3, _⟩ => ⟨S2048x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x512, .f32⟩
  | .hbm, ⟨10, _⟩ => ⟨S512, .f32⟩
  | .hbm, ⟨11, _⟩ => ⟨S512x1024, .f32⟩
  | .hbm, ⟨12, _⟩ => ⟨S1024, .f32⟩
  | .hbm, ⟨13, _⟩ => ⟨S1024x2048, .f32⟩
  | .hbm, ⟨14, _⟩ => ⟨S2048, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S8192x8192, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S256x64, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S64x256, .f32⟩
  | .hbm, ⟨41, _⟩ => ⟨S_, .f32⟩
  | .hbm, ⟨42, _⟩ => ⟨S64, .f32⟩
  | .hbm, ⟨43, _⟩ => ⟨S1x64, .f32⟩
  | .hbm, ⟨44, _⟩ => ⟨S8192x64, .f32⟩
  | .hbm, ⟨45, _⟩ => ⟨S8192x64, .f32⟩
  | .hbm, ⟨46, _⟩ => ⟨S_, .f32⟩
  | .hbm, ⟨47, _⟩ => ⟨S8192x64, .f32⟩
  | .hbm, ⟨48, _⟩ => ⟨S8192x64, .f32⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S_, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x64, .f32⟩
  | .hbm, ⟨59, _⟩ => ⟨S8192x64, .f32⟩
  | .hbm, ⟨60, _⟩ => ⟨S8192x512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S_, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S64, .f32⟩
  | .hbm, ⟨89, _⟩ => ⟨S8192x64, .f32⟩
  | .hbm, ⟨90, _⟩ => ⟨S1x64, .f32⟩
  | .hbm, ⟨91, _⟩ => ⟨S8192x64, .f32⟩
  | .hbm, ⟨92, _⟩ => ⟨S8192x64, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x64, .f32⟩
  | .hbm, ⟨97, _⟩ => ⟨S8192x64, .f32⟩
  | .hbm, ⟨98, _⟩ => ⟨S8192x64, .f32⟩
  | .hbm, ⟨99, _⟩ => ⟨S8192x64, .f32⟩
  | .hbm, ⟨100, _⟩ => ⟨S8192x64, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_call0_v0 : Ref sig .tc := ⟨.hbm, 73, rfl⟩
abbrev main_call0_v1 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_11 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x8192_S8192x8192_1_0 : S8192x8192.Transposes [1, 0] S8192x8192
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x256 : S_.BroadcastsInDim S8192x256 (![] : Fin 0 → Fin S8192x256.rank)
  transposes_S64x256_S256x64_1_0 : S64x256.Transposes [1, 0] S256x64
  bcast_S8192x1_S8192x64_0_1 : S8192x1.BroadcastsInDim S8192x64 (![0, 1] : Fin 2 → Fin S8192x64.rank)
  reducesTo_S64x256_S64_d1 : S64x256.ReducesTo [1] S64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  reducesTo_S8192x2048_S_d0_1 : S8192x2048.ReducesTo [0, 1] S_
  reducesTo_S8192x64_S64_d0 : S8192x64.ReducesTo [0] S64
  reducesTo_S8192x64_S_d0_1 : S8192x64.ReducesTo [0, 1] S_
  dot_S8192x2048_S2048x1024_S8192x1024_1_0_0_1_n_n_wf : DotDims.WF S8192x2048 S2048x1024 S8192x1024 [1] [0] [0] [1] [] []
  dot_S8192x1024_S1024x512_S8192x512_1_0_0_1_n_n_wf : DotDims.WF S8192x1024 S1024x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x256_S256x512_S8192x512_1_0_0_1_n_n_wf : DotDims.WF S8192x256 S256x512 S8192x512 [1] [0] [0] [1] [] []
  dot_S8192x512_S512x1024_S8192x1024_1_0_0_1_n_n_wf : DotDims.WF S8192x512 S512x1024 S8192x1024 [1] [0] [0] [1] [] []
  dot_S8192x1024_S1024x2048_S8192x2048_1_0_0_1_n_n_wf : DotDims.WF S8192x1024 S1024x2048 S8192x2048 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf

class Facts : Prop extends Facts₀ where

variable [Facts]
-- ==== Proof.KEncData.lean ====
/-
  The encoder region's proof data. One grid point i of 16 handles rows [512 i, 512 i + 512) of X: the body reads the row
  tile of X and the six resident operands (three weight matrices, three bias rows), and stores into the output tile
  ((x w0 + b0) w1 + b1) w2 + b2. Here: each window's block at a point as a read of its array, the output tile as the
  canonical contents of the body's one store, and the pipeline's proof data over them.
-/
import proofs.«129998_j66537633349711_2_alg».proof.Proof.Gen.Kernel.Launch
import proofs.«129998_j66537633349711_2_alg».proof.Proof.Gen.Kernel.Skeleton
import proofs.«129998_j66537633349711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x2048 := Rect.unit (s := S512x2048) ![0, 0] S512x2048.size inb_S512x2048_S512x2048_0_0
abbrev r0_1 : Rect S2048x1024 := Rect.unit (s := S2048x1024) ![0, 0] S2048x1024.size inb_S2048x1024_S2048x1024_0_0
abbrev r0_2 : Rect S1x1024 := Rect.unit (s := S1x1024) ![0, 0] S1x1024.size inb_S1x1024_S1x1024_0_0
abbrev r0_3 : Rect S1024x512 := Rect.unit (s := S1024x512) ![0, 0] S1024x512.size inb_S1024x512_S1024x512_0_0
abbrev r0_4 : Rect S1x512 := Rect.unit (s := S1x512) ![0, 0] S1x512.size inb_S1x512_S1x512_0_0
abbrev r0_5 : Rect S512x256 := Rect.unit (s := S512x256) ![0, 0] S512x256.size inb_S512x256_S512x256_0_0
abbrev r0_6 : Rect S1x256 := Rect.unit (s := S1x256) ![0, 0] S1x256.size inb_S1x256_S1x256_0_0
abbrev r0_7 : Rect S512x256 := Rect.unit (s := S512x256) ![0, 0] S512x256.size inb_S512x256_S512x256_0_0

/-- The output tile after the body, from the input blocks: the one whole-tile store of the three-layer value. -/
def out0_7 (x0 : Vec F S512x2048 .f32) (x1 : Vec F S2048x1024 .f32) (x2 : Vec F S1x1024 .f32) (x3 : Vec F S1024x512 .f32)
    (x4 : Vec F S1x512 .f32) (x5 : Vec F S512x256 .f32) (x6 : Vec F S1x256 .f32) : Vec F S512x256 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The proof data of the encoder's pipeline on core c: arrays as the region finds them, inputs left in place, the output
    tile at out0_7 of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

end

end Cert.Kernel.Hand

end
-- ==== Proof.KEncBody.lean ====
/-
  The encoder region's body obligation. At every grid point the body finds in each input window's staging buffer that
  window's block (the row tile of X at the point; the six resident operands, fetched at the first point only, whose
  block index never moves), loads all seven, loads the output tile (unused) and stores the three-layer value over the
  whole output tile. So the output buffer ends at the canonical contents of that one store, the inputs are left in
  place, and the region's invariant passes through unread.
-/
import proofs.«129998_j66537633349711_2_alg».proof.Proof.KEncData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in each input window's buffer: its block, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output tile -/

theorem cover0_7 (p0 : Vec F S512x256 .f32) (y : S512x256.Idx) :
    ∃ pc ∈ ([⟨r0_7, p0⟩] : List (View.Piece (Elt F) S512x256 .f32)), y ∈ pc.1.set :=
  View.cover_of_tiled [⟨r0_7, p0⟩] S512x256.size (by rfl) y

/-! ## The body's triple -/

set_option maxHeartbeats 4000000 in
/-- The kernel body on whole staging memrefs, the inputs' at read contents xW and the output's at anything, runs to the
    continuation holding the inputs' as they were and the output's at out0_7 of the inputs': seven loads, a load of the
    output tile whose value is dropped, and one store over the whole tile. -/
theorem sound_kernel0 (c : Dev nD) (E : Set ℕ) (i : grid0.Coords) (arg1 : Memref sig .tc .vmem S512x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S512x256 .f32) (harg8 : arg8.IsWhole)
    (x0 : Vec F S512x2048 .f32) (x1 : Vec F S2048x1024 .f32) (x2 : Vec F S1x1024 .f32) (x3 : Vec F S1024x512 .f32) (x4 : Vec F S1x512 .f32) (x5 : Vec F S512x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The body obligation, at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t: the invariant, the core's debts, and the eight windows' current staging
    buffers, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KDecData.lean ====
/-
  The decoder region's proof data. One grid point i of 16 handles rows [512 i, 512 i + 512) of Z: the body reads the row tile of Z
  and the six resident operands (three weight matrices, three bias rows), and stores into the output tile
  ((z w0 + b0) w1 + b1) w2 + b2. Here: each window's block at a point as a read of its array, the output tile as the
  canonical contents of the body's one store, and the pipeline's proof data over them.
-/
import proofs.«129998_j66537633349711_2_alg».proof.Proof.Gen.Kernel.Launch
import proofs.«129998_j66537633349711_2_alg».proof.Proof.Gen.Kernel.Skeleton
import proofs.«129998_j66537633349711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x256 := Rect.unit (s := S512x256) ![0, 0] S512x256.size inb_S512x256_S512x256_0_0
abbrev r2_1 : Rect S256x512 := Rect.unit (s := S256x512) ![0, 0] S256x512.size inb_S256x512_S256x512_0_0
abbrev r2_2 : Rect S1x512 := Rect.unit (s := S1x512) ![0, 0] S1x512.size inb_S1x512_S1x512_0_0
abbrev r2_3 : Rect S512x1024 := Rect.unit (s := S512x1024) ![0, 0] S512x1024.size inb_S512x1024_S512x1024_0_0
abbrev r2_4 : Rect S1x1024 := Rect.unit (s := S1x1024) ![0, 0] S1x1024.size inb_S1x1024_S1x1024_0_0
abbrev r2_5 : Rect S1024x2048 := Rect.unit (s := S1024x2048) ![0, 0] S1024x2048.size inb_S1024x2048_S1024x2048_0_0
abbrev r2_6 : Rect S1x2048 := Rect.unit (s := S1x2048) ![0, 0] S1x2048.size inb_S1x2048_S1x2048_0_0
abbrev r2_7 : Rect S512x2048 := Rect.unit (s := S512x2048) ![0, 0] S512x2048.size inb_S512x2048_S512x2048_0_0

/-- The output tile after the body, from the input blocks: the one whole-tile store of the three-layer value. -/
def out2_7 (x0 : Vec F S512x256 .f32) (x1 : Vec F S256x512 .f32) (x2 : Vec F S1x512 .f32) (x3 : Vec F S512x1024 .f32)
    (x4 : Vec F S1x1024 .f32) (x5 : Vec F S1024x2048 .f32) (x6 : Vec F S1x2048 .f32) : Vec F S512x2048 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The proof data of the decoder's pipeline on core c: arrays as the region finds them, inputs left in place, the output
    tile at out2_7 of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by
  dsimp only [dat2]

end

end Cert.Kernel.Hand

end
-- ==== Proof.KDecBody.lean ====
/-
  The decoder region's body obligation. At every grid point the body finds in each input window's staging buffer that
  window's block (the row tile of Z at the point; the six resident operands, fetched at the first point only, whose
  block index never moves), loads all seven, loads the output tile (unused) and stores the three-layer value over the
  whole output tile. So the output buffer ends at the canonical contents of that one store, the inputs are left in
  place, and the region's invariant passes through unread.
-/
import proofs.«129998_j66537633349711_2_alg».proof.Proof.KDecData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in each input window's buffer: its block, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output tile -/

theorem cover2_7 (p0 : Vec F S512x2048 .f32) (y : S512x2048.Idx) :
    ∃ pc ∈ ([⟨r2_7, p0⟩] : List (View.Piece (Elt F) S512x2048 .f32)), y ∈ pc.1.set :=
  View.cover_of_tiled [⟨r2_7, p0⟩] S512x2048.size (by rfl) y

/-! ## The body's triple -/

set_option maxHeartbeats 4000000 in
/-- The kernel body on whole staging memrefs, the inputs' at read contents xW and the output's at anything, runs to the
    continuation holding the inputs' as they were and the output's at out2_7 of the inputs': seven loads, a load of the
    output tile whose value is dropped, and one store over the whole tile. -/
theorem sound_kernel2 (c : Dev nD) (E : Set ℕ) (i : grid2.Coords) (arg1 : Memref sig .tc .vmem S512x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S512x2048 .f32) (harg8 : arg8.IsWhole)
    (x0 : Vec F S512x256 .f32) (x1 : Vec F S256x512 .f32) (x2 : Vec F S1x512 .f32) (x3 : Vec F S512x1024 .f32) (x4 : Vec F S1x1024 .f32) (x5 : Vec F S1024x2048 .f32) (x6 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__decoder_kernel i arg1 harg1 arg2 harg2 arg3 harg3 arg4 harg4 arg5 harg5 arg6 harg6 arg7 harg7 arg8 harg8) K := by
  simp only [cc2__decoder_kernel_eq_skeleton]; unfold cc2__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The body obligation, at a generic point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point t: the invariant, the core's debts, and the eight windows' current staging
    buffers, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.KRwtData.lean ====
/-
  The diffusion region's proof data. The grid is 16 × 8: point (i, k) reads the 1024 × 512 tile of RW at block (k, i), the
  1024 rows of the resident Z0 from row 1024 k, and adds their product contracted over the 1024 rows,
  sum_r RW[1024 k + r, 512 i + p] · Z0[1024 k + r, q], into a 512 × 256 scratch accumulator that is zeroed at k = 0 and
  copied to the output tile at k = 7. Here: each window's block at a point, one accumulation step as a function, what the
  scratch holds after each point by recursion on the point, the region invariant that tracks it, and the proof data.
-/
import proofs.«129998_j66537633349711_2_alg».proof.Proof.Gen.Kernel.Launch
import proofs.«129998_j66537633349711_2_alg».proof.Proof.Gen.Kernel.Skeleton
import proofs.«129998_j66537633349711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The kernel's scratch accumulator, a whole scoped buffer of its own. -/
abbrev scM1 : Memref sig .tc .vmem S512x256 .f32 := Memref.whole cc1_scratch0

abbrev r1_0 : Rect S1024x512 := Rect.unit (s := S1024x512) ![0, 0] S1024x512.size inb_S1024x512_S1024x512_0_0
abbrev r1_2 : Rect S512x256 := Rect.unit (s := S512x256) ![0, 0] S512x256.size inb_S512x256_S512x256_0_0
/-- The rows of the resident Z0 the body reads at a point: 1024 rows from row 1024 k. -/
abbrev rz1 (i : grid1.Coords) : Rect S8192x256 := Rect.unit (s := S8192x256) (k1_off1 i) S1024x256.size (k1_off1_inb i)

/-- One accumulation step at grid coordinates i: the accumulator plus the tile product, from the RW tile rw, the whole
    resident z and the accumulator's contents acc before the step. -/
def step1 (i : grid1.Coords) (rw : Vec F S1024x512 .f32) (z : Vec F S8192x256 .f32) (acc : Vec F S512x256 .f32) : Vec F S512x256 .f32 :=
  k1_pay2 (View.ld z (rz1 i)) rw acc

/-- What the scratch accumulator holds after the body at position n: a step from zero where k = 0 (n a multiple of 8),
    a step from what the point before left elsewhere. -/
def scr1 (c : Dev nD) : (n : ℕ) → n < cfg1.N → Vec F S512x256 .f32
  | 0, hn => step1 (grid1.coords ⟨0, hn⟩) (iblk1 V c 0 ⟨0, hn⟩) (iblk1 V c 1 ⟨0, hn⟩) k1_pay1
  | n + 1, hn =>
    if (n + 1) % 8 = 0 then step1 (grid1.coords ⟨n + 1, hn⟩) (iblk1 V c 0 ⟨n + 1, hn⟩) (iblk1 V c 1 ⟨n + 1, hn⟩) k1_pay1
    else step1 (grid1.coords ⟨n + 1, hn⟩) (iblk1 V c 0 ⟨n + 1, hn⟩) (iblk1 V c 1 ⟨n + 1, hn⟩) (scr1 c n (Nat.lt_of_succ_lt hn))

/-- At a point with k = 0 the step starts from zero. -/
theorem scr1_reset (c : Dev nD) (t : Fin cfg1.N) (h : t.val % 8 = 0) :
    scr1 V c t.val t.isLt = step1 (grid1.coords t) (iblk1 V c 0 t) (iblk1 V c 1 t) k1_pay1 := by
  obtain ⟨n, hn⟩ := t
  cases n with
  | zero => rfl
  | succ n => exact if_pos h

/-- At a point with k > 0 the step starts from what the point before left. -/
theorem scr1_acc (c : Dev nD) (t : Fin cfg1.N) (h : ¬ t.val % 8 = 0) :
    scr1 V c t.val t.isLt = step1 (grid1.coords t) (iblk1 V c 0 t) (iblk1 V c 1 t)
      (scr1 V c (t.val - 1) (Nat.lt_of_le_of_lt (Nat.sub_le _ _) t.isLt)) := by
  obtain ⟨n, hn⟩ := t
  cases n with
  | zero => exact absurd (Nat.zero_mod _) h
  | succ n => exact if_neg h

/-- The scoped buffers other than the scratch accumulator and the generator register: what the body never touches,
    given as what completes the accumulator (at any contents) to the class invariant. -/
def rest1 (c : Dev nD) : sProp 𝕄 := iprop((∃ d, owns (c : Thread nD τ) scM1 fullShare d) -∗ Pipeline.ΦA spec1 c)

/-- The region invariant before position n: before the first point the class's (every scoped buffer the pipeline does not
    stage at anything, the generator register at some state); afterwards the accumulator at what the point before left,
    beside the rest. -/
def PhiS1 (c : Dev nD) : (n : ℕ) → n ≤ cfg1.N → sProp 𝕄
  | 0, _ => Pipeline.ΦA spec1 c
  | n + 1, hn => iprop(owns (c : Thread nD τ) scM1 fullShare (scr1 V c n hn) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (scr1 V c n hn) ∗ rest1 c) := rfl

theorem PhiS1_pos (c : Dev nD) (n : ℕ) (h : n ≤ cfg1.N) (hz : n ≠ 0) :
    PhiS1 V c n h = iprop(owns (c : Thread nD τ) scM1 fullShare (scr1 V c (n - 1) (by omega)) ∗ rest1 c) := by
  cases n with
  | zero => exact absurd rfl hz
  | succ n => rfl

/-- The proof data of the diffusion pipeline on core c: arrays as the region finds them, inputs left in place, the output
    tile's buffer at the accumulator's contents (consulted only where it is written back, at k = 7); the invariant tracks
    the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scr1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scr1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end

end Cert.Kernel.Hand

end
-- ==== Proof.KRwtRuns.lean ====
/-
  The diffusion kernel's body, run whole in each of its three cases. The body at grid point (i, k): where k = 0 it stores
  zero into the scratch accumulator; it then loads 1024 rows of the resident z from row 1024 k, the RW tile and the
  accumulator, and stores the accumulator plus the tile product back; where k = 7 it copies the accumulator to the output
  tile. Each case is stated on arbitrary whole memrefs with explicit contents: the inputs are left as they were, the
  accumulator ends one accumulation step on (from zero where k = 0), and the output tile is left untouched except where
  k = 7, where it ends equal to the accumulator. A load through the whole-shape rectangle reads the contents, a covering
  store leaves its payload, and a load after a covering store reads that payload.
-/
import proofs.«129998_j66537633349711_2_alg».proof.Proof.KRwtData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's first conditional, from the grid coordinates: the reduction index k is 0. -/
abbrev cond1_0 (i : grid1.Coords) : Prop := (Scalar.cmpi .ne (Scalar.extui (Scalar.cmpi .eq (BitVec.ofNat 32 (i 1).val) 0#32)) 0#32) = 1#1
/-- It holds at the points that are multiples of 8, decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional: the reduction index k is 7. -/
abbrev cond1_1 (i : grid1.Coords) : Prop := k1_cond2 i = 1#1
/-- It holds at the points that are 7 modulo 8, decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-- The zero offsets of a rank-2 whole-shape rectangle, as the constant-zero function. -/
theorem hz2 : (![0, 0] : Fin 2 → Nat) = fun _ => 0 := funext fun a => by fin_cases a <;> rfl

set_option maxHeartbeats 1000000 in
/-- The body at a point with k = 0 (the first conditional taken, the second not): on whole memrefs holding the RW tile x0,
    the resident z x1, the idle output tile xi and the accumulator at anything, it runs to the continuation with the inputs
    and the output tile as they were and the accumulator at one step from zero. -/
theorem run1_A (c : Dev nD) (i : grid1.Coords)
    (arg2 : Memref sig .tc .vmem S1024x512 .f32) (harg2 : arg2.IsWhole)
    (arg3 : Memref sig .tc .vmem S8192x256 .f32) (harg3 : arg3.IsWhole)
    (arg4 : Memref sig .tc .vmem S512x256 .f32) (harg4 : arg4.IsWhole)
    (arg5 : Memref sig .tc .vmem S512x256 .f32) (harg5 : arg5.IsWhole)
    (hc0 : cond1_0 i) (hc1 : ¬cond1_1 i)
    (x0 : Vec F S1024x512 .f32) (x1 : Vec F S8192x256 .f32) (xi : Vec F S512x256 .f32)
    (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
       ∗ (iprop(owns (c : Thread nD τ) arg2 fullShare x0 ∗ owns (c : Thread nD τ) arg3 fullShare x1 ∗ owns (c : Thread nD τ) arg4 fullShare xi ∗ owns (c : Thread nD τ) arg5 fullShare (step1 i x0 x1 k1_pay1)) -∗ K ⟨⟩))
    ⊢ wp frame (wpE (defs₀ (F := F)) Variants.none c none) E (cc1__rwt_kernel i arg2 harg2 arg3 harg3 arg4 harg4 arg5 harg5) K := by
  simp only [cc1__rwt_kernel_eq_skeleton]; unfold cc1__rwt_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (fun y => ⟨_, List.mem_cons_self, View.mem_set_unit_zero hz2 inb_S512x256_S512x256_0_0 y⟩)]
  rw [View.canon_cons_unit_zero (S := S512x256) hz2, View.readCov_unit_zero (S := S512x256) _ hz2]
  unfold step1
  simp only [View.readAt_eq_ld, harg2.read_unread, harg3.read_unread, View.ld_unit_zero (S := S1024x512) hz2]

set_option maxHeartbeats 1000000 in
/-- The body at a point with 0 < k < 7 (neither conditional taken): with the accumulator at acc, it runs to the continuation
    with the inputs and the idle output tile as they were and the accumulator one step on from acc. -/
theorem run1_B (c : Dev nD) (i : grid1.Coords)
    (arg2 : Memref sig .tc .vmem S1024x512 .f32) (harg2 : arg2.IsWhole)
    (arg3 : Memref sig .tc .vmem S8192x256 .f32) (harg3 : arg3.IsWhole)
    (arg4 : Memref sig .tc .vmem S512x256 .f32) (harg4 : arg4.IsWhole)
    (arg5 : Memref sig .tc .vmem S512x256 .f32) (harg5 : arg5.IsWhole)
    (hc0 : ¬cond1_0 i) (hc1 : ¬cond1_1 i)
    (x0 : Vec F S1024x512 .f32) (x1 : Vec F S8192x256 .f32) (xi : Vec F S512x256 .f32) (acc : Vec F S512x256 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare acc
       ∗ (iprop(owns (c : Thread nD τ) arg2 fullShare x0 ∗ owns (c : Thread nD τ) arg3 fullShare x1 ∗ owns (c : Thread nD τ) arg4 fullShare xi ∗ owns (c : Thread nD τ) arg5 fullShare (step1 i x0 x1 acc)) -∗ K ⟨⟩))
    ⊢ wp frame (wpE (defs₀ (F := F)) Variants.none c none) E (cc1__rwt_kernel i arg2 harg2 arg3 harg3 arg4 harg4 arg5 harg5) K := by
  simp only [cc1__rwt_kernel_eq_skeleton]; unfold cc1__rwt_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (fun y => ⟨_, List.mem_cons_self, View.mem_set_unit_zero hz2 inb_S512x256_S512x256_0_0 y⟩)]
  rw [View.canon_cons_unit_zero (S := S512x256) hz2]
  unfold step1
  simp only [View.readAt_eq_ld, harg2.read_unread, harg3.read_unread, harg5.read_unread, View.ld_unit_zero (S := S1024x512) hz2, View.ld_unit_zero (S := S512x256) hz2]

set_option maxHeartbeats 1000000 in
/-- The body at a point with k = 7 (the first conditional not taken, the second taken): with the accumulator at acc and the
    output tile at anything, it runs to the continuation with the inputs as they were and both the accumulator and the
    output tile one step on from acc. -/
theorem run1_C (c : Dev nD) (i : grid1.Coords)
    (arg2 : Memref sig .tc .vmem S1024x512 .f32) (harg2 : arg2.IsWhole)
    (arg3 : Memref sig .tc .vmem S8192x256 .f32) (harg3 : arg3.IsWhole)
    (arg4 : Memref sig .tc .vmem S512x256 .f32) (harg4 : arg4.IsWhole)
    (arg5 : Memref sig .tc .vmem S512x256 .f32) (harg5 : arg5.IsWhole)
    (hc0 : ¬cond1_0 i) (hc1 : cond1_1 i)
    (x0 : Vec F S1024x512 .f32) (x1 : Vec F S8192x256 .f32) (acc : Vec F S512x256 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare acc
       ∗ (iprop(owns (c : Thread nD τ) arg2 fullShare x0 ∗ owns (c : Thread nD τ) arg3 fullShare x1 ∗ owns (c : Thread nD τ) arg4 fullShare (step1 i x0 x1 acc) ∗ owns (c : Thread nD τ) arg5 fullShare (step1 i x0 x1 acc)) -∗ K ⟨⟩))
    ⊢ wp frame (wpE (defs₀ (F := F)) Variants.none c none) E (cc1__rwt_kernel i arg2 harg2 arg3 harg3 arg4 harg4 arg5 harg5) K := by
  simp only [cc1__rwt_kernel_eq_skeleton]; unfold cc1__rwt_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_cons_self, View.mem_set_unit_zero hz2 inb_S512x256_S512x256_0_0 y⟩)]
    rw [View.canon_cons_unit_zero (S := S512x256) hz2, View.readCov_unit_zero (S := S512x256) _ hz2]
    unfold step1
    simp only [View.readAt_eq_ld, harg2.read_unread, harg3.read_unread, harg5.read_unread, View.ld_unit_zero (S := S1024x512) hz2, View.ld_unit_zero (S := S512x256) hz2]
  iexists _; isplitr
  swap; · iexact HS
  ipureintro
  sl_unfold_run_names
  rw [View.read_writes_eq_canon _ _ _ (fun y => ⟨_, List.mem_cons_self, View.mem_set_unit_zero hz2 inb_S512x256_S512x256_0_0 y⟩)]
  rw [View.canon_cons_unit_zero (S := S512x256) hz2]
  unfold step1
  simp only [View.readAt_eq_ld, harg2.read_unread, harg3.read_unread, harg5.read_unread, View.ld_unit_zero (S := S1024x512) hz2, View.ld_unit_zero (S := S512x256) hz2]

end Cert.Kernel.Hand

end
-- ==== Proof.KRwtBody.lean ====
/-
  The diffusion kernel's body obligation. At every grid point (i, k) the body, called on the windows' current staging
  buffers and the scratch accumulator, runs from the region invariant to the invariant at the next point: the inputs'
  buffers hold their blocks (the RW tile fetched at every point, the resident z once), the accumulator goes from what the
  point before left (anything, before the first point; the case k = 0 overwrites it) to one accumulation step on, and the
  output window is idle and handed back untouched where k < 7, live and equal to the accumulator where k = 7. The class
  invariant holds every scoped buffer the pipeline does not stage; the accumulator is pulled out of it once, the rest kept
  under a wand, and put back after the last point.
-/
import proofs.«129998_j66537633349711_2_alg».proof.Proof.KRwtRuns
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in the input windows -/

/-- The RW tile's current staging buffer holds its block at every point: the window is an input, never idle, uncut, and the
    body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The resident z's staging buffer holds the whole array at every point, fetched there (the first point) or not. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

end

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k is not 7 the output window is idle (the body stores nothing into it) -/
theorem idleAt1_2 : ∀ t : Fin cfg1.N, ¬cond1_1 (grid1.coords t) → cfg1.idle 2 (grid1.coords t) = true := by decide +kernel
/-- and is not written back; -/
theorem noFlush1_2 : ∀ t : Fin cfg1.N, ¬cond1_1 (grid1.coords t) → (cfg1.win 2).flush t = false := by decide +kernel
/-- where k = 7 it is live. -/
theorem liveAt1_2 : ∀ t : Fin cfg1.N, cond1_1 (grid1.coords t) → cfg1.idle 2 (grid1.coords t) = false := by decide +kernel

/-! ## The staging memrefs at a point -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)

/-! ## The class invariant, with the accumulator pulled out -/

/-- The class invariant hands over the scratch accumulator at some contents, beside what completes it back to the
    invariant: of the core's scoped buffers that the pipeline does not stage, the accumulator is one; the others and the
    generator register are kept under the wand. -/
theorem PhiA1_split (c : Dev nD) :
    (Pipeline.ΦA spec1 c : sProp 𝕄) ⊢ iprop((∃ d, owns (c : Thread nD τ) scM1 fullShare d) ∗ rest1 c) := by
  unfold rest1 Pipeline.ΦA; rw [scopedRest1_eq]; simp only [scM1, owns_whole]
  iintro ⟨⟨B0, B1, B2, B3, B4, B5, B6, B7, B8, B9, BS, C0, C1, C2, C3, C4, C5, C6, C7, C8, C9⟩, Hg⟩
  isplitl [BS]
  · iexact BS
  iintro BS
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [BS]; · iexact BS
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  iexact C9

section
variable (V : (c : Dev nD) → (b : Ref sig .tc) → Buf (Elt F) ((c : Thread nD τ).loc b))

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class invariant back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  unfold rest1
  iintro ⟨HS, Hr⟩
  iapply Hr
  iexists _; iexact HS

end

section
variable (V : (c : Dev nD) → (b : Ref sig .tc) → Buf (Elt F) ((c : Thread nD τ).loc b))

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's position modulo 8 says which case it is in.
    The invariant hands the body the accumulator at what the point before left (at anything before the first point, and the
    case k = 0 needs no more) and takes it back one step on; where k < 7 the output window is idle and not written back, so
    its buffer is handed back as found; where k = 7 it is live and ends equal to the accumulator; nothing is owed
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [scr1_reset V c t h0]
    by_cases hz : t.val = 0
    · rw [PhiS1_castSucc V c t, PhiS1_zero V c _ _ hz]
      iintro ⟨HΦ, Ho, ⟨%d0, H0⟩, ⟨%d1, H1⟩, ⟨%d2, H2⟩⟩
      icases (PhiA1_split c) $$ HΦ with ⟨HS, Hr⟩
      iapply (run1_A c (grid1.coords t) (ms1_0 t) (hs1_0 t) (ms1_1 t) (hs1_1 t) (ms1_2 t) (hs1_2 t) scM1 (Memref.isWhole_whole _) hc0 hc1 (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
    · rw [PhiS1_castSucc V c t, PhiS1_pos V c _ _ hz]
      iintro ⟨⟨HS, Hr⟩, Ho, ⟨%d0, H0⟩, ⟨%d1, H1⟩, ⟨%d2, H2⟩⟩
      iapply (run1_A c (grid1.coords t) (ms1_0 t) (hs1_0 t) (ms1_1 t) (hs1_1 t) (ms1_2 t) (hs1_2 t) scM1 (Memref.isWhole_whole _) hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    rw [scr1_acc V c t h0]
    rw [PhiS1_castSucc V c t, PhiS1_pos V c _ _ hz]
    by_cases h7 : t.val % 8 = 7
    · have hc1 : cond1_1 (grid1.coords t) := (hcond1_1 t).mpr h7
      rw [show (dat1 V c).leavesExact 2 t = owns (c : Thread nD τ) (ms1_2 t) fullShare ((dat1 V c).after 2 t) from by
        unfold Dat.leavesExact; rw [liveAt1_2 t hc1], after1_2]
      rw [scr1_acc V c t h0]
      iintro ⟨⟨HS, Hr⟩, Ho, ⟨%d0, H0⟩, ⟨%d1, H1⟩, ⟨%d2, H2⟩⟩
      iapply (run1_C c (grid1.coords t) (ms1_0 t) (hs1_0 t) (ms1_1 t) (hs1_1 t) (ms1_2 t) (hs1_2 t) scM1 (Memref.isWhole_whole _) hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · have hc1 : ¬cond1_1 (grid1.coords t) := fun h => h7 ((hcond1_1 t).mp h)
      rw [Dat.leavesExact_idle (dat1 V c) 2 t (idleAt1_2 t hc1) (noFlush1_2 t hc1)]
      iintro ⟨⟨HS, Hr⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _) hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KRun.lean ====
/-
  The whole program's run. Between two items of the host program every unscoped buffer of a core is held at known
  contents: the launch memory; then each stretch of host operations applied; then, after a kernel region, the region's
  arrays at what its write-backs leave (its inputs as entered, its output the fold of the flushed tiles) and every other
  buffer as entered. The three regions are entered and left at these contents, the generator register and the core's
  empty dues riding along; the diffusion region's invariant additionally tracks its accumulator. Every weakly fair
  execution terminates with every unscoped buffer at the last contents, from which the arguments (no item writes one)
  and the result are read.
-/
import proofs.«129998_j66537633349711_2_alg».proof.Proof.KEncBody
import proofs.«129998_j66537633349711_2_alg».proof.Proof.KDecBody
import proofs.«129998_j66537633349711_2_alg».proof.Proof.KRwtBody
import proofs.«129998_j66537633349711_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the encoder's bias reshapes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the encoder region. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the diffusion region. -/
def W3 (c : Dev nD) : Valuation τ sig (Elt F) :=
  Pipeline.withArrays spec1 c (W2 m ρ c) fun w => (dat1 (V2 m ρ) c).arrAt w cfg1.N
/-- After the decoder's bias reshapes. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the decoder region. -/
def W5 (c : Dev nD) : Valuation τ sig (Elt F) :=
  Pipeline.withArrays spec2 c (W4 m ρ c) fun w => (dat2 (V4 m ρ) c).arrAt w cfg2.N
/-- After the three stretches of loss arithmetic. -/
abbrev W6 : Dev nD → Valuation τ sig (Elt F) := fun c => StableHlo.after hostOps3 (W5 m ρ c)
abbrev W7 : Dev nD → Valuation τ sig (Elt F) := fun c => StableHlo.after hostOps3_1 (W6 m ρ c)
abbrev W8 : Dev nD → Valuation τ sig (Elt F) := fun c => StableHlo.after hostOps3_2 (W7 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and what rides along -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the boundary contents: its arrays split out of the unscoped buffers and put back at the exit contents;
    the generator register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the boundary contents: its arrays split out of the unscoped buffers and put back at the exit contents;
    the generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the boundary contents: its arrays split out of the unscoped buffers and put back at the exit contents;
    the generator register into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .host (hseg hostOps3_1 hostOps3_1_sub hostOps3_1_fresh (W6 m ρ)),
    .host (hseg hostOps3_2 hostOps3_2_sub hostOps3_2_fresh (W7 m ρ)) ]

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.KRunFrame.lean ====
/-
  No item of the host program writes an argument array (a region changes only its output array, a stretch of host
  operations only the buffers it defines), so at the run's last contents every argument reads back as launched: the frame.
-/
import proofs.«129998_j66537633349711_2_alg».proof.Proof.KRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W4_keep (c : Dev nD) (r : Ref sig .tc) (h : r ∉ hostOps2_W) : W4 m ρ c (Proc.devRef .tc r) = W3 m ρ c (Proc.devRef .tc r) :=
  StableHlo.after_of_writes_sub hostOps2 _ hostOps2_writes h
theorem W6_keep (c : Dev nD) (r : Ref sig .tc) (h : r ∉ hostOps3_W) : W6 m ρ c (Proc.devRef .tc r) = W5 m ρ c (Proc.devRef .tc r) :=
  StableHlo.after_of_writes_sub hostOps3 _ hostOps3_writes h
theorem W7_keep (c : Dev nD) (r : Ref sig .tc) (h : r ∉ hostOps3_1_W) : W7 m ρ c (Proc.devRef .tc r) = W6 m ρ c (Proc.devRef .tc r) :=
  StableHlo.after_of_writes_sub hostOps3_1 _ hostOps3_1_writes h
theorem W8_keep (c : Dev nD) (r : Ref sig .tc) (h : r ∉ hostOps3_2_W) : W8 m ρ c (Proc.devRef .tc r) = W7 m ρ c (Proc.devRef .tc r) :=
  StableHlo.after_of_writes_sub hostOps3_2 _ hostOps3_2_writes h

/-- Region 0 changes only its output array: every other buffer is as entered. -/
theorem W2_keep (c : Dev nD) (r : Ref sig .tc) (h : r ≠ main_v3) : W2 m ρ c (Proc.devRef .tc r) = W1 m ρ c (Proc.devRef .tc r) := by
  by_cases hw : ∃ w, Pipeline.arrRef spec0 w = r
  · obtain ⟨w, rfl⟩ := hw
    rw [W2_arr]
    match w, h with
    | ⟨0, _⟩, _ => exact ((dat0 (V1 m ρ) c).arrAt_in 0 rfl _).trans (A_eq0 _ c 0)
    | ⟨1, _⟩, _ => exact ((dat0 (V1 m ρ) c).arrAt_in 1 rfl _).trans (A_eq0 _ c 1)
    | ⟨2, _⟩, _ => exact ((dat0 (V1 m ρ) c).arrAt_in 2 rfl _).trans (A_eq0 _ c 2)
    | ⟨3, _⟩, _ => exact ((dat0 (V1 m ρ) c).arrAt_in 3 rfl _).trans (A_eq0 _ c 3)
    | ⟨4, _⟩, _ => exact ((dat0 (V1 m ρ) c).arrAt_in 4 rfl _).trans (A_eq0 _ c 4)
    | ⟨5, _⟩, _ => exact ((dat0 (V1 m ρ) c).arrAt_in 5 rfl _).trans (A_eq0 _ c 5)
    | ⟨6, _⟩, _ => exact ((dat0 (V1 m ρ) c).arrAt_in 6 rfl _).trans (A_eq0 _ c 6)
    | ⟨7, _⟩, h => exact absurd rfl h
  · exact W2_of_ne m ρ c r fun w e => hw ⟨w, e⟩

/-- Region 1 changes only its output array: every other buffer is as entered. -/
theorem W3_keep (c : Dev nD) (r : Ref sig .tc) (h : r ≠ main_v4) : W3 m ρ c (Proc.devRef .tc r) = W2 m ρ c (Proc.devRef .tc r) := by
  by_cases hw : ∃ w, Pipeline.arrRef spec1 w = r
  · obtain ⟨w, rfl⟩ := hw
    rw [W3_arr]
    match w, h with
    | ⟨0, _⟩, _ => exact ((dat1 (V2 m ρ) c).arrAt_in 0 rfl _).trans (A_eq1 _ c 0)
    | ⟨1, _⟩, _ => exact ((dat1 (V2 m ρ) c).arrAt_in 1 rfl _).trans (A_eq1 _ c 1)
    | ⟨2, _⟩, h => exact absurd rfl h
  · exact W3_of_ne m ρ c r fun w e => hw ⟨w, e⟩

/-- Region 2 changes only its output array: every other buffer is as entered. -/
theorem W5_keep (c : Dev nD) (r : Ref sig .tc) (h : r ≠ main_v8) : W5 m ρ c (Proc.devRef .tc r) = W4 m ρ c (Proc.devRef .tc r) := by
  by_cases hw : ∃ w, Pipeline.arrRef spec2 w = r
  · obtain ⟨w, rfl⟩ := hw
    rw [W5_arr]
    match w, h with
    | ⟨0, _⟩, _ => exact ((dat2 (V4 m ρ) c).arrAt_in 0 rfl _).trans (A_eq2 _ c 0)
    | ⟨1, _⟩, _ => exact ((dat2 (V4 m ρ) c).arrAt_in 1 rfl _).trans (A_eq2 _ c 1)
    | ⟨2, _⟩, _ => exact ((dat2 (V4 m ρ) c).arrAt_in 2 rfl _).trans (A_eq2 _ c 2)
    | ⟨3, _⟩, _ => exact ((dat2 (V4 m ρ) c).arrAt_in 3 rfl _).trans (A_eq2 _ c 3)
    | ⟨4, _⟩, _ => exact ((dat2 (V4 m ρ) c).arrAt_in 4 rfl _).trans (A_eq2 _ c 4)
    | ⟨5, _⟩, _ => exact ((dat2 (V4 m ρ) c).arrAt_in 5 rfl _).trans (A_eq2 _ c 5)
    | ⟨6, _⟩, _ => exact ((dat2 (V4 m ρ) c).arrAt_in 6 rfl _).trans (A_eq2 _ c 6)
    | ⟨7, _⟩, h => exact absurd rfl h
  · exact W5_of_ne m ρ c r fun w e => hw ⟨w, e⟩

/-- A buffer no item writes reads at the end as launched. -/
theorem W8_launch (c : Dev nD) (r : Ref sig .tc) (h0 : r ∉ hostOps0_W) (h2 : r ∉ hostOps2_W) (h3 : r ∉ hostOps3_W) (h31 : r ∉ hostOps3_1_W)
    (h32 : r ∉ hostOps3_2_W) (ha : r ≠ main_v3) (hb : r ≠ main_v4) (hc : r ≠ main_v8) :
    W8 m ρ c (Proc.devRef .tc r) = m ((c : Thread nD τ).loc r) :=
  (W8_keep m ρ c r h32).trans <| (W7_keep m ρ c r h31).trans <| (W6_keep m ρ c r h3).trans <| (W5_keep m ρ c r hc).trans <|
    (W4_keep m ρ c r h2).trans <| (W3_keep m ρ c r hb).trans <| (W2_keep m ρ c r ha).trans <| (W1_keep m ρ c r h0).trans rfl

/-- Likewise up to the decoder region's exit. -/
theorem W5_launch (c : Dev nD) (r : Ref sig .tc) (h0 : r ∉ hostOps0_W) (h2 : r ∉ hostOps2_W) (ha : r ≠ main_v3) (hb : r ≠ main_v4) (hc : r ≠ main_v8) :
    W5 m ρ c (Proc.devRef .tc r) = m ((c : Thread nD τ).loc r) :=
  (W5_keep m ρ c r hc).trans <| (W4_keep m ρ c r h2).trans <| (W3_keep m ρ c r hb).trans <| (W2_keep m ρ c r ha).trans <| (W1_keep m ρ c r h0).trans rfl

/-! ## The frame -/

/-- Every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W8_launch m ρ c main_arg0 (by decide) (by decide) (by decide) (by decide) (by decide) (by decide) (by decide) (by decide)),
    (h c _ (mem_uc main_arg1 (by decide))).trans (W8_launch m ρ c main_arg1 (by decide) (by decide) (by decide) (by decide) (by decide) (by decide) (by decide) (by decide)),
    (h c _ (mem_uc main_arg2 (by decide))).trans (W8_launch m ρ c main_arg2 (by decide) (by decide) (by decide) (by decide) (by decide) (by decide) (by decide) (by decide)),
    (h c _ (mem_uc main_arg3 (by decide))).trans (W8_launch m ρ c main_arg3 (by decide) (by decide) (by decide) (by decide) (by decide) (by decide) (by decide) (by decide)),
    (h c _ (mem_uc main_arg4 (by decide))).trans (W8_launch m ρ c main_arg4 (by decide) (by decide) (by decide) (by decide) (by decide) (by decide) (by decide) (by decide)),
    (h c _ (mem_uc main_arg5 (by decide))).trans (W8_launch m ρ c main_arg5 (by decide) (by decide) (by decide) (by decide) (by decide) (by decide) (by decide) (by decide)),
    (h c _ (mem_uc main_arg6 (by decide))).trans (W8_launch m ρ c main_arg6 (by decide) (by decide) (by decide) (by decide) (by decide) (by decide) (by decide) (by decide)),
    (h c _ (mem_uc main_arg7 (by decide))).trans (W8_launch m ρ c main_arg7 (by decide) (by decide) (by decide) (by decide) (by decide) (by decide) (by decide) (by decide)),
    (h c _ (mem_uc main_arg8 (by decide))).trans (W8_launch m ρ c main_arg8 (by decide) (by decide) (by decide) (by decide) (by decide) (by decide) (by decide) (by decide)),
    (h c _ (mem_uc main_arg9 (by decide))).trans (W8_launch m ρ c main_arg9 (by decide) (by decide) (by decide) (by decide) (by decide) (by decide) (by decide) (by decide)),
    (h c _ (mem_uc main_arg10 (by decide))).trans (W8_launch m ρ c main_arg10 (by decide) (by decide) (by decide) (by decide) (by decide) (by decide) (by decide) (by decide)),
    (h c _ (mem_uc main_arg11 (by decide))).trans (W8_launch m ρ c main_arg11 (by decide) (by decide) (by decide) (by decide) (by decide) (by decide) (by decide) (by decide)),
    (h c _ (mem_uc main_arg12 (by decide))).trans (W8_launch m ρ c main_arg12 (by decide) (by decide) (by decide) (by decide) (by decide) (by decide) (by decide) (by decide)),
    (h c _ (mem_uc main_arg13 (by decide))).trans (W8_launch m ρ c main_arg13 (by decide) (by decide) (by decide) (by decide) (by decide) (by decide) (by decide) (by decide)),
    (h c _ (mem_uc main_arg14 (by decide))).trans (W8_launch m ρ c main_arg14 (by decide) (by decide) (by decide) (by decide) (by decide) (by decide) (by decide) (by decide))⟩)
    (run_all m ρ)

end Cert.Kernel.Hand

end
-- ==== Proof.EncData.lean ====
/-
  The encoder region's proof data. One grid point i of 16 handles rows [512 i, 512 i + 512) of X: the body reads the row
  tile of X and the six resident operands (three weight matrices, three bias rows), and stores into the output tile
  ((x w0 + b0) w1 + b1) w2 + b2. Here: each window's block at a point as a read of its array, the output tile as the
  canonical contents of the body's one store, and the pipeline's proof data over them.
-/
import proofs.«129998_j66537633349711_2_alg».proof.Proof.Gen.KernelIdeal.Launch
import proofs.«129998_j66537633349711_2_alg».proof.Proof.Gen.KernelIdeal.Skeleton
import proofs.«129998_j66537633349711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x2048 := Rect.unit (s := S512x2048) ![0, 0] S512x2048.size inb_S512x2048_S512x2048_0_0
abbrev r0_1 : Rect S2048x1024 := Rect.unit (s := S2048x1024) ![0, 0] S2048x1024.size inb_S2048x1024_S2048x1024_0_0
abbrev r0_2 : Rect S1x1024 := Rect.unit (s := S1x1024) ![0, 0] S1x1024.size inb_S1x1024_S1x1024_0_0
abbrev r0_3 : Rect S1024x512 := Rect.unit (s := S1024x512) ![0, 0] S1024x512.size inb_S1024x512_S1024x512_0_0
abbrev r0_4 : Rect S1x512 := Rect.unit (s := S1x512) ![0, 0] S1x512.size inb_S1x512_S1x512_0_0
abbrev r0_5 : Rect S512x256 := Rect.unit (s := S512x256) ![0, 0] S512x256.size inb_S512x256_S512x256_0_0
abbrev r0_6 : Rect S1x256 := Rect.unit (s := S1x256) ![0, 0] S1x256.size inb_S1x256_S1x256_0_0
abbrev r0_7 : Rect S512x256 := Rect.unit (s := S512x256) ![0, 0] S512x256.size inb_S512x256_S512x256_0_0

/-- The output tile after the body, from the input blocks: the one whole-tile store of the three-layer value. -/
def out0_7 (x0 : Vec F S512x2048 .f32) (x1 : Vec F S2048x1024 .f32) (x2 : Vec F S1x1024 .f32) (x3 : Vec F S1024x512 .f32)
    (x4 : Vec F S1x512 .f32) (x5 : Vec F S512x256 .f32) (x6 : Vec F S1x256 .f32) : Vec F S512x256 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The proof data of the encoder's pipeline on core c: arrays as the region finds them, inputs left in place, the output
    tile at out0_7 of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

end

end Cert.KernelIdeal.Hand

end
-- ==== Proof.EncBody.lean ====
/-
  The encoder region's body obligation. At every grid point the body finds in each input window's staging buffer that
  window's block (the row tile of X at the point; the six resident operands, fetched at the first point only, whose
  block index never moves), loads all seven, loads the output tile (unused) and stores the three-layer value over the
  whole output tile. So the output buffer ends at the canonical contents of that one store, the inputs are left in
  place, and the region's invariant passes through unread.
-/
import proofs.«129998_j66537633349711_2_alg».proof.Proof.EncData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in each input window's buffer: its block, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output tile -/

theorem cover0_7 (p0 : Vec F S512x256 .f32) (y : S512x256.Idx) :
    ∃ pc ∈ ([⟨r0_7, p0⟩] : List (View.Piece (Elt F) S512x256 .f32)), y ∈ pc.1.set :=
  View.cover_of_tiled [⟨r0_7, p0⟩] S512x256.size (by rfl) y

/-! ## The body's triple -/

set_option maxHeartbeats 4000000 in
/-- The kernel body on whole staging memrefs, the inputs' at read contents xW and the output's at anything, runs to the
    continuation holding the inputs' as they were and the output's at out0_7 of the inputs': seven loads, a load of the
    output tile whose value is dropped, and one store over the whole tile. -/
theorem sound_kernel0 (c : Dev nD) (E : Set ℕ) (i : grid0.Coords) (arg1 : Memref sig .tc .vmem S512x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S512x256 .f32) (harg8 : arg8.IsWhole)
    (x0 : Vec F S512x2048 .f32) (x1 : Vec F S2048x1024 .f32) (x2 : Vec F S1x1024 .f32) (x3 : Vec F S1024x512 .f32) (x4 : Vec F S1x512 .f32) (x5 : Vec F S512x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The body obligation, at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t: the invariant, the core's debts, and the eight windows' current staging
    buffers, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.DecData.lean ====
/-
  The decoder region's proof data. One grid point i of 16 handles rows [512 i, 512 i + 512) of Z: the body reads the row tile of Z
  and the six resident operands (three weight matrices, three bias rows), and stores into the output tile
  ((z w0 + b0) w1 + b1) w2 + b2. Here: each window's block at a point as a read of its array, the output tile as the
  canonical contents of the body's one store, and the pipeline's proof data over them.
-/
import proofs.«129998_j66537633349711_2_alg».proof.Proof.Gen.KernelIdeal.Launch
import proofs.«129998_j66537633349711_2_alg».proof.Proof.Gen.KernelIdeal.Skeleton
import proofs.«129998_j66537633349711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x256 := Rect.unit (s := S512x256) ![0, 0] S512x256.size inb_S512x256_S512x256_0_0
abbrev r2_1 : Rect S256x512 := Rect.unit (s := S256x512) ![0, 0] S256x512.size inb_S256x512_S256x512_0_0
abbrev r2_2 : Rect S1x512 := Rect.unit (s := S1x512) ![0, 0] S1x512.size inb_S1x512_S1x512_0_0
abbrev r2_3 : Rect S512x1024 := Rect.unit (s := S512x1024) ![0, 0] S512x1024.size inb_S512x1024_S512x1024_0_0
abbrev r2_4 : Rect S1x1024 := Rect.unit (s := S1x1024) ![0, 0] S1x1024.size inb_S1x1024_S1x1024_0_0
abbrev r2_5 : Rect S1024x2048 := Rect.unit (s := S1024x2048) ![0, 0] S1024x2048.size inb_S1024x2048_S1024x2048_0_0
abbrev r2_6 : Rect S1x2048 := Rect.unit (s := S1x2048) ![0, 0] S1x2048.size inb_S1x2048_S1x2048_0_0
abbrev r2_7 : Rect S512x2048 := Rect.unit (s := S512x2048) ![0, 0] S512x2048.size inb_S512x2048_S512x2048_0_0

/-- The output tile after the body, from the input blocks: the one whole-tile store of the three-layer value. -/
def out2_7 (x0 : Vec F S512x256 .f32) (x1 : Vec F S256x512 .f32) (x2 : Vec F S1x512 .f32) (x3 : Vec F S512x1024 .f32)
    (x4 : Vec F S1x1024 .f32) (x5 : Vec F S1024x2048 .f32) (x6 : Vec F S1x2048 .f32) : Vec F S512x2048 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The proof data of the decoder's pipeline on core c: arrays as the region finds them, inputs left in place, the output
    tile at out2_7 of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by
  dsimp only [dat2]

end

end Cert.KernelIdeal.Hand

end
-- ==== Proof.DecBody.lean ====
/-
  The decoder region's body obligation. At every grid point the body finds in each input window's staging buffer that
  window's block (the row tile of Z at the point; the six resident operands, fetched at the first point only, whose
  block index never moves), loads all seven, loads the output tile (unused) and stores the three-layer value over the
  whole output tile. So the output buffer ends at the canonical contents of that one store, the inputs are left in
  place, and the region's invariant passes through unread.
-/
import proofs.«129998_j66537633349711_2_alg».proof.Proof.DecData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in each input window's buffer: its block, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output tile -/

theorem cover2_7 (p0 : Vec F S512x2048 .f32) (y : S512x2048.Idx) :
    ∃ pc ∈ ([⟨r2_7, p0⟩] : List (View.Piece (Elt F) S512x2048 .f32)), y ∈ pc.1.set :=
  View.cover_of_tiled [⟨r2_7, p0⟩] S512x2048.size (by rfl) y

/-! ## The body's triple -/

set_option maxHeartbeats 4000000 in
/-- The kernel body on whole staging memrefs, the inputs' at read contents xW and the output's at anything, runs to the
    continuation holding the inputs' as they were and the output's at out2_7 of the inputs': seven loads, a load of the
    output tile whose value is dropped, and one store over the whole tile. -/
theorem sound_kernel2 (c : Dev nD) (E : Set ℕ) (i : grid2.Coords) (arg1 : Memref sig .tc .vmem S512x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S512x2048 .f32) (harg8 : arg8.IsWhole)
    (x0 : Vec F S512x256 .f32) (x1 : Vec F S256x512 .f32) (x2 : Vec F S1x512 .f32) (x3 : Vec F S512x1024 .f32) (x4 : Vec F S1x1024 .f32) (x5 : Vec F S1024x2048 .f32) (x6 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__decoder_kernel i arg1 harg1 arg2 harg2 arg3 harg3 arg4 harg4 arg5 harg5 arg6 harg6 arg7 harg7 arg8 harg8) K := by
  simp only [cc2__decoder_kernel_eq_skeleton]; unfold cc2__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The body obligation, at a generic point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point t: the invariant, the core's debts, and the eight windows' current staging
    buffers, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.RwtData.lean ====
/-
  The diffusion region's proof data. The grid is 16 × 8: point (i, k) reads the 1024 × 512 tile of RW at block (k, i), the
  1024 rows of the resident Z0 from row 1024 k, and adds their product contracted over the 1024 rows,
  sum_r RW[1024 k + r, 512 i + p] · Z0[1024 k + r, q], into a 512 × 256 scratch accumulator that is zeroed at k = 0 and
  copied to the output tile at k = 7. Here: each window's block at a point, one accumulation step as a function, what the
  scratch holds after each point by recursion on the point, the region invariant that tracks it, and the proof data.
-/
import proofs.«129998_j66537633349711_2_alg».proof.Proof.Gen.KernelIdeal.Launch
import proofs.«129998_j66537633349711_2_alg».proof.Proof.Gen.KernelIdeal.Skeleton
import proofs.«129998_j66537633349711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The kernel's scratch accumulator, a whole scoped buffer of its own. -/
abbrev scM1 : Memref sig .tc .vmem S512x256 .f32 := Memref.whole cc1_scratch0

abbrev r1_0 : Rect S1024x512 := Rect.unit (s := S1024x512) ![0, 0] S1024x512.size inb_S1024x512_S1024x512_0_0
abbrev r1_2 : Rect S512x256 := Rect.unit (s := S512x256) ![0, 0] S512x256.size inb_S512x256_S512x256_0_0
/-- The rows of the resident Z0 the body reads at a point: 1024 rows from row 1024 k. -/
abbrev rz1 (i : grid1.Coords) : Rect S8192x256 := Rect.unit (s := S8192x256) (k1_off1 i) S1024x256.size (k1_off1_inb i)

/-- One accumulation step at grid coordinates i: the accumulator plus the tile product, from the RW tile rw, the whole
    resident z and the accumulator's contents acc before the step. -/
def step1 (i : grid1.Coords) (rw : Vec F S1024x512 .f32) (z : Vec F S8192x256 .f32) (acc : Vec F S512x256 .f32) : Vec F S512x256 .f32 :=
  k1_pay2 (View.ld z (rz1 i)) rw acc

/-- What the scratch accumulator holds after the body at position n: a step from zero where k = 0 (n a multiple of 8),
    a step from what the point before left elsewhere. -/
def scr1 (c : Dev nD) : (n : ℕ) → n < cfg1.N → Vec F S512x256 .f32
  | 0, hn => step1 (grid1.coords ⟨0, hn⟩) (iblk1 V c 0 ⟨0, hn⟩) (iblk1 V c 1 ⟨0, hn⟩) k1_pay1
  | n + 1, hn =>
    if (n + 1) % 8 = 0 then step1 (grid1.coords ⟨n + 1, hn⟩) (iblk1 V c 0 ⟨n + 1, hn⟩) (iblk1 V c 1 ⟨n + 1, hn⟩) k1_pay1
    else step1 (grid1.coords ⟨n + 1, hn⟩) (iblk1 V c 0 ⟨n + 1, hn⟩) (iblk1 V c 1 ⟨n + 1, hn⟩) (scr1 c n (Nat.lt_of_succ_lt hn))

/-- At a point with k = 0 the step starts from zero. -/
theorem scr1_reset (c : Dev nD) (t : Fin cfg1.N) (h : t.val % 8 = 0) :
    scr1 V c t.val t.isLt = step1 (grid1.coords t) (iblk1 V c 0 t) (iblk1 V c 1 t) k1_pay1 := by
  obtain ⟨n, hn⟩ := t
  cases n with
  | zero => rfl
  | succ n => exact if_pos h

/-- At a point with k > 0 the step starts from what the point before left. -/
theorem scr1_acc (c : Dev nD) (t : Fin cfg1.N) (h : ¬ t.val % 8 = 0) :
    scr1 V c t.val t.isLt = step1 (grid1.coords t) (iblk1 V c 0 t) (iblk1 V c 1 t)
      (scr1 V c (t.val - 1) (Nat.lt_of_le_of_lt (Nat.sub_le _ _) t.isLt)) := by
  obtain ⟨n, hn⟩ := t
  cases n with
  | zero => exact absurd (Nat.zero_mod _) h
  | succ n => exact if_neg h

/-- The scoped buffers other than the scratch accumulator and the generator register: what the body never touches,
    given as what completes the accumulator (at any contents) to the class invariant. -/
def rest1 (c : Dev nD) : sProp 𝕄 := iprop((∃ d, owns (c : Thread nD τ) scM1 fullShare d) -∗ Pipeline.ΦA spec1 c)

/-- The region invariant before position n: before the first point the class's (every scoped buffer the pipeline does not
    stage at anything, the generator register at some state); afterwards the accumulator at what the point before left,
    beside the rest. -/
def PhiS1 (c : Dev nD) : (n : ℕ) → n ≤ cfg1.N → sProp 𝕄
  | 0, _ => Pipeline.ΦA spec1 c
  | n + 1, hn => iprop(owns (c : Thread nD τ) scM1 fullShare (scr1 V c n hn) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (scr1 V c n hn) ∗ rest1 c) := rfl

theorem PhiS1_pos (c : Dev nD) (n : ℕ) (h : n ≤ cfg1.N) (hz : n ≠ 0) :
    PhiS1 V c n h = iprop(owns (c : Thread nD τ) scM1 fullShare (scr1 V c (n - 1) (by omega)) ∗ rest1 c) := by
  cases n with
  | zero => exact absurd rfl hz
  | succ n => rfl

/-- The proof data of the diffusion pipeline on core c: arrays as the region finds them, inputs left in place, the output
    tile's buffer at the accumulator's contents (consulted only where it is written back, at k = 7); the invariant tracks
    the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scr1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scr1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end

end Cert.KernelIdeal.Hand

end
-- ==== Proof.RwtRuns.lean ====
/-
  The diffusion kernel's body, run whole in each of its three cases. The body at grid point (i, k): where k = 0 it stores
  zero into the scratch accumulator; it then loads 1024 rows of the resident z from row 1024 k, the RW tile and the
  accumulator, and stores the accumulator plus the tile product back; where k = 7 it copies the accumulator to the output
  tile. Each case is stated on arbitrary whole memrefs with explicit contents: the inputs are left as they were, the
  accumulator ends one accumulation step on (from zero where k = 0), and the output tile is left untouched except where
  k = 7, where it ends equal to the accumulator. A load through the whole-shape rectangle reads the contents, a covering
  store leaves its payload, and a load after a covering store reads that payload.
-/
import proofs.«129998_j66537633349711_2_alg».proof.Proof.RwtData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first conditional, from the grid coordinates: the reduction index k is 0. -/
abbrev cond1_0 (i : grid1.Coords) : Prop := (Scalar.cmpi .ne (Scalar.extui (Scalar.cmpi .eq (BitVec.ofNat 32 (i 1).val) 0#32)) 0#32) = 1#1
/-- It holds at the points that are multiples of 8, decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional: the reduction index k is 7. -/
abbrev cond1_1 (i : grid1.Coords) : Prop := k1_cond2 i = 1#1
/-- It holds at the points that are 7 modulo 8, decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-- The zero offsets of a rank-2 whole-shape rectangle, as the constant-zero function. -/
theorem hz2 : (![0, 0] : Fin 2 → Nat) = fun _ => 0 := funext fun a => by fin_cases a <;> rfl

set_option maxHeartbeats 1000000 in
/-- The body at a point with k = 0 (the first conditional taken, the second not): on whole memrefs holding the RW tile x0,
    the resident z x1, the idle output tile xi and the accumulator at anything, it runs to the continuation with the inputs
    and the output tile as they were and the accumulator at one step from zero. -/
theorem run1_A (c : Dev nD) (i : grid1.Coords)
    (arg2 : Memref sig .tc .vmem S1024x512 .f32) (harg2 : arg2.IsWhole)
    (arg3 : Memref sig .tc .vmem S8192x256 .f32) (harg3 : arg3.IsWhole)
    (arg4 : Memref sig .tc .vmem S512x256 .f32) (harg4 : arg4.IsWhole)
    (arg5 : Memref sig .tc .vmem S512x256 .f32) (harg5 : arg5.IsWhole)
    (hc0 : cond1_0 i) (hc1 : ¬cond1_1 i)
    (x0 : Vec F S1024x512 .f32) (x1 : Vec F S8192x256 .f32) (xi : Vec F S512x256 .f32)
    (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
       ∗ (iprop(owns (c : Thread nD τ) arg2 fullShare x0 ∗ owns (c : Thread nD τ) arg3 fullShare x1 ∗ owns (c : Thread nD τ) arg4 fullShare xi ∗ owns (c : Thread nD τ) arg5 fullShare (step1 i x0 x1 k1_pay1)) -∗ K ⟨⟩))
    ⊢ wp frame (wpE (defs₀ (F := F)) Variants.none c none) E (cc1__rwt_kernel i arg2 harg2 arg3 harg3 arg4 harg4 arg5 harg5) K := by
  simp only [cc1__rwt_kernel_eq_skeleton]; unfold cc1__rwt_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (fun y => ⟨_, List.mem_cons_self, View.mem_set_unit_zero hz2 inb_S512x256_S512x256_0_0 y⟩)]
  rw [View.canon_cons_unit_zero (S := S512x256) hz2, View.readCov_unit_zero (S := S512x256) _ hz2]
  unfold step1
  simp only [View.readAt_eq_ld, harg2.read_unread, harg3.read_unread, View.ld_unit_zero (S := S1024x512) hz2]

set_option maxHeartbeats 1000000 in
/-- The body at a point with 0 < k < 7 (neither conditional taken): with the accumulator at acc, it runs to the continuation
    with the inputs and the idle output tile as they were and the accumulator one step on from acc. -/
theorem run1_B (c : Dev nD) (i : grid1.Coords)
    (arg2 : Memref sig .tc .vmem S1024x512 .f32) (harg2 : arg2.IsWhole)
    (arg3 : Memref sig .tc .vmem S8192x256 .f32) (harg3 : arg3.IsWhole)
    (arg4 : Memref sig .tc .vmem S512x256 .f32) (harg4 : arg4.IsWhole)
    (arg5 : Memref sig .tc .vmem S512x256 .f32) (harg5 : arg5.IsWhole)
    (hc0 : ¬cond1_0 i) (hc1 : ¬cond1_1 i)
    (x0 : Vec F S1024x512 .f32) (x1 : Vec F S8192x256 .f32) (xi : Vec F S512x256 .f32) (acc : Vec F S512x256 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare acc
       ∗ (iprop(owns (c : Thread nD τ) arg2 fullShare x0 ∗ owns (c : Thread nD τ) arg3 fullShare x1 ∗ owns (c : Thread nD τ) arg4 fullShare xi ∗ owns (c : Thread nD τ) arg5 fullShare (step1 i x0 x1 acc)) -∗ K ⟨⟩))
    ⊢ wp frame (wpE (defs₀ (F := F)) Variants.none c none) E (cc1__rwt_kernel i arg2 harg2 arg3 harg3 arg4 harg4 arg5 harg5) K := by
  simp only [cc1__rwt_kernel_eq_skeleton]; unfold cc1__rwt_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (fun y => ⟨_, List.mem_cons_self, View.mem_set_unit_zero hz2 inb_S512x256_S512x256_0_0 y⟩)]
  rw [View.canon_cons_unit_zero (S := S512x256) hz2]
  unfold step1
  simp only [View.readAt_eq_ld, harg2.read_unread, harg3.read_unread, harg5.read_unread, View.ld_unit_zero (S := S1024x512) hz2, View.ld_unit_zero (S := S512x256) hz2]

set_option maxHeartbeats 1000000 in
/-- The body at a point with k = 7 (the first conditional not taken, the second taken): with the accumulator at acc and the
    output tile at anything, it runs to the continuation with the inputs as they were and both the accumulator and the
    output tile one step on from acc. -/
theorem run1_C (c : Dev nD) (i : grid1.Coords)
    (arg2 : Memref sig .tc .vmem S1024x512 .f32) (harg2 : arg2.IsWhole)
    (arg3 : Memref sig .tc .vmem S8192x256 .f32) (harg3 : arg3.IsWhole)
    (arg4 : Memref sig .tc .vmem S512x256 .f32) (harg4 : arg4.IsWhole)
    (arg5 : Memref sig .tc .vmem S512x256 .f32) (harg5 : arg5.IsWhole)
    (hc0 : ¬cond1_0 i) (hc1 : cond1_1 i)
    (x0 : Vec F S1024x512 .f32) (x1 : Vec F S8192x256 .f32) (acc : Vec F S512x256 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare acc
       ∗ (iprop(owns (c : Thread nD τ) arg2 fullShare x0 ∗ owns (c : Thread nD τ) arg3 fullShare x1 ∗ owns (c : Thread nD τ) arg4 fullShare (step1 i x0 x1 acc) ∗ owns (c : Thread nD τ) arg5 fullShare (step1 i x0 x1 acc)) -∗ K ⟨⟩))
    ⊢ wp frame (wpE (defs₀ (F := F)) Variants.none c none) E (cc1__rwt_kernel i arg2 harg2 arg3 harg3 arg4 harg4 arg5 harg5) K := by
  simp only [cc1__rwt_kernel_eq_skeleton]; unfold cc1__rwt_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_cons_self, View.mem_set_unit_zero hz2 inb_S512x256_S512x256_0_0 y⟩)]
    rw [View.canon_cons_unit_zero (S := S512x256) hz2, View.readCov_unit_zero (S := S512x256) _ hz2]
    unfold step1
    simp only [View.readAt_eq_ld, harg2.read_unread, harg3.read_unread, harg5.read_unread, View.ld_unit_zero (S := S1024x512) hz2, View.ld_unit_zero (S := S512x256) hz2]
  iexists _; isplitr
  swap; · iexact HS
  ipureintro
  sl_unfold_run_names
  rw [View.read_writes_eq_canon _ _ _ (fun y => ⟨_, List.mem_cons_self, View.mem_set_unit_zero hz2 inb_S512x256_S512x256_0_0 y⟩)]
  rw [View.canon_cons_unit_zero (S := S512x256) hz2]
  unfold step1
  simp only [View.readAt_eq_ld, harg2.read_unread, harg3.read_unread, harg5.read_unread, View.ld_unit_zero (S := S1024x512) hz2, View.ld_unit_zero (S := S512x256) hz2]

end Cert.KernelIdeal.Hand

end
-- ==== Proof.RwtBody.lean ====
/-
  The diffusion kernel's body obligation. At every grid point (i, k) the body, called on the windows' current staging
  buffers and the scratch accumulator, runs from the region invariant to the invariant at the next point: the inputs'
  buffers hold their blocks (the RW tile fetched at every point, the resident z once), the accumulator goes from what the
  point before left (anything, before the first point; the case k = 0 overwrites it) to one accumulation step on, and the
  output window is idle and handed back untouched where k < 7, live and equal to the accumulator where k = 7. The class
  invariant holds every scoped buffer the pipeline does not stage; the accumulator is pulled out of it once, the rest kept
  under a wand, and put back after the last point.
-/
import proofs.«129998_j66537633349711_2_alg».proof.Proof.RwtRuns
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in the input windows -/

/-- The RW tile's current staging buffer holds its block at every point: the window is an input, never idle, uncut, and the
    body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The resident z's staging buffer holds the whole array at every point, fetched there (the first point) or not. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

end

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k is not 7 the output window is idle (the body stores nothing into it) -/
theorem idleAt1_2 : ∀ t : Fin cfg1.N, ¬cond1_1 (grid1.coords t) → cfg1.idle 2 (grid1.coords t) = true := by decide +kernel
/-- and is not written back; -/
theorem noFlush1_2 : ∀ t : Fin cfg1.N, ¬cond1_1 (grid1.coords t) → (cfg1.win 2).flush t = false := by decide +kernel
/-- where k = 7 it is live. -/
theorem liveAt1_2 : ∀ t : Fin cfg1.N, cond1_1 (grid1.coords t) → cfg1.idle 2 (grid1.coords t) = false := by decide +kernel

/-! ## The staging memrefs at a point -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)

/-! ## The class invariant, with the accumulator pulled out -/

/-- The class invariant hands over the scratch accumulator at some contents, beside what completes it back to the
    invariant: of the core's scoped buffers that the pipeline does not stage, the accumulator is one; the others and the
    generator register are kept under the wand. -/
theorem PhiA1_split (c : Dev nD) :
    (Pipeline.ΦA spec1 c : sProp 𝕄) ⊢ iprop((∃ d, owns (c : Thread nD τ) scM1 fullShare d) ∗ rest1 c) := by
  unfold rest1 Pipeline.ΦA; rw [scopedRest1_eq]; simp only [scM1, owns_whole]
  iintro ⟨⟨B0, B1, B2, B3, B4, B5, B6, B7, B8, B9, BS, C0, C1, C2, C3, C4, C5, C6, C7, C8, C9⟩, Hg⟩
  isplitl [BS]
  · iexact BS
  iintro BS
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [BS]; · iexact BS
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  iexact C9

section
variable (V : (c : Dev nD) → (b : Ref sig .tc) → Buf (Elt F) ((c : Thread nD τ).loc b))

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class invariant back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  unfold rest1
  iintro ⟨HS, Hr⟩
  iapply Hr
  iexists _; iexact HS

end

section
variable (V : (c : Dev nD) → (b : Ref sig .tc) → Buf (Elt F) ((c : Thread nD τ).loc b))

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's position modulo 8 says which case it is in.
    The invariant hands the body the accumulator at what the point before left (at anything before the first point, and the
    case k = 0 needs no more) and takes it back one step on; where k < 7 the output window is idle and not written back, so
    its buffer is handed back as found; where k = 7 it is live and ends equal to the accumulator; nothing is owed
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [scr1_reset V c t h0]
    by_cases hz : t.val = 0
    · rw [PhiS1_castSucc V c t, PhiS1_zero V c _ _ hz]
      iintro ⟨HΦ, Ho, ⟨%d0, H0⟩, ⟨%d1, H1⟩, ⟨%d2, H2⟩⟩
      icases (PhiA1_split c) $$ HΦ with ⟨HS, Hr⟩
      iapply (run1_A c (grid1.coords t) (ms1_0 t) (hs1_0 t) (ms1_1 t) (hs1_1 t) (ms1_2 t) (hs1_2 t) scM1 (Memref.isWhole_whole _) hc0 hc1 (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
    · rw [PhiS1_castSucc V c t, PhiS1_pos V c _ _ hz]
      iintro ⟨⟨HS, Hr⟩, Ho, ⟨%d0, H0⟩, ⟨%d1, H1⟩, ⟨%d2, H2⟩⟩
      iapply (run1_A c (grid1.coords t) (ms1_0 t) (hs1_0 t) (ms1_1 t) (hs1_1 t) (ms1_2 t) (hs1_2 t) scM1 (Memref.isWhole_whole _) hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    rw [scr1_acc V c t h0]
    rw [PhiS1_castSucc V c t, PhiS1_pos V c _ _ hz]
    by_cases h7 : t.val % 8 = 7
    · have hc1 : cond1_1 (grid1.coords t) := (hcond1_1 t).mpr h7
      rw [show (dat1 V c).leavesExact 2 t = owns (c : Thread nD τ) (ms1_2 t) fullShare ((dat1 V c).after 2 t) from by
        unfold Dat.leavesExact; rw [liveAt1_2 t hc1], after1_2]
      rw [scr1_acc V c t h0]
      iintro ⟨⟨HS, Hr⟩, Ho, ⟨%d0, H0⟩, ⟨%d1, H1⟩, ⟨%d2, H2⟩⟩
      iapply (run1_C c (grid1.coords t) (ms1_0 t) (hs1_0 t) (ms1_1 t) (hs1_1 t) (ms1_2 t) (hs1_2 t) scM1 (Memref.isWhole_whole _) hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · have hc1 : ¬cond1_1 (grid1.coords t) := fun h => h7 ((hcond1_1 t).mp h)
      rw [Dat.leavesExact_idle (dat1 V c) 2 t (idleAt1_2 t hc1) (noFlush1_2 t hc1)]
      iintro ⟨⟨HS, Hr⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _) hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Run.lean ====
/-
  The whole program's run. Between two items of the host program every unscoped buffer of a core is held at known
  contents: the launch memory; then each stretch of host operations applied; then, after a kernel region, the region's
  arrays at what its write-backs leave (its inputs as entered, its output the fold of the flushed tiles) and every other
  buffer as entered. The three regions are entered and left at these contents, the generator register and the core's
  empty dues riding along; the diffusion region's invariant additionally tracks its accumulator. Every weakly fair
  execution terminates with every unscoped buffer at the last contents, from which the arguments (no item writes one)
  and the result are read.
-/
import proofs.«129998_j66537633349711_2_alg».proof.Proof.EncBody
import proofs.«129998_j66537633349711_2_alg».proof.Proof.DecBody
import proofs.«129998_j66537633349711_2_alg».proof.Proof.RwtBody
import proofs.«129998_j66537633349711_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the encoder's bias reshapes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the encoder region. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the diffusion region. -/
def W3 (c : Dev nD) : Valuation τ sig (Elt F) :=
  Pipeline.withArrays spec1 c (W2 m ρ c) fun w => (dat1 (V2 m ρ) c).arrAt w cfg1.N
/-- After the decoder's bias reshapes. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the decoder region. -/
def W5 (c : Dev nD) : Valuation τ sig (Elt F) :=
  Pipeline.withArrays spec2 c (W4 m ρ c) fun w => (dat2 (V4 m ρ) c).arrAt w cfg2.N
/-- After the three stretches of loss arithmetic. -/
abbrev W6 : Dev nD → Valuation τ sig (Elt F) := fun c => StableHlo.after hostOps3 (W5 m ρ c)
abbrev W7 : Dev nD → Valuation τ sig (Elt F) := fun c => StableHlo.after hostOps3_1 (W6 m ρ c)
abbrev W8 : Dev nD → Valuation τ sig (Elt F) := fun c => StableHlo.after hostOps3_2 (W7 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and what rides along -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the boundary contents: its arrays split out of the unscoped buffers and put back at the exit contents;
    the generator register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the boundary contents: its arrays split out of the unscoped buffers and put back at the exit contents;
    the generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the boundary contents: its arrays split out of the unscoped buffers and put back at the exit contents;
    the generator register into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .host (hseg hostOps3_1 hostOps3_1_sub hostOps3_1_fresh (W6 m ρ)),
    .host (hseg hostOps3_2 hostOps3_2_sub hostOps3_2_fresh (W7 m ρ)) ]

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.RunFrame.lean ====
/-
  No item of the host program writes an argument array (a region changes only its output array, a stretch of host
  operations only the buffers it defines), so at the run's last contents every argument reads back as launched: the frame.
-/
import proofs.«129998_j66537633349711_2_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W4_keep (c : Dev nD) (r : Ref sig .tc) (h : r ∉ hostOps2_W) : W4 m ρ c (Proc.devRef .tc r) = W3 m ρ c (Proc.devRef .tc r) :=
  StableHlo.after_of_writes_sub hostOps2 _ hostOps2_writes h
theorem W6_keep (c : Dev nD) (r : Ref sig .tc) (h : r ∉ hostOps3_W) : W6 m ρ c (Proc.devRef .tc r) = W5 m ρ c (Proc.devRef .tc r) :=
  StableHlo.after_of_writes_sub hostOps3 _ hostOps3_writes h
theorem W7_keep (c : Dev nD) (r : Ref sig .tc) (h : r ∉ hostOps3_1_W) : W7 m ρ c (Proc.devRef .tc r) = W6 m ρ c (Proc.devRef .tc r) :=
  StableHlo.after_of_writes_sub hostOps3_1 _ hostOps3_1_writes h
theorem W8_keep (c : Dev nD) (r : Ref sig .tc) (h : r ∉ hostOps3_2_W) : W8 m ρ c (Proc.devRef .tc r) = W7 m ρ c (Proc.devRef .tc r) :=
  StableHlo.after_of_writes_sub hostOps3_2 _ hostOps3_2_writes h

/-- Region 0 changes only its output array: every other buffer is as entered. -/
theorem W2_keep (c : Dev nD) (r : Ref sig .tc) (h : r ≠ main_v3) : W2 m ρ c (Proc.devRef .tc r) = W1 m ρ c (Proc.devRef .tc r) := by
  by_cases hw : ∃ w, Pipeline.arrRef spec0 w = r
  · obtain ⟨w, rfl⟩ := hw
    rw [W2_arr]
    match w, h with
    | ⟨0, _⟩, _ => exact ((dat0 (V1 m ρ) c).arrAt_in 0 rfl _).trans (A_eq0 _ c 0)
    | ⟨1, _⟩, _ => exact ((dat0 (V1 m ρ) c).arrAt_in 1 rfl _).trans (A_eq0 _ c 1)
    | ⟨2, _⟩, _ => exact ((dat0 (V1 m ρ) c).arrAt_in 2 rfl _).trans (A_eq0 _ c 2)
    | ⟨3, _⟩, _ => exact ((dat0 (V1 m ρ) c).arrAt_in 3 rfl _).trans (A_eq0 _ c 3)
    | ⟨4, _⟩, _ => exact ((dat0 (V1 m ρ) c).arrAt_in 4 rfl _).trans (A_eq0 _ c 4)
    | ⟨5, _⟩, _ => exact ((dat0 (V1 m ρ) c).arrAt_in 5 rfl _).trans (A_eq0 _ c 5)
    | ⟨6, _⟩, _ => exact ((dat0 (V1 m ρ) c).arrAt_in 6 rfl _).trans (A_eq0 _ c 6)
    | ⟨7, _⟩, h => exact absurd rfl h
  · exact W2_of_ne m ρ c r fun w e => hw ⟨w, e⟩

/-- Region 1 changes only its output array: every other buffer is as entered. -/
theorem W3_keep (c : Dev nD) (r : Ref sig .tc) (h : r ≠ main_v4) : W3 m ρ c (Proc.devRef .tc r) = W2 m ρ c (Proc.devRef .tc r) := by
  by_cases hw : ∃ w, Pipeline.arrRef spec1 w = r
  · obtain ⟨w, rfl⟩ := hw
    rw [W3_arr]
    match w, h with
    | ⟨0, _⟩, _ => exact ((dat1 (V2 m ρ) c).arrAt_in 0 rfl _).trans (A_eq1 _ c 0)
    | ⟨1, _⟩, _ => exact ((dat1 (V2 m ρ) c).arrAt_in 1 rfl _).trans (A_eq1 _ c 1)
    | ⟨2, _⟩, h => exact absurd rfl h
  · exact W3_of_ne m ρ c r fun w e => hw ⟨w, e⟩

/-- Region 2 changes only its output array: every other buffer is as entered. -/
theorem W5_keep (c : Dev nD) (r : Ref sig .tc) (h : r ≠ main_v8) : W5 m ρ c (Proc.devRef .tc r) = W4 m ρ c (Proc.devRef .tc r) := by
  by_cases hw : ∃ w, Pipeline.arrRef spec2 w = r
  · obtain ⟨w, rfl⟩ := hw
    rw [W5_arr]
    match w, h with
    | ⟨0, _⟩, _ => exact ((dat2 (V4 m ρ) c).arrAt_in 0 rfl _).trans (A_eq2 _ c 0)
    | ⟨1, _⟩, _ => exact ((dat2 (V4 m ρ) c).arrAt_in 1 rfl _).trans (A_eq2 _ c 1)
    | ⟨2, _⟩, _ => exact ((dat2 (V4 m ρ) c).arrAt_in 2 rfl _).trans (A_eq2 _ c 2)
    | ⟨3, _⟩, _ => exact ((dat2 (V4 m ρ) c).arrAt_in 3 rfl _).trans (A_eq2 _ c 3)
    | ⟨4, _⟩, _ => exact ((dat2 (V4 m ρ) c).arrAt_in 4 rfl _).trans (A_eq2 _ c 4)
    | ⟨5, _⟩, _ => exact ((dat2 (V4 m ρ) c).arrAt_in 5 rfl _).trans (A_eq2 _ c 5)
    | ⟨6, _⟩, _ => exact ((dat2 (V4 m ρ) c).arrAt_in 6 rfl _).trans (A_eq2 _ c 6)
    | ⟨7, _⟩, h => exact absurd rfl h
  · exact W5_of_ne m ρ c r fun w e => hw ⟨w, e⟩

/-- A buffer no item writes reads at the end as launched. -/
theorem W8_launch (c : Dev nD) (r : Ref sig .tc) (h0 : r ∉ hostOps0_W) (h2 : r ∉ hostOps2_W) (h3 : r ∉ hostOps3_W) (h31 : r ∉ hostOps3_1_W)
    (h32 : r ∉ hostOps3_2_W) (ha : r ≠ main_v3) (hb : r ≠ main_v4) (hc : r ≠ main_v8) :
    W8 m ρ c (Proc.devRef .tc r) = m ((c : Thread nD τ).loc r) :=
  (W8_keep m ρ c r h32).trans <| (W7_keep m ρ c r h31).trans <| (W6_keep m ρ c r h3).trans <| (W5_keep m ρ c r hc).trans <|
    (W4_keep m ρ c r h2).trans <| (W3_keep m ρ c r hb).trans <| (W2_keep m ρ c r ha).trans <| (W1_keep m ρ c r h0).trans rfl

/-- Likewise up to the decoder region's exit. -/
theorem W5_launch (c : Dev nD) (r : Ref sig .tc) (h0 : r ∉ hostOps0_W) (h2 : r ∉ hostOps2_W) (ha : r ≠ main_v3) (hb : r ≠ main_v4) (hc : r ≠ main_v8) :
    W5 m ρ c (Proc.devRef .tc r) = m ((c : Thread nD τ).loc r) :=
  (W5_keep m ρ c r hc).trans <| (W4_keep m ρ c r h2).trans <| (W3_keep m ρ c r hb).trans <| (W2_keep m ρ c r ha).trans <| (W1_keep m ρ c r h0).trans rfl

/-! ## The frame -/

/-- Every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W8_launch m ρ c main_arg0 (by decide) (by decide) (by decide) (by decide) (by decide) (by decide) (by decide) (by decide)),
    (h c _ (mem_uc main_arg1 (by decide))).trans (W8_launch m ρ c main_arg1 (by decide) (by decide) (by decide) (by decide) (by decide) (by decide) (by decide) (by decide)),
    (h c _ (mem_uc main_arg2 (by decide))).trans (W8_launch m ρ c main_arg2 (by decide) (by decide) (by decide) (by decide) (by decide) (by decide) (by decide) (by decide)),
    (h c _ (mem_uc main_arg3 (by decide))).trans (W8_launch m ρ c main_arg3 (by decide) (by decide) (by decide) (by decide) (by decide) (by decide) (by decide) (by decide)),
    (h c _ (mem_uc main_arg4 (by decide))).trans (W8_launch m ρ c main_arg4 (by decide) (by decide) (by decide) (by decide) (by decide) (by decide) (by decide) (by decide)),
    (h c _ (mem_uc main_arg5 (by decide))).trans (W8_launch m ρ c main_arg5 (by decide) (by decide) (by decide) (by decide) (by decide) (by decide) (by decide) (by decide)),
    (h c _ (mem_uc main_arg6 (by decide))).trans (W8_launch m ρ c main_arg6 (by decide) (by decide) (by decide) (by decide) (by decide) (by decide) (by decide) (by decide)),
    (h c _ (mem_uc main_arg7 (by decide))).trans (W8_launch m ρ c main_arg7 (by decide) (by decide) (by decide) (by decide) (by decide) (by decide) (by decide) (by decide)),
    (h c _ (mem_uc main_arg8 (by decide))).trans (W8_launch m ρ c main_arg8 (by decide) (by decide) (by decide) (by decide) (by decide) (by decide) (by decide) (by decide)),
    (h c _ (mem_uc main_arg9 (by decide))).trans (W8_launch m ρ c main_arg9 (by decide) (by decide) (by decide) (by decide) (by decide) (by decide) (by decide) (by decide)),
    (h c _ (mem_uc main_arg10 (by decide))).trans (W8_launch m ρ c main_arg10 (by decide) (by decide) (by decide) (by decide) (by decide) (by decide) (by decide) (by decide)),
    (h c _ (mem_uc main_arg11 (by decide))).trans (W8_launch m ρ c main_arg11 (by decide) (by decide) (by decide) (by decide) (by decide) (by decide) (by decide) (by decide)),
    (h c _ (mem_uc main_arg12 (by decide))).trans (W8_launch m ρ c main_arg12 (by decide) (by decide) (by decide) (by decide) (by decide) (by decide) (by decide) (by decide)),
    (h c _ (mem_uc main_arg13 (by decide))).trans (W8_launch m ρ c main_arg13 (by decide) (by decide) (by decide) (by decide) (by decide) (by decide) (by decide) (by decide)),
    (h c _ (mem_uc main_arg14 (by decide))).trans (W8_launch m ρ c main_arg14 (by decide) (by decide) (by decide) (by decide) (by decide) (by decide) (by decide) (by decide))⟩)
    (run_all m ρ)

end Cert.KernelIdeal.Hand

end
-- ==== Proof.TailStages.lean ====
/- The loss, for any float instance, as ONE function of the diffused embedding Z, the reconstruction logits Xp, the data X
  and the cluster centres: squared distances, the Student-t assignment Q and its target P, the Kullback-Leibler term
  mean(P log(P/Q)) and the binary cross-entropy with logits, added. One definition per host line after the last kernel of
  the printed program (the outlined clip inlined at its call), each over the definitions of the lines it reads, so that
  both programs' results can be stated by the same term. A table of definitions: no argument is made here. -/
import proofs.«129998_j66537633349711_2_alg».proof.Proof.Gen.KernelIdeal

noncomputable section

namespace Cert.KernelIdeal.Hand

open Idealize.ShloMosaic Idealize.ShloMosaic.TcCoe
open Cert.KernelIdeal Cert.KernelIdeal.Gen

variable {F : FTy → Type} [FloatOps F]

def tl_v9 (Z : (⟨S8192x256, .f32⟩ : BufTy).Contents (Elt F)) : (⟨S8192x256, .f32⟩ : BufTy).Contents (Elt F) :=
  (mulf : (⟨S8192x256, .f32⟩ : BufTy).Contents (Elt F) → (⟨S8192x256, .f32⟩ : BufTy).Contents (Elt F) → (⟨S8192x256, .f32⟩ : BufTy).Contents (Elt F)) Z Z
def tl_cst : (⟨S_, .f32⟩ : BufTy).Contents (Elt F) :=
  constant S_ .f32 0x00000000#32
def tl_v10 (Z : (⟨S8192x256, .f32⟩ : BufTy).Contents (Elt F)) : (⟨S8192, .f32⟩ : BufTy).Contents (Elt F) :=
  ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)) (tl_v9 (F := F) Z) (tl_cst (F := F))
def tl_v11 (Z : (⟨S8192x256, .f32⟩ : BufTy).Contents (Elt F)) : (⟨S8192x1, .f32⟩ : BufTy).Contents (Elt F) :=
  (broadcastInDim S8192x1 ![0] bcast_S8192_S8192x1_0 : (⟨S8192, .f32⟩ : BufTy).Contents (Elt F) → (⟨S8192x1, .f32⟩ : BufTy).Contents (Elt F)) (tl_v10 (F := F) Z)
def tl_cst_0 : (⟨S_, .f32⟩ : BufTy).Contents (Elt F) :=
  constant S_ .f32 0x40000000#32
def tl_v12 : (⟨S8192x256, .f32⟩ : BufTy).Contents (Elt F) :=
  (broadcastInDim S8192x256 ![] bcast_S_S8192x256 : (⟨S_, .f32⟩ : BufTy).Contents (Elt F) → (⟨S8192x256, .f32⟩ : BufTy).Contents (Elt F)) (tl_cst_0 (F := F))
def tl_v13 (Z : (⟨S8192x256, .f32⟩ : BufTy).Contents (Elt F)) : (⟨S8192x256, .f32⟩ : BufTy).Contents (Elt F) :=
  (mulf : (⟨S8192x256, .f32⟩ : BufTy).Contents (Elt F) → (⟨S8192x256, .f32⟩ : BufTy).Contents (Elt F) → (⟨S8192x256, .f32⟩ : BufTy).Contents (Elt F)) (tl_v12 (F := F)) Z
def tl_v14 (mean : (⟨S64x256, .f32⟩ : BufTy).Contents (Elt F)) : (⟨S256x64, .f32⟩ : BufTy).Contents (Elt F) :=
  ((transpose S256x64 [1, 0] · transposes_S64x256_S256x64_1_0) : (⟨S64x256, .f32⟩ : BufTy).Contents (Elt F) → (⟨S256x64, .f32⟩ : BufTy).Contents (Elt F)) mean
def tl_v15 (Z : (⟨S8192x256, .f32⟩ : BufTy).Contents (Elt F)) (mean : (⟨S64x256, .f32⟩ : BufTy).Contents (Elt F)) : (⟨S8192x64, .f32⟩ : BufTy).Contents (Elt F) :=
  ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)) (tl_v13 (F := F) Z) (tl_v14 (F := F) mean)
def tl_v16 (Z : (⟨S8192x256, .f32⟩ : BufTy).Contents (Elt F)) : (⟨S8192x64, .f32⟩ : BufTy).Contents (Elt F) :=
  (broadcastInDim S8192x64 ![0, 1] bcast_S8192x1_S8192x64_0_1 : (⟨S8192x1, .f32⟩ : BufTy).Contents (Elt F) → (⟨S8192x64, .f32⟩ : BufTy).Contents (Elt F)) (tl_v11 (F := F) Z)
def tl_v17 (Z : (⟨S8192x256, .f32⟩ : BufTy).Contents (Elt F)) (mean : (⟨S64x256, .f32⟩ : BufTy).Contents (Elt F)) : (⟨S8192x64, .f32⟩ : BufTy).Contents (Elt F) :=
  (subf : (⟨S8192x64, .f32⟩ : BufTy).Contents (Elt F) → (⟨S8192x64, .f32⟩ : BufTy).Contents (Elt F) → (⟨S8192x64, .f32⟩ : BufTy).Contents (Elt F)) (tl_v16 (F := F) Z) (tl_v15 (F := F) Z mean)
def tl_v18 (mean : (⟨S64x256, .f32⟩ : BufTy).Contents (Elt F)) : (⟨S64x256, .f32⟩ : BufTy).Contents (Elt F) :=
  (mulf : (⟨S64x256, .f32⟩ : BufTy).Contents (Elt F) → (⟨S64x256, .f32⟩ : BufTy).Contents (Elt F) → (⟨S64x256, .f32⟩ : BufTy).Contents (Elt F)) mean mean
def tl_cst_1 : (⟨S_, .f32⟩ : BufTy).Contents (Elt F) :=
  constant S_ .f32 0x00000000#32
def tl_v19 (mean : (⟨S64x256, .f32⟩ : BufTy).Contents (Elt F)) : (⟨S64, .f32⟩ : BufTy).Contents (Elt F) :=
  ((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F)) (tl_v18 (F := F) mean) (tl_cst_1 (F := F))
def tl_v20 (mean : (⟨S64x256, .f32⟩ : BufTy).Contents (Elt F)) : (⟨S1x64, .f32⟩ : BufTy).Contents (Elt F) :=
  (broadcastInDim S1x64 ![1] bcast_S64_S1x64_1 : (⟨S64, .f32⟩ : BufTy).Contents (Elt F) → (⟨S1x64, .f32⟩ : BufTy).Contents (Elt F)) (tl_v19 (F := F) mean)
def tl_v21 (mean : (⟨S64x256, .f32⟩ : BufTy).Contents (Elt F)) : (⟨S8192x64, .f32⟩ : BufTy).Contents (Elt F) :=
  (broadcastInDim S8192x64 ![0, 1] bcast_S1x64_S8192x64_0_1 : (⟨S1x64, .f32⟩ : BufTy).Contents (Elt F) → (⟨S8192x64, .f32⟩ : BufTy).Contents (Elt F)) (tl_v20 (F := F) mean)
def tl_v22 (Z : (⟨S8192x256, .f32⟩ : BufTy).Contents (Elt F)) (mean : (⟨S64x256, .f32⟩ : BufTy).Contents (Elt F)) : (⟨S8192x64, .f32⟩ : BufTy).Contents (Elt F) :=
  (addf : (⟨S8192x64, .f32⟩ : BufTy).Contents (Elt F) → (⟨S8192x64, .f32⟩ : BufTy).Contents (Elt F) → (⟨S8192x64, .f32⟩ : BufTy).Contents (Elt F)) (tl_v17 (F := F) Z mean) (tl_v21 (F := F) mean)
def tl_cst_2 : (⟨S_, .f32⟩ : BufTy).Contents (Elt F) :=
  constant S_ .f32 0x3F800000#32
def tl_v23 : (⟨S8192x64, .f32⟩ : BufTy).Contents (Elt F) :=
  (broadcastInDim S8192x64 ![] bcast_S_S8192x64 : (⟨S_, .f32⟩ : BufTy).Contents (Elt F) → (⟨S8192x64, .f32⟩ : BufTy).Contents (Elt F)) (tl_cst_2 (F := F))
def tl_v24 (Z : (⟨S8192x256, .f32⟩ : BufTy).Contents (Elt F)) (mean : (⟨S64x256, .f32⟩ : BufTy).Contents (Elt F)) : (⟨S8192x64, .f32⟩ : BufTy).Contents (Elt F) :=
  (Host.divf : (⟨S8192x64, .f32⟩ : BufTy).Contents (Elt F) → (⟨S8192x64, .f32⟩ : BufTy).Contents (Elt F) → (⟨S8192x64, .f32⟩ : BufTy).Contents (Elt F)) (tl_v22 (F := F) Z mean) (tl_v23 (F := F))
def tl_cst_3 : (⟨S_, .f32⟩ : BufTy).Contents (Elt F) :=
  constant S_ .f32 0x3F800000#32
def tl_v25 : (⟨S8192x64, .f32⟩ : BufTy).Contents (Elt F) :=
  (broadcastInDim S8192x64 ![] bcast_S_S8192x64 : (⟨S_, .f32⟩ : BufTy).Contents (Elt F) → (⟨S8192x64, .f32⟩ : BufTy).Contents (Elt F)) (tl_cst_3 (F := F))
def tl_v26 (Z : (⟨S8192x256, .f32⟩ : BufTy).Contents (Elt F)) (mean : (⟨S64x256, .f32⟩ : BufTy).Contents (Elt F)) : (⟨S8192x64, .f32⟩ : BufTy).Contents (Elt F) :=
  (addf : (⟨S8192x64, .f32⟩ : BufTy).Contents (Elt F) → (⟨S8192x64, .f32⟩ : BufTy).Contents (Elt F) → (⟨S8192x64, .f32⟩ : BufTy).Contents (Elt F)) (tl_v24 (F := F) Z mean) (tl_v25 (F := F))
def tl_cst_4 : (⟨S_, .f32⟩ : BufTy).Contents (Elt F) :=
  constant S_ .f32 0xBF800000#32
def tl_v27 : (⟨S8192x64, .f32⟩ : BufTy).Contents (Elt F) :=
  (broadcastInDim S8192x64 ![] bcast_S_S8192x64 : (⟨S_, .f32⟩ : BufTy).Contents (Elt F) → (⟨S8192x64, .f32⟩ : BufTy).Contents (Elt F)) (tl_cst_4 (F := F))
def tl_v28 (Z : (⟨S8192x256, .f32⟩ : BufTy).Contents (Elt F)) (mean : (⟨S64x256, .f32⟩ : BufTy).Contents (Elt F)) : (⟨S8192x64, .f32⟩ : BufTy).Contents (Elt F) :=
  (Host.powf : (⟨S8192x64, .f32⟩ : BufTy).Contents (Elt F) → (⟨S8192x64, .f32⟩ : BufTy).Contents (Elt F) → (⟨S8192x64, .f32⟩ : BufTy).Contents (Elt F)) (tl_v26 (F := F) Z mean) (tl_v27 (F := F))
def tl_cst_5 : (⟨S_, .f32⟩ : BufTy).Contents (Elt F) :=
  constant S_ .f32 0x00000000#32
def tl_v29 (Z : (⟨S8192x256, .f32⟩ : BufTy).Contents (Elt F)) (mean : (⟨S64x256, .f32⟩ : BufTy).Contents (Elt F)) : (⟨S8192, .f32⟩ : BufTy).Contents (Elt F) :=
  ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) (tl_v28 (F := F) Z mean) (tl_cst_5 (F := F))
def tl_v30 (Z : (⟨S8192x256, .f32⟩ : BufTy).Contents (Elt F)) (mean : (⟨S64x256, .f32⟩ : BufTy).Contents (Elt F)) : (⟨S8192x1, .f32⟩ : BufTy).Contents (Elt F) :=
  (broadcastInDim S8192x1 ![0] bcast_S8192_S8192x1_0 : (⟨S8192, .f32⟩ : BufTy).Contents (Elt F) → (⟨S8192x1, .f32⟩ : BufTy).Contents (Elt F)) (tl_v29 (F := F) Z mean)
def tl_v31 (Z : (⟨S8192x256, .f32⟩ : BufTy).Contents (Elt F)) (mean : (⟨S64x256, .f32⟩ : BufTy).Contents (Elt F)) : (⟨S8192x64, .f32⟩ : BufTy).Contents (Elt F) :=
  (broadcastInDim S8192x64 ![0, 1] bcast_S8192x1_S8192x64_0_1 : (⟨S8192x1, .f32⟩ : BufTy).Contents (Elt F) → (⟨S8192x64, .f32⟩ : BufTy).Contents (Elt F)) (tl_v30 (F := F) Z mean)
def tl_v32 (Z : (⟨S8192x256, .f32⟩ : BufTy).Contents (Elt F)) (mean : (⟨S64x256, .f32⟩ : BufTy).Contents (Elt F)) : (⟨S8192x64, .f32⟩ : BufTy).Contents (Elt F) :=
  (Host.divf : (⟨S8192x64, .f32⟩ : BufTy).Contents (Elt F) → (⟨S8192x64, .f32⟩ : BufTy).Contents (Elt F) → (⟨S8192x64, .f32⟩ : BufTy).Contents (Elt F)) (tl_v28 (F := F) Z mean) (tl_v31 (F := F) Z mean)
def tl_cst_6 : (⟨S_, .f32⟩ : BufTy).Contents (Elt F) :=
  constant S_ .f32 0x00000000#32
def tl_v33 (Z : (⟨S8192x256, .f32⟩ : BufTy).Contents (Elt F)) (mean : (⟨S64x256, .f32⟩ : BufTy).Contents (Elt F)) : (⟨S64, .f32⟩ : BufTy).Contents (Elt F) :=
  ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)) (tl_v32 (F := F) Z mean) (tl_cst_6 (F := F))
def tl_v34 (Z : (⟨S8192x256, .f32⟩ : BufTy).Contents (Elt F)) (mean : (⟨S64x256, .f32⟩ : BufTy).Contents (Elt F)) : (⟨S8192x64, .f32⟩ : BufTy).Contents (Elt F) :=
  (mulf : (⟨S8192x64, .f32⟩ : BufTy).Contents (Elt F) → (⟨S8192x64, .f32⟩ : BufTy).Contents (Elt F) → (⟨S8192x64, .f32⟩ : BufTy).Contents (Elt F)) (tl_v32 (F := F) Z mean) (tl_v32 (F := F) Z mean)
def tl_v35 (Z : (⟨S8192x256, .f32⟩ : BufTy).Contents (Elt F)) (mean : (⟨S64x256, .f32⟩ : BufTy).Contents (Elt F)) : (⟨S1x64, .f32⟩ : BufTy).Contents (Elt F) :=
  (broadcastInDim S1x64 ![1] bcast_S64_S1x64_1 : (⟨S64, .f32⟩ : BufTy).Contents (Elt F) → (⟨S1x64, .f32⟩ : BufTy).Contents (Elt F)) (tl_v33 (F := F) Z mean)
def tl_v36 (Z : (⟨S8192x256, .f32⟩ : BufTy).Contents (Elt F)) (mean : (⟨S64x256, .f32⟩ : BufTy).Contents (Elt F)) : (⟨S8192x64, .f32⟩ : BufTy).Contents (Elt F) :=
  (broadcastInDim S8192x64 ![0, 1] bcast_S1x64_S8192x64_0_1 : (⟨S1x64, .f32⟩ : BufTy).Contents (Elt F) → (⟨S8192x64, .f32⟩ : BufTy).Contents (Elt F)) (tl_v35 (F := F) Z mean)
def tl_v37 (Z : (⟨S8192x256, .f32⟩ : BufTy).Contents (Elt F)) (mean : (⟨S64x256, .f32⟩ : BufTy).Contents (Elt F)) : (⟨S8192x64, .f32⟩ : BufTy).Contents (Elt F) :=
  (Host.divf : (⟨S8192x64, .f32⟩ : BufTy).Contents (Elt F) → (⟨S8192x64, .f32⟩ : BufTy).Contents (Elt F) → (⟨S8192x64, .f32⟩ : BufTy).Contents (Elt F)) (tl_v34 (F := F) Z mean) (tl_v36 (F := F) Z mean)
def tl_cst_7 : (⟨S_, .f32⟩ : BufTy).Contents (Elt F) :=
  constant S_ .f32 0x00000000#32
def tl_v38 (Z : (⟨S8192x256, .f32⟩ : BufTy).Contents (Elt F)) (mean : (⟨S64x256, .f32⟩ : BufTy).Contents (Elt F)) : (⟨S8192, .f32⟩ : BufTy).Contents (Elt F) :=
  ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) (tl_v37 (F := F) Z mean) (tl_cst_7 (F := F))
def tl_v39 (Z : (⟨S8192x256, .f32⟩ : BufTy).Contents (Elt F)) (mean : (⟨S64x256, .f32⟩ : BufTy).Contents (Elt F)) : (⟨S8192x1, .f32⟩ : BufTy).Contents (Elt F) :=
  (broadcastInDim S8192x1 ![0] bcast_S8192_S8192x1_0 : (⟨S8192, .f32⟩ : BufTy).Contents (Elt F) → (⟨S8192x1, .f32⟩ : BufTy).Contents (Elt F)) (tl_v38 (F := F) Z mean)
def tl_v40 (Z : (⟨S8192x256, .f32⟩ : BufTy).Contents (Elt F)) (mean : (⟨S64x256, .f32⟩ : BufTy).Contents (Elt F)) : (⟨S8192x64, .f32⟩ : BufTy).Contents (Elt F) :=
  (broadcastInDim S8192x64 ![0, 1] bcast_S8192x1_S8192x64_0_1 : (⟨S8192x1, .f32⟩ : BufTy).Contents (Elt F) → (⟨S8192x64, .f32⟩ : BufTy).Contents (Elt F)) (tl_v39 (F := F) Z mean)
def tl_v41 (Z : (⟨S8192x256, .f32⟩ : BufTy).Contents (Elt F)) (mean : (⟨S64x256, .f32⟩ : BufTy).Contents (Elt F)) : (⟨S8192x64, .f32⟩ : BufTy).Contents (Elt F) :=
  (Host.divf : (⟨S8192x64, .f32⟩ : BufTy).Contents (Elt F) → (⟨S8192x64, .f32⟩ : BufTy).Contents (Elt F) → (⟨S8192x64, .f32⟩ : BufTy).Contents (Elt F)) (tl_v37 (F := F) Z mean) (tl_v40 (F := F) Z mean)
def tl_cst_8 : (⟨S_, .f32⟩ : BufTy).Contents (Elt F) :=
  constant S_ .f32 0x00000000#32
def tl_call0_v0 : (⟨S_, .f32⟩ : BufTy).Contents (Elt F) :=
  (id : (⟨S_, .f32⟩ : BufTy).Contents (Elt F) → (⟨S_, .f32⟩ : BufTy).Contents (Elt F)) (tl_cst_8 (F := F))
def tl_call0_v1 : (⟨S8192x2048, .f32⟩ : BufTy).Contents (Elt F) :=
  (broadcastInDim S8192x2048 ![] bcast_S_S8192x2048 : (⟨S_, .f32⟩ : BufTy).Contents (Elt F) → (⟨S8192x2048, .f32⟩ : BufTy).Contents (Elt F)) (tl_call0_v0 (F := F))
def tl_v42 (Xp : (⟨S8192x2048, .f32⟩ : BufTy).Contents (Elt F)) : (⟨S8192x2048, .f32⟩ : BufTy).Contents (Elt F) :=
  (maximumf : (⟨S8192x2048, .f32⟩ : BufTy).Contents (Elt F) → (⟨S8192x2048, .f32⟩ : BufTy).Contents (Elt F) → (⟨S8192x2048, .f32⟩ : BufTy).Contents (Elt F)) (tl_call0_v1 (F := F)) Xp
def tl_v43 (Xp : (⟨S8192x2048, .f32⟩ : BufTy).Contents (Elt F)) (X : (⟨S8192x2048, .f32⟩ : BufTy).Contents (Elt F)) : (⟨S8192x2048, .f32⟩ : BufTy).Contents (Elt F) :=
  (mulf : (⟨S8192x2048, .f32⟩ : BufTy).Contents (Elt F) → (⟨S8192x2048, .f32⟩ : BufTy).Contents (Elt F) → (⟨S8192x2048, .f32⟩ : BufTy).Contents (Elt F)) Xp X
def tl_v44 (Xp : (⟨S8192x2048, .f32⟩ : BufTy).Contents (Elt F)) (X : (⟨S8192x2048, .f32⟩ : BufTy).Contents (Elt F)) : (⟨S8192x2048, .f32⟩ : BufTy).Contents (Elt F) :=
  (subf : (⟨S8192x2048, .f32⟩ : BufTy).Contents (Elt F) → (⟨S8192x2048, .f32⟩ : BufTy).Contents (Elt F) → (⟨S8192x2048, .f32⟩ : BufTy).Contents (Elt F)) (tl_v42 (F := F) Xp) (tl_v43 (F := F) Xp X)
def tl_v45 (Xp : (⟨S8192x2048, .f32⟩ : BufTy).Contents (Elt F)) : (⟨S8192x2048, .f32⟩ : BufTy).Contents (Elt F) :=
  (Host.absf : (⟨S8192x2048, .f32⟩ : BufTy).Contents (Elt F) → (⟨S8192x2048, .f32⟩ : BufTy).Contents (Elt F)) Xp
def tl_v46 (Xp : (⟨S8192x2048, .f32⟩ : BufTy).Contents (Elt F)) : (⟨S8192x2048, .f32⟩ : BufTy).Contents (Elt F) :=
  (Host.negf : (⟨S8192x2048, .f32⟩ : BufTy).Contents (Elt F) → (⟨S8192x2048, .f32⟩ : BufTy).Contents (Elt F)) (tl_v45 (F := F) Xp)
def tl_v47 (Xp : (⟨S8192x2048, .f32⟩ : BufTy).Contents (Elt F)) : (⟨S8192x2048, .f32⟩ : BufTy).Contents (Elt F) :=
  (Host.exp : (⟨S8192x2048, .f32⟩ : BufTy).Contents (Elt F) → (⟨S8192x2048, .f32⟩ : BufTy).Contents (Elt F)) (tl_v46 (F := F) Xp)
def tl_v48 (Xp : (⟨S8192x2048, .f32⟩ : BufTy).Contents (Elt F)) : (⟨S8192x2048, .f32⟩ : BufTy).Contents (Elt F) :=
  (Host.log1p : (⟨S8192x2048, .f32⟩ : BufTy).Contents (Elt F) → (⟨S8192x2048, .f32⟩ : BufTy).Contents (Elt F)) (tl_v47 (F := F) Xp)
def tl_v49 (Xp : (⟨S8192x2048, .f32⟩ : BufTy).Contents (Elt F)) (X : (⟨S8192x2048, .f32⟩ : BufTy).Contents (Elt F)) : (⟨S8192x2048, .f32⟩ : BufTy).Contents (Elt F) :=
  (addf : (⟨S8192x2048, .f32⟩ : BufTy).Contents (Elt F) → (⟨S8192x2048, .f32⟩ : BufTy).Contents (Elt F) → (⟨S8192x2048, .f32⟩ : BufTy).Contents (Elt F)) (tl_v44 (F := F) Xp X) (tl_v48 (F := F) Xp)
def tl_cst_9 : (⟨S_, .f32⟩ : BufTy).Contents (Elt F) :=
  constant S_ .f32 0x00000000#32
def tl_v50 (Xp : (⟨S8192x2048, .f32⟩ : BufTy).Contents (Elt F)) (X : (⟨S8192x2048, .f32⟩ : BufTy).Contents (Elt F)) : (⟨S_, .f32⟩ : BufTy).Contents (Elt F) :=
  ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)) (tl_v49 (F := F) Xp X) (tl_cst_9 (F := F))
def tl_cst_10 : (⟨S_, .f32⟩ : BufTy).Contents (Elt F) :=
  constant S_ .f32 0x4B800000#32
def tl_v51 (Xp : (⟨S8192x2048, .f32⟩ : BufTy).Contents (Elt F)) (X : (⟨S8192x2048, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (tl_v50 (F := F) Xp X) (tl_cst_10 (F := F))
def tl_v52 (Z : (⟨S8192x256, .f32⟩ : BufTy).Contents (Elt F)) (mean : (⟨S64x256, .f32⟩ : BufTy).Contents (Elt F)) : (⟨S8192x64, .f32⟩ : BufTy).Contents (Elt F) :=
  (Host.divf : (⟨S8192x64, .f32⟩ : BufTy).Contents (Elt F) → (⟨S8192x64, .f32⟩ : BufTy).Contents (Elt F) → (⟨S8192x64, .f32⟩ : BufTy).Contents (Elt F)) (tl_v41 (F := F) Z mean) (tl_v32 (F := F) Z mean)
def tl_v53 (Z : (⟨S8192x256, .f32⟩ : BufTy).Contents (Elt F)) (mean : (⟨S64x256, .f32⟩ : BufTy).Contents (Elt F)) : (⟨S8192x64, .f32⟩ : BufTy).Contents (Elt F) :=
  (Host.log : (⟨S8192x64, .f32⟩ : BufTy).Contents (Elt F) → (⟨S8192x64, .f32⟩ : BufTy).Contents (Elt F)) (tl_v52 (F := F) Z mean)
def tl_v54 (Z : (⟨S8192x256, .f32⟩ : BufTy).Contents (Elt F)) (mean : (⟨S64x256, .f32⟩ : BufTy).Contents (Elt F)) : (⟨S8192x64, .f32⟩ : BufTy).Contents (Elt F) :=
  (mulf : (⟨S8192x64, .f32⟩ : BufTy).Contents (Elt F) → (⟨S8192x64, .f32⟩ : BufTy).Contents (Elt F) → (⟨S8192x64, .f32⟩ : BufTy).Contents (Elt F)) (tl_v41 (F := F) Z mean) (tl_v53 (F := F) Z mean)
def tl_cst_11 : (⟨S_, .f32⟩ : BufTy).Contents (Elt F) :=
  constant S_ .f32 0x00000000#32
def tl_v55 (Z : (⟨S8192x256, .f32⟩ : BufTy).Contents (Elt F)) (mean : (⟨S64x256, .f32⟩ : BufTy).Contents (Elt F)) : (⟨S_, .f32⟩ : BufTy).Contents (Elt F) :=
  ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)) (tl_v54 (F := F) Z mean) (tl_cst_11 (F := F))
def tl_cst_12 : (⟨S_, .f32⟩ : BufTy).Contents (Elt F) :=
  constant S_ .f32 0x49000000#32
def tl_v56 (Z : (⟨S8192x256, .f32⟩ : BufTy).Contents (Elt F)) (mean : (⟨S64x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (tl_v55 (F := F) Z mean) (tl_cst_12 (F := F))
def tl_cst_13 : (⟨S_, .f32⟩ : BufTy).Contents (Elt F) :=
  constant S_ .f32 0x3F800000#32
def tl_v57 (Xp : (⟨S8192x2048, .f32⟩ : BufTy).Contents (Elt F)) (X : (⟨S8192x2048, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (tl_cst_13 (F := F)) (tl_v51 (F := F) Xp X)
def tl_cst_14 : (⟨S_, .f32⟩ : BufTy).Contents (Elt F) :=
  constant S_ .f32 0x3F800000#32
def tl_v58 (Z : (⟨S8192x256, .f32⟩ : BufTy).Contents (Elt F)) (mean : (⟨S64x256, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (tl_cst_14 (F := F)) (tl_v56 (F := F) Z mean)
def tl_v59 (Z : (⟨S8192x256, .f32⟩ : BufTy).Contents (Elt F)) (Xp : (⟨S8192x2048, .f32⟩ : BufTy).Contents (Elt F)) (X : (⟨S8192x2048, .f32⟩ : BufTy).Contents (Elt F)) (mean : (⟨S64x256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (tl_v57 (F := F) Xp X) (tl_v58 (F := F) Z mean)

/-- The loss as a function of Z, the logits Xp, the data X and the centres. -/
abbrev Tail (Z : (⟨S8192x256, .f32⟩ : BufTy).Contents (Elt F)) (Xp : (⟨S8192x2048, .f32⟩ : BufTy).Contents (Elt F)) (X : (⟨S8192x2048, .f32⟩ : BufTy).Contents (Elt F)) (mean : (⟨S64x256, .f32⟩ : BufTy).Contents (Elt F)) : (⟨S_, .f32⟩ : BufTy).Contents (Elt F) :=
  tl_v59 (F := F) Z Xp X mean

end Cert.KernelIdeal.Hand

end
-- ==== Proof.KernelTail.lean ====
/-
  The program's host operations around its three kernels, read as functions of the buffers they start from, for any
  float instance. Before the encoder and before the decoder three reshapes each turn a bias vector [k] into the row
  [1, k] the kernel reads: the row's entry (0, k) is the vector's entry k. After the decoder three stretches of
  elementwise operations, reductions and broadcasts compute the loss from the diffused embedding (main_v4), the
  reconstruction logits (main_v8), the data (main_arg0) and the cluster centres (main_arg2): the loss buffer main_v59
  then holds Tail of those four arrays. The starting contents W are arbitrary throughout: nothing about the kernels
  that wrote main_v4 and main_v8 enters.
-/
import proofs.«129998_j66537633349711_2_alg».proof.Proof.Gen.KernelIdeal.Launch
import proofs.«129998_j66537633349711_2_alg».proof.Proof.Gen.KernelIdeal.Regions
import proofs.«129998_j66537633349711_2_alg».proof.Proof.TailStages
import Idealize.ShloMosaic.Lib.StableHlo.Run
import Idealize.ShloMosaic.Lib.Pipeline.Value
import Idealize.ShloMosaic.Lib.ValueLayout

set_option maxRecDepth 16384

noncomputable section

namespace Cert.KernelIdeal.Hand

open Idealize.ShloMosaic Idealize.ShloMosaic.TcCoe
open Cert.KernelIdeal Cert.KernelIdeal.Gen

variable {F : FTy → Type} [FloatOps F]

/-! ## The bias rows

Each of the six host reshapes before the encoder and the decoder turns a bias vector [k] into a row [1, k]: the row's
entry (0, k) is the vector's entry k. -/

theorem bias_v0 (W : Valuation τ sig (Elt F)) (k : Fin 1024) :
    StableHlo.after hostOps0 W (Proc.devRef .tc main_v0) (ValueIdx.ix2 (0 : Fin 1) k) = W (Proc.devRef .tc main_arg4) (ValueIdx.ix1 k) := by
  dsimp only [hostOps0]
  after_results
  exact ValueIdx.shapeCast_a_1a_apply (W (Proc.devRef .tc main_arg4)) shapeCasts_S1024_S1x1024 (0 : Fin 1) k

theorem bias_v1 (W : Valuation τ sig (Elt F)) (k : Fin 512) :
    StableHlo.after hostOps0 W (Proc.devRef .tc main_v1) (ValueIdx.ix2 (0 : Fin 1) k) = W (Proc.devRef .tc main_arg6) (ValueIdx.ix1 k) := by
  dsimp only [hostOps0]
  after_results
  exact ValueIdx.shapeCast_a_1a_apply (W (Proc.devRef .tc main_arg6)) shapeCasts_S512_S1x512 (0 : Fin 1) k

theorem bias_v2 (W : Valuation τ sig (Elt F)) (k : Fin 256) :
    StableHlo.after hostOps0 W (Proc.devRef .tc main_v2) (ValueIdx.ix2 (0 : Fin 1) k) = W (Proc.devRef .tc main_arg8) (ValueIdx.ix1 k) := by
  dsimp only [hostOps0]
  after_results
  exact ValueIdx.shapeCast_a_1a_apply (W (Proc.devRef .tc main_arg8)) shapeCasts_S256_S1x256 (0 : Fin 1) k

theorem bias_v5 (W : Valuation τ sig (Elt F)) (k : Fin 512) :
    StableHlo.after hostOps2 W (Proc.devRef .tc main_v5) (ValueIdx.ix2 (0 : Fin 1) k) = W (Proc.devRef .tc main_arg10) (ValueIdx.ix1 k) := by
  dsimp only [hostOps2]
  after_results
  exact ValueIdx.shapeCast_a_1a_apply (W (Proc.devRef .tc main_arg10)) shapeCasts_S512_S1x512 (0 : Fin 1) k

theorem bias_v6 (W : Valuation τ sig (Elt F)) (k : Fin 1024) :
    StableHlo.after hostOps2 W (Proc.devRef .tc main_v6) (ValueIdx.ix2 (0 : Fin 1) k) = W (Proc.devRef .tc main_arg12) (ValueIdx.ix1 k) := by
  dsimp only [hostOps2]
  after_results
  exact ValueIdx.shapeCast_a_1a_apply (W (Proc.devRef .tc main_arg12)) shapeCasts_S1024_S1x1024 (0 : Fin 1) k

theorem bias_v7 (W : Valuation τ sig (Elt F)) (k : Fin 2048) :
    StableHlo.after hostOps2 W (Proc.devRef .tc main_v7) (ValueIdx.ix2 (0 : Fin 1) k) = W (Proc.devRef .tc main_arg14) (ValueIdx.ix1 k) := by
  dsimp only [hostOps2]
  after_results
  exact ValueIdx.shapeCast_a_1a_apply (W (Proc.devRef .tc main_arg14)) shapeCasts_S2048_S1x2048 (0 : Fin 1) k

/-! ## The loss arithmetic after the last kernel

Three stretches of host operations, run in order from any contents W. Each stretch is read on its own over a variable
valuation: the buffers a later stretch reads are named by the loss stages they hold, and the buffers a stretch does not
write keep their contents. -/

/-- The first stretch leaves the target distribution P in main_v41. -/
theorem tail_h3_v41 (W : Valuation τ sig (Elt F)) :
    StableHlo.after hostOps3 W (Proc.devRef .tc main_v41)
      = tl_v41 (F := F) (W (Proc.devRef .tc main_v4)) (W (Proc.devRef .tc main_arg2)) := by
  dsimp only [hostOps3]
  show StableHlo.after _ _ (Proc.devRef .tc main_v41) = _
  after_results_simp
  rfl

/-- … and the assignment Q in main_v32. -/
theorem tail_h3_v32 (W : Valuation τ sig (Elt F)) :
    StableHlo.after hostOps3 W (Proc.devRef .tc main_v32)
      = tl_v32 (F := F) (W (Proc.devRef .tc main_v4)) (W (Proc.devRef .tc main_arg2)) := by
  dsimp only [hostOps3]
  show StableHlo.after _ _ (Proc.devRef .tc main_v32) = _
  after_results_simp
  rfl

/-- … and the clip's lower bound, the constant zero, in main_cst_8. -/
theorem tail_h3_cst_8 (W : Valuation τ sig (Elt F)) :
    StableHlo.after hostOps3 W (Proc.devRef .tc main_cst_8) = tl_cst_8 (F := F) := by
  dsimp only [hostOps3]
  show StableHlo.after _ _ (Proc.devRef .tc main_cst_8) = _
  after_results_simp
  rfl

/-- The first stretch writes neither the logits nor the data. -/
theorem tail_h3_v8 (W : Valuation τ sig (Elt F)) :
    StableHlo.after hostOps3 W (Proc.devRef .tc main_v8) = W (Proc.devRef .tc main_v8) :=
  StableHlo.after_of_writes_sub hostOps3 W hostOps3_writes (by decide)
theorem tail_h3_arg0 (W : Valuation τ sig (Elt F)) :
    StableHlo.after hostOps3 W (Proc.devRef .tc main_arg0) = W (Proc.devRef .tc main_arg0) :=
  StableHlo.after_of_writes_sub hostOps3 W hostOps3_writes (by decide)

/-- The second stretch, the inlined clip: the logits' positive part in main_v42, given the zero in main_cst_8. -/
theorem tail_h31_v42 (W : Valuation τ sig (Elt F)) (h8 : W (Proc.devRef .tc main_cst_8) = tl_cst_8 (F := F)) :
    StableHlo.after hostOps3_1 W (Proc.devRef .tc main_v42) = tl_v42 (F := F) (W (Proc.devRef .tc main_v8)) := by
  dsimp only [hostOps3_1]
  show StableHlo.after _ _ (Proc.devRef .tc main_v42) = _
  after_results
  rw [h8]
  rfl

/-- The second stretch writes none of the buffers the third reads besides main_v42. -/
theorem tail_h31_keep (W : Valuation τ sig (Elt F)) (r : Ref sig .tc) (h : r ∉ hostOps3_1_W) :
    StableHlo.after hostOps3_1 W (Proc.devRef .tc r) = W (Proc.devRef .tc r) :=
  StableHlo.after_of_writes_sub hostOps3_1 W hostOps3_1_writes h

/-- The third stretch: the two means and their sum, over the stages the earlier stretches left. -/
theorem tail_h32_v59 (W : Valuation τ sig (Elt F))
    (Z : (⟨S8192x256, .f32⟩ : BufTy).Contents (Elt F)) (Xp X : (⟨S8192x2048, .f32⟩ : BufTy).Contents (Elt F))
    (mean : (⟨S64x256, .f32⟩ : BufTy).Contents (Elt F))
    (h41 : W (Proc.devRef .tc main_v41) = tl_v41 (F := F) Z mean)
    (h32 : W (Proc.devRef .tc main_v32) = tl_v32 (F := F) Z mean)
    (h42 : W (Proc.devRef .tc main_v42) = tl_v42 (F := F) Xp)
    (h8 : W (Proc.devRef .tc main_v8) = Xp)
    (h0 : W (Proc.devRef .tc main_arg0) = X) :
    StableHlo.after hostOps3_2 W (Proc.devRef .tc main_v59) = Tail (F := F) Z Xp X mean := by
  dsimp only [hostOps3_2]
  show StableHlo.after _ _ (Proc.devRef .tc main_v59) = _
  after_results_simp
  rw [h41, h32, h42, h8, h0]
  rfl

/-- The loss buffer after the three stretches is the loss function of the four arrays they read. -/
theorem tail_after (W : Valuation τ sig (Elt F)) :
    StableHlo.after hostOps3_2 (StableHlo.after hostOps3_1 (StableHlo.after hostOps3 W)) (Proc.devRef .tc main_v59)
      = Tail (F := F) (W (Proc.devRef .tc main_v4)) (W (Proc.devRef .tc main_v8)) (W (Proc.devRef .tc main_arg0)) (W (Proc.devRef .tc main_arg2)) := by
  have k8 : StableHlo.after hostOps3_1 (StableHlo.after hostOps3 W) (Proc.devRef .tc main_v8) = W (Proc.devRef .tc main_v8) := by
    rw [tail_h31_keep _ main_v8 (by decide), tail_h3_v8]
  have k0 : StableHlo.after hostOps3_1 (StableHlo.after hostOps3 W) (Proc.devRef .tc main_arg0) = W (Proc.devRef .tc main_arg0) := by
    rw [tail_h31_keep _ main_arg0 (by decide), tail_h3_arg0]
  have k41 : StableHlo.after hostOps3_1 (StableHlo.after hostOps3 W) (Proc.devRef .tc main_v41)
      = tl_v41 (F := F) (W (Proc.devRef .tc main_v4)) (W (Proc.devRef .tc main_arg2)) := by
    rw [tail_h31_keep _ main_v41 (by decide), tail_h3_v41]
  have k32 : StableHlo.after hostOps3_1 (StableHlo.after hostOps3 W) (Proc.devRef .tc main_v32)
      = tl_v32 (F := F) (W (Proc.devRef .tc main_v4)) (W (Proc.devRef .tc main_arg2)) := by
    rw [tail_h31_keep _ main_v32 (by decide), tail_h3_v32]
  have k42 : StableHlo.after hostOps3_1 (StableHlo.after hostOps3 W) (Proc.devRef .tc main_v42)
      = tl_v42 (F := F) (W (Proc.devRef .tc main_v8)) := by
    rw [tail_h31_v42 (StableHlo.after hostOps3 W) (tail_h3_cst_8 W), tail_h3_v8]
  exact tail_h32_v59 (StableHlo.after hostOps3_1 (StableHlo.after hostOps3 W)) _ _ _ _ k41 k32 k42 k8 k0

end Cert.KernelIdeal.Hand

end
-- ==== Proof.RunValue.lean ====
/-
  At the run's last contents the result buffer holds the loss of the diffusion region's output, the decoder region's
  output, the data and the centres: the host lines after the last kernel are the loss stages, read off any contents.
-/
import proofs.«129998_j66537633349711_2_alg».proof.Proof.RunFrame
import proofs.«129998_j66537633349711_2_alg».proof.Proof.KernelTail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result -/

/-- The result buffer at the end: the loss of what the diffusion region and the decoder region left, the data and the centres. -/
theorem W8_result (c : Dev nD) :
    W8 m ρ c (Proc.devRef .tc main_v59)
      = Tail (F := F) (W3 m ρ c (Proc.devRef .tc main_v4)) (W5 m ρ c (Proc.devRef .tc main_v8))
          (m ((c : Thread nD τ).loc main_arg0)) (m ((c : Thread nD τ).loc main_arg2)) := by
  rw [show W8 m ρ c (Proc.devRef .tc main_v59)
      = StableHlo.after hostOps3_2 (StableHlo.after hostOps3_1 (StableHlo.after hostOps3 (W5 m ρ c))) (Proc.devRef .tc main_v59) from rfl,
    tail_after (W5 m ρ c), W5_launch m ρ c main_arg0 (by decide) (by decide) (by decide) (by decide) (by decide),
    W5_launch m ρ c main_arg2 (by decide) (by decide) (by decide) (by decide) (by decide),
    W5_keep m ρ c main_v4 (by decide), W4_keep m ρ c main_v4 (by decide)]

/-- The run with the result named. -/
theorem run_value : θ_run defs (onTc (τ := τ) (main (F := F))) ⟨m, fun _ => 0, ρ⟩ (fun r => ∀ c : Dev nD,
      r.2.mem ((c.tc : Thread nD τ).loc main_v59)
        = Tail (F := F) (W3 m ρ c (Proc.devRef .tc main_v4)) (W5 m ρ c (Proc.devRef .tc main_v8))
            (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v59 (by decide))).trans (W8_result m ρ c),
    (h c _ (mem_uc main_arg0 (by decide))).trans (W8_launch m ρ c main_arg0 (by decide) (by decide) (by decide) (by decide) (by decide) (by decide) (by decide) (by decide)),
    (h c _ (mem_uc main_arg1 (by decide))).trans (W8_launch m ρ c main_arg1 (by decide) (by decide) (by decide) (by decide) (by decide) (by decide) (by decide) (by decide)),
    (h c _ (mem_uc main_arg2 (by decide))).trans (W8_launch m ρ c main_arg2 (by decide) (by decide) (by decide) (by decide) (by decide) (by decide) (by decide) (by decide)),
    (h c _ (mem_uc main_arg3 (by decide))).trans (W8_launch m ρ c main_arg3 (by decide) (by decide) (by decide) (by decide) (by decide) (by decide) (by decide) (by decide)),
    (h c _ (mem_uc main_arg4 (by decide))).trans (W8_launch m ρ c main_arg4 (by decide) (by decide) (by decide) (by decide) (by decide) (by decide) (by decide) (by decide)),
    (h c _ (mem_uc main_arg5 (by decide))).trans (W8_launch m ρ c main_arg5 (by decide) (by decide) (by decide) (by decide) (by decide) (by decide) (by decide) (by decide)),
    (h c _ (mem_uc main_arg6 (by decide))).trans (W8_launch m ρ c main_arg6 (by decide) (by decide) (by decide) (by decide) (by decide) (by decide) (by decide) (by decide)),
    (h c _ (mem_uc main_arg7 (by decide))).trans (W8_launch m ρ c main_arg7 (by decide) (by decide) (by decide) (by decide) (by decide) (by decide) (by decide) (by decide)),
    (h c _ (mem_uc main_arg8 (by decide))).trans (W8_launch m ρ c main_arg8 (by decide) (by decide) (by decide) (by decide) (by decide) (by decide) (by decide) (by decide)),
    (h c _ (mem_uc main_arg9 (by decide))).trans (W8_launch m ρ c main_arg9 (by decide) (by decide) (by decide) (by decide) (by decide) (by decide) (by decide) (by decide)),
    (h c _ (mem_uc main_arg10 (by decide))).trans (W8_launch m ρ c main_arg10 (by decide) (by decide) (by decide) (by decide) (by decide) (by decide) (by decide) (by decide)),
    (h c _ (mem_uc main_arg11 (by decide))).trans (W8_launch m ρ c main_arg11 (by decide) (by decide) (by decide) (by decide) (by decide) (by decide) (by decide) (by decide)),
    (h c _ (mem_uc main_arg12 (by decide))).trans (W8_launch m ρ c main_arg12 (by decide) (by decide) (by decide) (by decide) (by decide) (by decide) (by decide) (by decide)),
    (h c _ (mem_uc main_arg13 (by decide))).trans (W8_launch m ρ c main_arg13 (by decide) (by decide) (by decide) (by decide) (by decide) (by decide) (by decide) (by decide)),
    (h c _ (mem_uc main_arg14 (by decide))).trans (W8_launch m ρ c main_arg14 (by decide) (by decide) (by decide) (by decide) (by decide) (by decide) (by decide) (by decide))⟩)
    (run_all m ρ)

end Cert.KernelIdeal.Hand

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«129998_j66537633349711_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«129998_j66537633349711_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibDenseSoftmax.lean ====
/-
  Dense layers and a row softmax, read at an entry on the extended reals.

  A multilayer head works row by row. A dense layer sends a row `r` to `c ↦ ∑ j, r j * W (j, c) + b c`; a softmax
  sends a row of scores `s` to `q ↦ exp (s q - M) / ∑ q', exp (s q' - M)` with `M` the maximum of the row, taken as
  the fold of `max` from `⊥`. This module names those two row functions and reads a tile body's spelling of each at
  an entry `(p, c)` of the tile: the matrix unit accumulating into zero plus a `[1, k]` bias row repeated down the
  tile, and the two lane reductions recast to a column and repeated across the tile. Every extent is generic.
-/
import Idealize.ShloMosaic.PureOps.Ideal.Laws
import Idealize.ShloMosaic.Lib.ValueIdx
import Idealize.ShloMosaic.Lib.Pipeline.Value
import proofs.«129998_j66537633349711_2_alg».proof.Proof.LibDotRecord
import proofs.«129998_j66537633349711_2_alg».proof.Proof.LibRowOps
import proofs.«129998_j66537633349711_2_alg».proof.Proof.LibTileOps

noncomputable section

namespace DenseSoftmax

open Idealize.ShloMosaic Idealize.ShloMosaic.ValueIdx

variable {a n k : ℕ}

/-- A dense layer at output `c`: the row times column `c` of the weights, plus the bias at `c`. -/
def dense (r : Fin n → EReal) (W : (⟨2, ![n, k]⟩ : Shape).Idx → EReal) (b : Fin k → EReal) (c : Fin k) : EReal :=
  ∑ j : Fin n, r j * W (ix2 j c) + b c

/-- The maximum of a row, as the fold of `max` from `⊥`. -/
def rowMax (s : Fin k → EReal) : EReal := (Finset.univ : Finset (Fin k)).fold max ⊥ s

/-- The softmax of a row of scores at position `q`. -/
def softmaxRow (s : Fin k → EReal) (q : Fin k) : EReal :=
  Ideal.div (Ideal.exp (s q - rowMax s)) (∑ q' : Fin k, Ideal.exp (s q' - rowMax s))

/-- The matrix unit accumulating into zero plus a `[1, k]` bias row repeated down the tile, at `(p, c)`: the dense
    layer of row `p`. -/
theorem tile_dense_apply {φ₁ φ₂ : FTy} (d : DotDims ⟨2, ![a, n]⟩ ⟨2, ![n, k]⟩ ⟨2, ![a, k]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![a, n]⟩ φ₁) (W : FVec Ideal ⟨2, ![n, k]⟩ φ₂) (prec : Option ContractPrecision)
    (b : FVec Ideal ⟨2, ![1, k]⟩ .f32) (hs : (⟨2, ![1, k]⟩ : Shape).ShapeCasts ⟨2, ![1, k]⟩)
    (hb : (⟨2, ![1, k]⟩ : Shape).Broadcasts ⟨2, ![a, k]⟩) (p : Fin a) (c : Fin k) :
    addf (FloatOps.matmul d prec x W (constant ⟨2, ![a, k]⟩ .f32 0x00000000#32))
        (broadcastTo ⟨2, ![a, k]⟩ (shapeCast ⟨2, ![1, k]⟩ b hs) hb) (ix2 p c)
      = dense (fun j => x (ix2 p j)) W (fun c => b (ix2 (0 : Fin 1) c)) c := by
  show FloatOps.matmul d prec x W (constant ⟨2, ![a, k]⟩ .f32 0x00000000#32) (ix2 p c)
      + broadcastTo ⟨2, ![a, k]⟩ (shapeCast ⟨2, ![1, k]⟩ b hs) hb (ix2 p c) = _
  rw [DotRecord.matmul_zero_apply d h1 h2 h3 h4 h5 h6 x W prec p c, shapeCast_self,
    DotRecord.broadcastTo_1b_ab_apply b hb p c]
  rfl

/-- A tile minus its row maxima (the `maximumf` lane reduction recast to a column and repeated across the tile),
    exponentiated, at `(p, q)`. -/
theorem tile_shiftedExp_apply (v : FVec Ideal ⟨2, ![a, k]⟩ .f32)
    (h : Shape.Reduces ⟨2, ![a, k]⟩ [1] ⟨1, ![a]⟩) (hφ : FKind.Formats .f32)
    (hmax : (0xFF800000#32 : BitVec 32) = FKind.maximumf.neutral .f32 hφ)
    (h1 : (⟨1, ![a]⟩ : Shape).ShapeCasts ⟨2, ![a, 1]⟩) (h2 : (⟨2, ![a, 1]⟩ : Shape).Broadcasts ⟨2, ![a, k]⟩)
    (p : Fin a) (q : Fin k) :
    exp (subf v (broadcastTo ⟨2, ![a, k]⟩ (shapeCast ⟨2, ![a, 1]⟩
        (multiReduction .maximumf [1] ⟨1, ![a]⟩ v 0xFF800000#32 h hφ hmax) h1) h2)) (ix2 p q)
      = Ideal.exp (v (ix2 p q) - rowMax (fun q' => v (ix2 p q'))) := by
  show Ideal.exp (v (ix2 p q) - broadcastTo ⟨2, ![a, k]⟩ (shapeCast ⟨2, ![a, 1]⟩
        (multiReduction .maximumf [1] ⟨1, ![a]⟩ v 0xFF800000#32 h hφ hmax) h1) h2 (ix2 p q)) = _
  rw [Gcn.Lib.broadcastTo_a1_ab_apply _ h2 p q, Gcn.Lib.shapeCast_a_a1_apply _ h1 p 0,
    Gcn.Lib.rowMax_apply v h hφ hmax p]
  rfl

/-- A tile divided by its row sums (the `add` lane reduction recast to a column and repeated across the tile), at
    `(p, q)`. -/
theorem tile_normalize_apply (e : FVec Ideal ⟨2, ![a, k]⟩ .f32)
    (h : Shape.Reduces ⟨2, ![a, k]⟩ [1] ⟨1, ![a]⟩) (hφ : FKind.Formats .f32)
    (hadd : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, k]⟩)
    (p : Fin a) (q : Fin k) :
    divf e (broadcastTo ⟨2, ![a, k]⟩ (shapeCast ⟨2, ![a, 1]⟩
        (multiReduction .add [1] ⟨1, ![a]⟩ e 0x00000000#32 h hφ hadd) h1) h2) (ix2 p q)
      = Ideal.div (e (ix2 p q)) (∑ q' : Fin k, e (ix2 p q')) := by
  show Ideal.div (e (ix2 p q)) (broadcastTo ⟨2, ![a, k]⟩ (shapeCast ⟨2, ![a, 1]⟩
        (multiReduction .add [1] ⟨1, ![a]⟩ e 0x00000000#32 h hφ hadd) h1) h2 (ix2 p q)) = _
  rw [Hmu.Lib.rowSumCol_apply e h hφ hadd h1 h2 p q]

/-- The tile body's softmax of a tile `v` of scores, at `(p, q)`: the softmax of row `p`. -/
theorem tile_softmax_apply (v : FVec Ideal ⟨2, ![a, k]⟩ .f32)
    (h : Shape.Reduces ⟨2, ![a, k]⟩ [1] ⟨1, ![a]⟩) (hφ : FKind.Formats .f32)
    (hmax : (0xFF800000#32 : BitVec 32) = FKind.maximumf.neutral .f32 hφ)
    (hadd : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, k]⟩)
    (p : Fin a) (q : Fin k) :
    divf (exp (subf v (broadcastTo ⟨2, ![a, k]⟩ (shapeCast ⟨2, ![a, 1]⟩
          (multiReduction .maximumf [1] ⟨1, ![a]⟩ v 0xFF800000#32 h hφ hmax) h1) h2)))
        (broadcastTo ⟨2, ![a, k]⟩ (shapeCast ⟨2, ![a, 1]⟩
          (multiReduction .add [1] ⟨1, ![a]⟩
            (exp (subf v (broadcastTo ⟨2, ![a, k]⟩ (shapeCast ⟨2, ![a, 1]⟩
              (multiReduction .maximumf [1] ⟨1, ![a]⟩ v 0xFF800000#32 h hφ hmax) h1) h2)))
            0x00000000#32 h hφ hadd) h1) h2) (ix2 p q)
      = softmaxRow (fun q' => v (ix2 p q')) q := by
  refine (tile_normalize_apply _ h hφ hadd h1 h2 p q).trans ?_
  unfold softmaxRow
  rw [tile_shiftedExp_apply v h hφ hmax h1 h2 p q]
  exact congrArg _ (Finset.sum_congr rfl fun q' _ => tile_shiftedExp_apply v h hφ hmax h1 h2 p q')

end DenseSoftmax

end
-- ==== Proof.Spec.lean ====
/-
  What the program computes, as functions.
  (1) On the extended reals: a dense layer of a row is sum_j r j · W(j, c) + b c; the encoder and the decoder are three
  dense layers of a row of their input; the diffusion step at (r, c) is sum_k RW(k, r) · Z0(k, c), the product with the
  transpose of RW.
-/
import proofs.«129998_j66537633349711_2_alg».proof.Proof.Gen.KernelIdeal
import proofs.«129998_j66537633349711_2_alg».proof.Proof.LibDenseSoftmax
import Idealize.ShloMosaic.PureOps.Ideal.Laws
import Idealize.ShloMosaic.Lib.ValueIdx

noncomputable section

namespace Cert.KernelIdeal.Hand

open Idealize.ShloMosaic Idealize.ShloMosaic.TcCoe Idealize.ShloMosaic.ValueIdx
open Cert.KernelIdeal Cert.KernelIdeal.Gen

/-! ## The three matrix stages on the extended reals -/

/-- A matrix of extended reals over a literal shape. -/
abbrev Mat (a b : ℕ) : Type := (⟨2, ![a, b]⟩ : Shape).Idx → EReal

/-- Three dense layers of a row x: ((x w0 + b0) w1 + b1) w2 + b2 at output column c. -/
def mlp3 {n0 n1 n2 n3 : ℕ} (x : Fin n0 → EReal) (w0 : Mat n0 n1) (b0 : Fin n1 → EReal) (w1 : Mat n1 n2) (b1 : Fin n2 → EReal)
    (w2 : Mat n2 n3) (b2 : Fin n3 → EReal) (c : Fin n3) : EReal :=
  DenseSoftmax.dense (DenseSoftmax.dense (DenseSoftmax.dense x w0 b0) w1 b1) w2 b2 c

/-- The encoder at row r, column c: three dense layers of row r of X. -/
def encAt (X : Mat 8192 2048) (w0 : Mat 2048 1024) (b0 : Fin 1024 → EReal) (w1 : Mat 1024 512) (b1 : Fin 512 → EReal)
    (w2 : Mat 512 256) (b2 : Fin 256 → EReal) (r : Fin 8192) (c : Fin 256) : EReal :=
  mlp3 (fun k => X (ix2 r k)) w0 b0 w1 b1 w2 b2 c

/-- The diffusion step at row r, column c: the transpose of RW times Z0. -/
def diffAt (RW : Mat 8192 8192) (Z0 : Mat 8192 256) (r : Fin 8192) (c : Fin 256) : EReal :=
  ∑ k : Fin 8192, RW (ix2 k r) * Z0 (ix2 k c)

/-- The decoder at row r, column c: three dense layers of row r of Z. -/
def decAt (Z : Mat 8192 256) (w0 : Mat 256 512) (b0 : Fin 512 → EReal) (w1 : Mat 512 1024) (b1 : Fin 1024 → EReal)
    (w2 : Mat 1024 2048) (b2 : Fin 2048 → EReal) (r : Fin 8192) (c : Fin 2048) : EReal :=
  mlp3 (fun k => Z (ix2 r k)) w0 b0 w1 b1 w2 b2 c

end Cert.KernelIdeal.Hand

end
-- ==== Proof.EncValue.lean ====
/-
  What the encoder's output array holds after its region, on the extended reals. One grid point t of 16 writes the tile
  of rows [512 t, 512 t + 512): entry (p, q) of the tile is three dense layers of row p of the input tile, the input tile
  is those rows of X, the six other operands are whole, and the 16 tiles cover the 8192 rows. So the array is, entry by
  entry, three dense layers of the matching row of X.
-/
import proofs.«129998_j66537633349711_2_alg».proof.Proof.EncData
import proofs.«129998_j66537633349711_2_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The body's value at an entry of the tile -/

/-- The encoder body's value at entry (p, q) of the tile: three dense layers of row p of the input tile. The format
    changes are the identity on the extended reals, and each matrix product into zero plus its bias row repeated down
    the tile is a dense layer of the row. -/
theorem enc_pay_apply (v0 : Vec Ideal S512x2048 .f32) (v2 : Vec Ideal S2048x1024 .f32) (v5 : Vec Ideal S1x1024 .f32)
    (v10 : Vec Ideal S1024x512 .f32) (v13 : Vec Ideal S1x512 .f32) (v18 : Vec Ideal S512x256 .f32) (v21 : Vec Ideal S1x256 .f32)
    (p : Fin 512) (q : Fin 256) :
    k0_pay1 v0 v2 v5 v10 v13 v18 v21 (ix2 p q)
      = mlp3 (fun k => v0 (ix2 p k)) v2 (fun k => v5 (ix2 (0 : Fin 1) k)) v10 (fun k => v13 (ix2 (0 : Fin 1) k)) v18
          (fun k => v21 (ix2 (0 : Fin 1) k)) q := by
  unfold k0_pay1 mlp3
  refine (DenseSoftmax.tile_dense_apply dot_S512x512_S512x256_S512x256_1_0_0_1_n_n rfl rfl rfl rfl rfl rfl _ _ none v21 _ _ p q).trans ?_
  refine congrArg (fun r => DenseSoftmax.dense r v18 (fun k => v21 (ix2 (0 : Fin 1) k)) q) (funext fun j => ?_)
  refine (DenseSoftmax.tile_dense_apply dot_S512x1024_S1024x512_S512x512_1_0_0_1_n_n rfl rfl rfl rfl rfl rfl _ _ none v13 _ _ p j).trans ?_
  refine congrArg (fun r => DenseSoftmax.dense r v10 (fun k => v13 (ix2 (0 : Fin 1) k)) j) (funext fun i => ?_)
  exact DenseSoftmax.tile_dense_apply dot_S512x2048_S2048x1024_S512x1024_1_0_0_1_n_n rfl rfl rfl rfl rfl rfl _ _ none v5 _ _ p i

theorem enc_hz : (![0, 0] : Fin 2 → Nat) = fun _ => 0 := funext fun a => by fin_cases a <;> rfl

/-- The output tile at entry (p, q), when row p of the input tile is row r of a matrix X: the encoder of X at (r, q). -/
theorem enc_tile_apply (X : Mat 8192 2048) (x0 : Vec Ideal S512x2048 .f32) (x1 : Vec Ideal S2048x1024 .f32) (x2 : Vec Ideal S1x1024 .f32)
    (x3 : Vec Ideal S1024x512 .f32) (x4 : Vec Ideal S1x512 .f32) (x5 : Vec Ideal S512x256 .f32) (x6 : Vec Ideal S1x256 .f32)
    (p : Fin 512) (q : Fin 256) (r : Fin 8192) (h0 : ∀ k : Fin 2048, x0 (ix2 p k) = X (ix2 r k)) :
    out0_7 x0 x1 x2 x3 x4 x5 x6 (ix2 p q)
      = encAt X x1 (fun k => x2 (ix2 (0 : Fin 1) k)) x3 (fun k => x4 (ix2 (0 : Fin 1) k)) x5 (fun k => x6 (ix2 (0 : Fin 1) k)) r q := by
  unfold out0_7
  rw [View.canon_unit_zero enc_hz]
  simp only [View.ld_unit_zero (S := S512x2048) enc_hz, View.ld_unit_zero (S := S2048x1024) enc_hz,
    View.ld_unit_zero (S := S1x1024) enc_hz, View.ld_unit_zero (S := S1024x512) enc_hz, View.ld_unit_zero (S := S1x512) enc_hz,
    View.ld_unit_zero (S := S512x256) enc_hz, View.ld_unit_zero (S := S1x256) enc_hz]
  refine (enc_pay_apply x0 x1 x2 x3 x4 x5 x6 p q).trans ?_
  unfold encAt
  exact congrArg (fun x => mlp3 x x1 (fun k => x2 (ix2 (0 : Fin 1) k)) x3 (fun k => x4 (ix2 (0 : Fin 1) k)) x5
    (fun k => x6 (ix2 (0 : Fin 1) k)) q) (funext h0)

/-! ## Each window's block at a point, read off its array -/

/-- The printed index maps over the grid: the row-tiled windows sit at block (t, 0), the resident ones at block (0, 0). -/
theorem enc_index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The input tile at point t is rows 512 t … 512 t + 511 of X. -/
theorem enc_iblk_0 (c : Dev nD) (t : Fin cfg0.N) (p : Fin 512) (k : Fin 2048) (r : Fin 8192) (hr : r.val = t.val * 512 + p.val) :
    (iblk0 V c 0 t : Vec Ideal S512x2048 .f32) (ix2 p k) = (V c (Pipeline.arrRef spec0 0) : S8192x2048.Idx → EReal) (ix2 r k) := by
  obtain ⟨⟨e0, e1⟩, -⟩ := enc_index t
  unfold iblk0
  rw [View.read_apply]
  show V c (Pipeline.arrRef spec0 0) (((cfg0.win 0).blk t).view.emb (ix2 p k)) = V c (Pipeline.arrRef spec0 0) (ix2 r k)
  refine congrArg (V c (Pipeline.arrRef spec0 0)) (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The first weight matrix's window is resident: its block at every point is the whole array. -/
theorem enc_iblk_1 (c : Dev nD) (t : Fin cfg0.N) :
    (iblk0 V c 1 t : Vec Ideal S2048x1024 .f32) = (V c (Pipeline.arrRef spec0 1) : S2048x1024.Idx → EReal) := by
  obtain ⟨-, ⟨e0, e1⟩, -⟩ := enc_index t
  funext y
  unfold iblk0
  rw [View.read_apply]
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 2048 + 1 * (y 0).val = (y 0).val; rw [e0]; omega
  | ⟨1, _⟩ => show win0_1.index t (1 : Fin 2) * 1024 + 1 * (y 1).val = (y 1).val; rw [e1]; omega

/-- The first bias row's window is resident: its block at every point is the whole array. -/
theorem enc_iblk_2 (c : Dev nD) (t : Fin cfg0.N) :
    (iblk0 V c 2 t : Vec Ideal S1x1024 .f32) = (V c (Pipeline.arrRef spec0 2) : S1x1024.Idx → EReal) := by
  obtain ⟨-, -, ⟨e0, e1⟩, -⟩ := enc_index t
  funext y
  unfold iblk0
  rw [View.read_apply]
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- The second weight matrix's window is resident: its block at every point is the whole array. -/
theorem enc_iblk_3 (c : Dev nD) (t : Fin cfg0.N) :
    (iblk0 V c 3 t : Vec Ideal S1024x512 .f32) = (V c (Pipeline.arrRef spec0 3) : S1024x512.Idx → EReal) := by
  obtain ⟨-, -, -, ⟨e0, e1⟩, -⟩ := enc_index t
  funext y
  unfold iblk0
  rw [View.read_apply]
  show V c (Pipeline.arrRef spec0 3) (((cfg0.win 3).blk t).view.emb y) = V c (Pipeline.arrRef spec0 3) y
  refine congrArg (V c (Pipeline.arrRef spec0 3)) (funext fun a => Fin.ext ?_)
  match a with
  | ⟨0, _⟩ => show win0_3.index t (0 : Fin 2) * 1024 + 1 * (y 0).val = (y 0).val; rw [e0]; omega
  | ⟨1, _⟩ => show win0_3.index t (1 : Fin 2) * 512 + 1 * (y 1).val = (y 1).val; rw [e1]; omega

/-- The second bias row's window is resident: its block at every point is the whole array. -/
theorem enc_iblk_4 (c : Dev nD) (t : Fin cfg0.N) :
    (iblk0 V c 4 t : Vec Ideal S1x512 .f32) = (V c (Pipeline.arrRef spec0 4) : S1x512.Idx → EReal) := by
  obtain ⟨-, -, -, -, ⟨e0, e1⟩, -⟩ := enc_index t
  funext y
  unfold iblk0
  rw [View.read_apply]
  show V c (Pipeline.arrRef spec0 4) (((cfg0.win 4).blk t).view.emb y) = V c (Pipeline.arrRef spec0 4) y
  refine congrArg (V c (Pipeline.arrRef spec0 4)) (funext fun a => Fin.ext ?_)
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- The third weight matrix's window is resident: its block at every point is the whole array. -/
theorem enc_iblk_5 (c : Dev nD) (t : Fin cfg0.N) :
    (iblk0 V c 5 t : Vec Ideal S512x256 .f32) = (V c (Pipeline.arrRef spec0 5) : S512x256.Idx → EReal) := by
  obtain ⟨-, -, -, -, -, ⟨e0, e1⟩, -⟩ := enc_index t
  funext y
  unfold iblk0
  rw [View.read_apply]
  show V c (Pipeline.arrRef spec0 5) (((cfg0.win 5).blk t).view.emb y) = V c (Pipeline.arrRef spec0 5) y
  refine congrArg (V c (Pipeline.arrRef spec0 5)) (funext fun a => Fin.ext ?_)
  match a with
  | ⟨0, _⟩ => show win0_5.index t (0 : Fin 2) * 512 + 1 * (y 0).val = (y 0).val; rw [e0]; omega
  | ⟨1, _⟩ => show win0_5.index t (1 : Fin 2) * 256 + 1 * (y 1).val = (y 1).val; rw [e1]; omega

/-- The third bias row's window is resident: its block at every point is the whole array. -/
theorem enc_iblk_6 (c : Dev nD) (t : Fin cfg0.N) :
    (iblk0 V c 6 t : Vec Ideal S1x256 .f32) = (V c (Pipeline.arrRef spec0 6) : S1x256.Idx → EReal) := by
  obtain ⟨-, -, -, -, -, -, ⟨e0, e1⟩, -⟩ := enc_index t
  funext y
  unfold iblk0
  rw [View.read_apply]
  show V c (Pipeline.arrRef spec0 6) (((cfg0.win 6).blk t).view.emb y) = V c (Pipeline.arrRef spec0 6) y
  refine congrArg (V c (Pipeline.arrRef spec0 6)) (funext fun a => Fin.ext ?_)
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-! ## From the tiles to the array -/

/-- The encoder of the arrays as the region finds them, entry by entry. -/
abbrev encG (c : Dev nD) : S8192x256.Idx → EReal := fun j =>
  encAt (V c (Pipeline.arrRef spec0 0)) (V c (Pipeline.arrRef spec0 1)) (fun k => V c (Pipeline.arrRef spec0 2) (ix2 0 k))
    (V c (Pipeline.arrRef spec0 3)) (fun k => V c (Pipeline.arrRef spec0 4) (ix2 0 k)) (V c (Pipeline.arrRef spec0 5))
    (fun k => V c (Pipeline.arrRef spec0 6) (ix2 0 k)) (j 0) (j 1)

/-- What point t writes back is tile t of the encoder of the arrays. -/
theorem enc_flushed_eq (c : Dev nD) (t : Fin cfg0.N) :
    (dat0 V c).flushed 7 t = ((cfg0.win 7).blk t).view.read (Elt Ideal) (encG V c) := by
  show (cfg0.win 7).cut (grid0.coords t) ((dat0 V c).after 7 t) = _
  rw [after0_7]
  refine funext fun (j : S512x256.Idx) => ?_
  obtain ⟨p, q, rfl⟩ : ∃ (p : Fin 512) (q : Fin 256), j = ix2 p q := ⟨j 0, j 1, eq_ix2 j⟩
  have ht : t.val < 16 := Nat.lt_of_lt_of_eq t.isLt N_0
  obtain ⟨-, -, -, -, -, -, -, e0, e1⟩ := enc_index t
  have hemb : ((cfg0.win 7).blk t).view.emb (ix2 p q) = (ix2 (⟨t.val * 512 + p.val, by omega⟩ : Fin 8192) q : S8192x256.Idx) := by
    refine funext fun a => Fin.ext ?_
    match a with
    | ⟨0, _⟩ => show win0_7.index t (0 : Fin 2) * 512 + 1 * p.val = t.val * 512 + p.val; rw [e0]; omega
    | ⟨1, _⟩ => show win0_7.index t (1 : Fin 2) * 256 + 1 * q.val = q.val; rw [e1]; omega
  rw [View.read_apply]
  show out0_7 (iblk0 V c 0 t) (iblk0 V c 1 t) (iblk0 V c 2 t) (iblk0 V c 3 t) (iblk0 V c 4 t) (iblk0 V c 5 t) (iblk0 V c 6 t) (ix2 p q)
    = encG V c (((cfg0.win 7).blk t).view.emb (ix2 p q))
  refine Eq.trans ?_ (congrArg (encG V c) hemb).symm
  rw [enc_iblk_1 V c t, enc_iblk_2 V c t, enc_iblk_3 V c t, enc_iblk_4 V c t, enc_iblk_5 V c t, enc_iblk_6 V c t]
  exact enc_tile_apply (V c (Pipeline.arrRef spec0 0)) (iblk0 V c 0 t) _ _ _ _ _ _ p q _ (fun k => enc_iblk_0 V c t p k _ rfl)

/-- An index of the array is in point t's tile iff each coordinate is in the tile's range on its axis. -/
theorem enc_mem_blk (t : Fin cfg0.N) (i : S8192x256.Idx) :
    i ∈ ((cfg0.win 7).blk t).view.set
      ↔ ∀ a : Fin 2, win0_7.index t a * S512x256.size a ≤ (i a).val ∧ (i a).val < win0_7.index t a * S512x256.size a + S512x256.size a := by
  show i ∈ ((View.whole main_v3).slice (win0_7.rect t)).set ↔ _
  rw [View.set_slice_whole, Rect.mem_set_unit]
  exact Iff.rfl

/-- Row r is in the tile of point r / 512. -/
theorem enc_cover (i : S8192x256.Idx) : ∃ t : Fin cfg0.N, (cfg0.win 7).flush t = true ∧ i ∈ ((cfg0.win 7).blk t).view.set := by
  have h0 : (i 0).val < 8192 := (i 0).isLt
  have h1 : (i 1).val < 256 := (i 1).isLt
  have hN : cfg0.N = 16 := N_0
  have hlt : (i 0).val / 512 < cfg0.N := by rw [hN]; omega
  obtain ⟨-, -, -, -, -, -, -, e0, e1⟩ := enc_index ⟨(i 0).val / 512, hlt⟩
  refine ⟨⟨(i 0).val / 512, hlt⟩, flush0_7 _, ?_⟩
  rw [enc_mem_blk]
  intro a
  match a with
  | ⟨0, _⟩ =>
    show win0_7.index ⟨(i 0).val / 512, hlt⟩ (0 : Fin 2) * 512 ≤ (i 0).val
      ∧ (i 0).val < win0_7.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, hlt⟩ (1 : Fin 2) * 256 ≤ (i 1).val
      ∧ (i 1).val < win0_7.index ⟨(i 0).val / 512, hlt⟩ (1 : Fin 2) * 256 + 256
    rw [e1]; omega

/-- The encoder's output array after its region: entry (r, q) is three dense layers of row r of X. -/
theorem enc_final (V : (c : Dev nD) → (b : Ref sig .tc) → Buf (Elt Ideal) ((c : Thread nD τ).loc b)) (c : Dev nD) :
    (dat0 (F := Ideal) V c).arrAt 7 cfg0.N
      = fun j => encAt (V c (Pipeline.arrRef spec0 0)) (V c (Pipeline.arrRef spec0 1)) (fun k => V c (Pipeline.arrRef spec0 2) (ix2 0 k))
          (V c (Pipeline.arrRef spec0 3)) (fun k => V c (Pipeline.arrRef spec0 4) (ix2 0 k)) (V c (Pipeline.arrRef spec0 5))
          (fun k => V c (Pipeline.arrRef spec0 6) (ix2 0 k)) (j 0) (j 1) :=
  (dat0 V c).arrAt_eq_of_cover 7 (encG V c) (fun t _ => enc_flushed_eq V c t) enc_cover

end Cert.KernelIdeal.Hand

end
-- ==== Proof.DecValue.lean ====
/-
  What the decoder's output array holds after its region, on the extended reals. One grid point t of 16 writes the tile
  of rows [512 t, 512 t + 512): entry (p, q) of the tile is three dense layers of row p of the input tile, the input tile
  is those rows of Z, the six other operands are whole, and the 16 tiles cover the 8192 rows. So the array is, entry by
  entry, three dense layers of the matching row of Z.
-/
import proofs.«129998_j66537633349711_2_alg».proof.Proof.DecData
import proofs.«129998_j66537633349711_2_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The body's value at an entry of the tile -/

/-- The decoder body's value at entry (p, q) of the tile: three dense layers of row p of the input tile. The recast of
    the input tile to its own shape and the format changes are the identity on the extended reals, and each matrix
    product into zero plus its bias row repeated down the tile is a dense layer of the row. -/
theorem dec_pay_apply (v0 : Vec Ideal S512x256 .f32) (v3 : Vec Ideal S256x512 .f32) (v6 : Vec Ideal S1x512 .f32)
    (v11 : Vec Ideal S512x1024 .f32) (v14 : Vec Ideal S1x1024 .f32) (v19 : Vec Ideal S1024x2048 .f32) (v22 : Vec Ideal S1x2048 .f32)
    (p : Fin 512) (q : Fin 2048) :
    k2_pay1 v0 v3 v6 v11 v14 v19 v22 (ix2 p q)
      = mlp3 (fun k => v0 (ix2 p k)) v3 (fun k => v6 (ix2 (0 : Fin 1) k)) v11 (fun k => v14 (ix2 (0 : Fin 1) k)) v19
          (fun k => v22 (ix2 (0 : Fin 1) k)) q := by
  unfold k2_pay1 mlp3
  refine (DenseSoftmax.tile_dense_apply dot_S512x1024_S1024x2048_S512x2048_1_0_0_1_n_n rfl rfl rfl rfl rfl rfl _ _ none v22 _ _ p q).trans ?_
  refine congrArg (fun r => DenseSoftmax.dense r v19 (fun k => v22 (ix2 (0 : Fin 1) k)) q) (funext fun j => ?_)
  refine (DenseSoftmax.tile_dense_apply dot_S512x512_S512x1024_S512x1024_1_0_0_1_n_n rfl rfl rfl rfl rfl rfl _ _ none v14 _ _ p j).trans ?_
  refine congrArg (fun r => DenseSoftmax.dense r v11 (fun k => v14 (ix2 (0 : Fin 1) k)) j) (funext fun i => ?_)
  refine (DenseSoftmax.tile_dense_apply dot_S512x256_S256x512_S512x512_1_0_0_1_n_n rfl rfl rfl rfl rfl rfl _ _ none v6 _ _ p i).trans ?_
  exact congrArg (fun x : Vec Ideal S512x256 .f32 => DenseSoftmax.dense (fun k => x (ix2 p k)) v3 (fun k => v6 (ix2 (0 : Fin 1) k)) i)
    (shapeCast_self v0 shapeCasts_S512x256_S512x256)

theorem dec_hz : (![0, 0] : Fin 2 → Nat) = fun _ => 0 := funext fun a => by fin_cases a <;> rfl

/-- The output tile at entry (p, q), when row p of the input tile is row r of a matrix Z: the decoder of Z at (r, q). -/
theorem dec_tile_apply (Z : Mat 8192 256) (x0 : Vec Ideal S512x256 .f32) (x1 : Vec Ideal S256x512 .f32) (x2 : Vec Ideal S1x512 .f32)
    (x3 : Vec Ideal S512x1024 .f32) (x4 : Vec Ideal S1x1024 .f32) (x5 : Vec Ideal S1024x2048 .f32) (x6 : Vec Ideal S1x2048 .f32)
    (p : Fin 512) (q : Fin 2048) (r : Fin 8192) (h0 : ∀ k : Fin 256, x0 (ix2 p k) = Z (ix2 r k)) :
    out2_7 x0 x1 x2 x3 x4 x5 x6 (ix2 p q)
      = decAt Z x1 (fun k => x2 (ix2 (0 : Fin 1) k)) x3 (fun k => x4 (ix2 (0 : Fin 1) k)) x5 (fun k => x6 (ix2 (0 : Fin 1) k)) r q := by
  unfold out2_7
  rw [View.canon_unit_zero dec_hz]
  simp only [View.ld_unit_zero (S := S512x256) dec_hz, View.ld_unit_zero (S := S256x512) dec_hz,
    View.ld_unit_zero (S := S1x512) dec_hz, View.ld_unit_zero (S := S512x1024) dec_hz, View.ld_unit_zero (S := S1x1024) dec_hz,
    View.ld_unit_zero (S := S1024x2048) dec_hz, View.ld_unit_zero (S := S1x2048) dec_hz]
  refine (dec_pay_apply x0 x1 x2 x3 x4 x5 x6 p q).trans ?_
  unfold decAt
  exact congrArg (fun x => mlp3 x x1 (fun k => x2 (ix2 (0 : Fin 1) k)) x3 (fun k => x4 (ix2 (0 : Fin 1) k)) x5
    (fun k => x6 (ix2 (0 : Fin 1) k)) q) (funext h0)

/-! ## Each window's block at a point, read off its array -/

/-- The printed index maps over the grid: the row-tiled windows sit at block (t, 0), the resident ones at block (0, 0). -/
theorem dec_index : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- The input tile at point t is rows 512 t … 512 t + 511 of Z. -/
theorem dec_iblk_0 (c : Dev nD) (t : Fin cfg2.N) (p : Fin 512) (k : Fin 256) (r : Fin 8192) (hr : r.val = t.val * 512 + p.val) :
    (iblk2 V c 0 t : Vec Ideal S512x256 .f32) (ix2 p k) = (V c (Pipeline.arrRef spec2 0) : S8192x256.Idx → EReal) (ix2 r k) := by
  obtain ⟨⟨e0, e1⟩, -⟩ := dec_index t
  unfold iblk2
  rw [View.read_apply]
  show V c (Pipeline.arrRef spec2 0) (((cfg2.win 0).blk t).view.emb (ix2 p k)) = V c (Pipeline.arrRef spec2 0) (ix2 r k)
  refine congrArg (V c (Pipeline.arrRef spec2 0)) (funext fun a => Fin.ext ?_)
  match a with
  | ⟨0, _⟩ => show win2_0.index t (0 : Fin 2) * 512 + 1 * p.val = r.val; rw [e0, hr]; omega
  | ⟨1, _⟩ => show win2_0.index t (1 : Fin 2) * 256 + 1 * k.val = k.val; rw [e1]; omega

/-- The first weight matrix's window is resident: its block at every point is the whole array. -/
theorem dec_iblk_1 (c : Dev nD) (t : Fin cfg2.N) :
    (iblk2 V c 1 t : Vec Ideal S256x512 .f32) = (V c (Pipeline.arrRef spec2 1) : S256x512.Idx → EReal) := by
  obtain ⟨-, ⟨e0, e1⟩, -⟩ := dec_index t
  funext y
  unfold iblk2
  rw [View.read_apply]
  show V c (Pipeline.arrRef spec2 1) (((cfg2.win 1).blk t).view.emb y) = V c (Pipeline.arrRef spec2 1) y
  refine congrArg (V c (Pipeline.arrRef spec2 1)) (funext fun a => Fin.ext ?_)
  match a with
  | ⟨0, _⟩ => show win2_1.index t (0 : Fin 2) * 256 + 1 * (y 0).val = (y 0).val; rw [e0]; omega
  | ⟨1, _⟩ => show win2_1.index t (1 : Fin 2) * 512 + 1 * (y 1).val = (y 1).val; rw [e1]; omega

/-- The first bias row's window is resident: its block at every point is the whole array. -/
theorem dec_iblk_2 (c : Dev nD) (t : Fin cfg2.N) :
    (iblk2 V c 2 t : Vec Ideal S1x512 .f32) = (V c (Pipeline.arrRef spec2 2) : S1x512.Idx → EReal) := by
  obtain ⟨-, -, ⟨e0, e1⟩, -⟩ := dec_index t
  funext y
  unfold iblk2
  rw [View.read_apply]
  show V c (Pipeline.arrRef spec2 2) (((cfg2.win 2).blk t).view.emb y) = V c (Pipeline.arrRef spec2 2) y
  refine congrArg (V c (Pipeline.arrRef spec2 2)) (funext fun a => Fin.ext ?_)
  match a with
  | ⟨0, _⟩ => show win2_2.index t (0 : Fin 2) * 1 + 1 * (y 0).val = (y 0).val; rw [e0]; omega
  | ⟨1, _⟩ => show win2_2.index t (1 : Fin 2) * 512 + 1 * (y 1).val = (y 1).val; rw [e1]; omega

/-- The second weight matrix's window is resident: its block at every point is the whole array. -/
theorem dec_iblk_3 (c : Dev nD) (t : Fin cfg2.N) :
    (iblk2 V c 3 t : Vec Ideal S512x1024 .f32) = (V c (Pipeline.arrRef spec2 3) : S512x1024.Idx → EReal) := by
  obtain ⟨-, -, -, ⟨e0, e1⟩, -⟩ := dec_index t
  funext y
  unfold iblk2
  rw [View.read_apply]
  show V c (Pipeline.arrRef spec2 3) (((cfg2.win 3).blk t).view.emb y) = V c (Pipeline.arrRef spec2 3) y
  refine congrArg (V c (Pipeline.arrRef spec2 3)) (funext fun a => Fin.ext ?_)
  match a with
  | ⟨0, _⟩ => show win2_3.index t (0 : Fin 2) * 512 + 1 * (y 0).val = (y 0).val; rw [e0]; omega
  | ⟨1, _⟩ => show win2_3.index t (1 : Fin 2) * 1024 + 1 * (y 1).val = (y 1).val; rw [e1]; omega

/-- The second bias row's window is resident: its block at every point is the whole array. -/
theorem dec_iblk_4 (c : Dev nD) (t : Fin cfg2.N) :
    (iblk2 V c 4 t : Vec Ideal S1x1024 .f32) = (V c (Pipeline.arrRef spec2 4) : S1x1024.Idx → EReal) := by
  obtain ⟨-, -, -, -, ⟨e0, e1⟩, -⟩ := dec_index t
  funext y
  unfold iblk2
  rw [View.read_apply]
  show V c (Pipeline.arrRef spec2 4) (((cfg2.win 4).blk t).view.emb y) = V c (Pipeline.arrRef spec2 4) y
  refine congrArg (V c (Pipeline.arrRef spec2 4)) (funext fun a => Fin.ext ?_)
  match a with
  | ⟨0, _⟩ => show win2_4.index t (0 : Fin 2) * 1 + 1 * (y 0).val = (y 0).val; rw [e0]; omega
  | ⟨1, _⟩ => show win2_4.index t (1 : Fin 2) * 1024 + 1 * (y 1).val = (y 1).val; rw [e1]; omega

/-- The third weight matrix's window is resident: its block at every point is the whole array. -/
theorem dec_iblk_5 (c : Dev nD) (t : Fin cfg2.N) :
    (iblk2 V c 5 t : Vec Ideal S1024x2048 .f32) = (V c (Pipeline.arrRef spec2 5) : S1024x2048.Idx → EReal) := by
  obtain ⟨-, -, -, -, -, ⟨e0, e1⟩, -⟩ := dec_index t
  funext y
  unfold iblk2
  rw [View.read_apply]
  show V c (Pipeline.arrRef spec2 5) (((cfg2.win 5).blk t).view.emb y) = V c (Pipeline.arrRef spec2 5) y
  refine congrArg (V c (Pipeline.arrRef spec2 5)) (funext fun a => Fin.ext ?_)
  match a with
  | ⟨0, _⟩ => show win2_5.index t (0 : Fin 2) * 1024 + 1 * (y 0).val = (y 0).val; rw [e0]; omega
  | ⟨1, _⟩ => show win2_5.index t (1 : Fin 2) * 2048 + 1 * (y 1).val = (y 1).val; rw [e1]; omega

/-- The third bias row's window is resident: its block at every point is the whole array. -/
theorem dec_iblk_6 (c : Dev nD) (t : Fin cfg2.N) :
    (iblk2 V c 6 t : Vec Ideal S1x2048 .f32) = (V c (Pipeline.arrRef spec2 6) : S1x2048.Idx → EReal) := by
  obtain ⟨-, -, -, -, -, -, ⟨e0, e1⟩, -⟩ := dec_index t
  funext y
  unfold iblk2
  rw [View.read_apply]
  show V c (Pipeline.arrRef spec2 6) (((cfg2.win 6).blk t).view.emb y) = V c (Pipeline.arrRef spec2 6) y
  refine congrArg (V c (Pipeline.arrRef spec2 6)) (funext fun a => Fin.ext ?_)
  match a with
  | ⟨0, _⟩ => show win2_6.index t (0 : Fin 2) * 1 + 1 * (y 0).val = (y 0).val; rw [e0]; omega
  | ⟨1, _⟩ => show win2_6.index t (1 : Fin 2) * 2048 + 1 * (y 1).val = (y 1).val; rw [e1]; omega

/-! ## From the tiles to the array -/

/-- The decoder of the arrays as the region finds them, entry by entry. -/
abbrev decG (c : Dev nD) : S8192x2048.Idx → EReal := fun j =>
  decAt (V c (Pipeline.arrRef spec2 0)) (V c (Pipeline.arrRef spec2 1)) (fun k => V c (Pipeline.arrRef spec2 2) (ix2 0 k))
    (V c (Pipeline.arrRef spec2 3)) (fun k => V c (Pipeline.arrRef spec2 4) (ix2 0 k)) (V c (Pipeline.arrRef spec2 5))
    (fun k => V c (Pipeline.arrRef spec2 6) (ix2 0 k)) (j 0) (j 1)

/-- What point t writes back is tile t of the decoder of the arrays. -/
theorem dec_flushed_eq (c : Dev nD) (t : Fin cfg2.N) :
    (dat2 V c).flushed 7 t = ((cfg2.win 7).blk t).view.read (Elt Ideal) (decG V c) := by
  show (cfg2.win 7).cut (grid2.coords t) ((dat2 V c).after 7 t) = _
  rw [after2_7]
  refine funext fun (j : S512x2048.Idx) => ?_
  obtain ⟨p, q, rfl⟩ : ∃ (p : Fin 512) (q : Fin 2048), j = ix2 p q := ⟨j 0, j 1, eq_ix2 j⟩
  have ht : t.val < 16 := Nat.lt_of_lt_of_eq t.isLt N_2
  obtain ⟨-, -, -, -, -, -, -, e0, e1⟩ := dec_index t
  have hemb : ((cfg2.win 7).blk t).view.emb (ix2 p q) = (ix2 (⟨t.val * 512 + p.val, by omega⟩ : Fin 8192) q : S8192x2048.Idx) := by
    refine funext fun a => Fin.ext ?_
    match a with
    | ⟨0, _⟩ => show win2_7.index t (0 : Fin 2) * 512 + 1 * p.val = t.val * 512 + p.val; rw [e0]; omega
    | ⟨1, _⟩ => show win2_7.index t (1 : Fin 2) * 2048 + 1 * q.val = q.val; rw [e1]; omega
  rw [View.read_apply]
  show out2_7 (iblk2 V c 0 t) (iblk2 V c 1 t) (iblk2 V c 2 t) (iblk2 V c 3 t) (iblk2 V c 4 t) (iblk2 V c 5 t) (iblk2 V c 6 t) (ix2 p q)
    = decG V c (((cfg2.win 7).blk t).view.emb (ix2 p q))
  refine Eq.trans ?_ (congrArg (decG V c) hemb).symm
  rw [dec_iblk_1 V c t, dec_iblk_2 V c t, dec_iblk_3 V c t, dec_iblk_4 V c t, dec_iblk_5 V c t, dec_iblk_6 V c t]
  exact dec_tile_apply (V c (Pipeline.arrRef spec2 0)) (iblk2 V c 0 t) _ _ _ _ _ _ p q _ (fun k => dec_iblk_0 V c t p k _ rfl)

/-- An index of the array is in point t's tile iff each coordinate is in the tile's range on its axis. -/
theorem dec_mem_blk (t : Fin cfg2.N) (i : S8192x2048.Idx) :
    i ∈ ((cfg2.win 7).blk t).view.set
      ↔ ∀ a : Fin 2, win2_7.index t a * S512x2048.size a ≤ (i a).val ∧ (i a).val < win2_7.index t a * S512x2048.size a + S512x2048.size a := by
  show i ∈ ((View.whole main_v8).slice (win2_7.rect t)).set ↔ _
  rw [View.set_slice_whole, Rect.mem_set_unit]
  exact Iff.rfl

/-- Row r is in the tile of point r / 512. -/
theorem dec_cover (i : S8192x2048.Idx) : ∃ t : Fin cfg2.N, (cfg2.win 7).flush t = true ∧ i ∈ ((cfg2.win 7).blk t).view.set := by
  have h0 : (i 0).val < 8192 := (i 0).isLt
  have h1 : (i 1).val < 2048 := (i 1).isLt
  have hN : cfg2.N = 16 := N_2
  have hlt : (i 0).val / 512 < cfg2.N := by rw [hN]; omega
  obtain ⟨-, -, -, -, -, -, -, e0, e1⟩ := dec_index ⟨(i 0).val / 512, hlt⟩
  refine ⟨⟨(i 0).val / 512, hlt⟩, flush2_7 _, ?_⟩
  rw [dec_mem_blk]
  intro a
  match a with
  | ⟨0, _⟩ =>
    show win2_7.index ⟨(i 0).val / 512, hlt⟩ (0 : Fin 2) * 512 ≤ (i 0).val
      ∧ (i 0).val < win2_7.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win2_7.index ⟨(i 0).val / 512, hlt⟩ (1 : Fin 2) * 2048 ≤ (i 1).val
      ∧ (i 1).val < win2_7.index ⟨(i 0).val / 512, hlt⟩ (1 : Fin 2) * 2048 + 2048
    rw [e1]; omega

/-- The decoder's output array after its region: entry (r, q) is three dense layers of row r of Z. -/
theorem dec_final (V : (c : Dev nD) → (b : Ref sig .tc) → Buf (Elt Ideal) ((c : Thread nD τ).loc b)) (c : Dev nD) :
    (dat2 (F := Ideal) V c).arrAt 7 cfg2.N
      = fun j => decAt (V c (Pipeline.arrRef spec2 0)) (V c (Pipeline.arrRef spec2 1)) (fun k => V c (Pipeline.arrRef spec2 2) (ix2 0 k))
          (V c (Pipeline.arrRef spec2 3)) (fun k => V c (Pipeline.arrRef spec2 4) (ix2 0 k)) (V c (Pipeline.arrRef spec2 5))
          (fun k => V c (Pipeline.arrRef spec2 6) (ix2 0 k)) (j 0) (j 1) :=
  (dat2 V c).arrAt_eq_of_cover 7 (decG V c) (fun t _ => dec_flushed_eq V c t) dec_cover

end Cert.KernelIdeal.Hand

end
-- ==== Proof.LibDotAxis0.lean ====
/-
  A matrix product that contracts the leading axis of both operands, read at an entry.

  The operands are a [K, M] and a [K, N] matrix; the product has no batch axis, contracts axis 0 of the left operand
  with axis 0 of the right one, and keeps the left operand's columns as the result's rows and the right operand's
  columns as its columns: the result is the [M, N] matrix "left transposed times right". On the extended reals the
  matrix unit accumulating into zero reads at entry (p, q) as the sum over the K contracted rows k of
  lhs (k, p) * rhs (k, q). A record of dimension numbers is determined by its six lists of axes (its last field is a
  proof), so the statement holds for every record carrying those lists.
-/
import Idealize.ShloMosaic.PureOps.Ideal.Laws
import Idealize.ShloMosaic.Lib.ValueIdx

namespace DotAxis0

open Idealize.ShloMosaic Idealize.ShloMosaic.ValueIdx

variable {M K N : ℕ}

/-- The record with the six lists "contract axis 0 with axis 0, keep axis 1 and axis 1, no batch", over any proof of
    its side conditions. -/
abbrev dims (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wf : DotDims.WF ⟨2, ![K, M]⟩ ⟨2, ![K, N]⟩ ⟨2, ![M, N]⟩ [0] [0] [1] [1] [] [])

/-- The left operand's index at output entry (p, q) and contracted row k is (k, p). -/
theorem lhsIdx_eq (p : Fin M) (q : Fin N) (k : Fin K) :
    (dims wf).lhsIdx (ix2 p q) ((contrEquiv1 (dims wf) K rfl rfl).symm k) = ix2 k p := by
  have hk := contrEquiv1_symm_val (dims wf) K rfl rfl k
  funext a
  apply Fin.ext
  match a with
  | ⟨0, _⟩ => exact ((dims wf).lhsIdx_val_of_single (cl := 0) rfl _ _).trans hk
  | ⟨1, _⟩ => rfl

/-- The right operand's index at output entry (p, q) and contracted row k is (k, q). -/
theorem rhsIdx_eq (p : Fin M) (q : Fin N) (k : Fin K) :
    (dims wf).rhsIdx (ix2 p q) ((contrEquiv1 (dims wf) K rfl rfl).symm k) = ix2 k q := by
  have hk := contrEquiv1_symm_val (dims wf) K rfl rfl k
  funext a
  apply Fin.ext
  match a with
  | ⟨0, _⟩ => exact ((dims wf).rhsIdx_val_of_single (cr := 0) rfl _ _).trans hk
  | ⟨1, _⟩ => rfl

/-- The contraction at entry (p, q) is the sum over the K contracted rows. -/
theorem contraction (lhs : (⟨2, ![K, M]⟩ : Shape).Idx → EReal) (rhs : (⟨2, ![K, N]⟩ : Shape).Idx → EReal)
    (p : Fin M) (q : Fin N) :
    ∑ k : (dims wf).contr.Idx, lhs ((dims wf).lhsIdx (ix2 p q) k) * rhs ((dims wf).rhsIdx (ix2 p q) k)
      = ∑ k : Fin K, lhs (ix2 k p) * rhs (ix2 k q) := by
  rw [← Equiv.sum_comp (contrEquiv1 (dims wf) K rfl rfl).symm]
  refine Finset.sum_congr rfl fun k _ => ?_
  rw [lhsIdx_eq, rhsIdx_eq]

/-- The matrix unit accumulating into the zero vector, under any record with these lists, at entry (p, q). -/
theorem matmul_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (lhs : FVec Ideal ⟨2, ![K, M]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 k p) * rhs (ix2 k q) := by
  obtain ⟨lc, rc, ln, rn, lb, rb, wf⟩ := d
  simp only at h1 h2 h3 h4 h5 h6
  subst h1 h2 h3 h4 h5 h6
  exact (Ideal.matmul_constant_zero_apply (dims wf) prec lhs rhs (ix2 p q)).trans (contraction wf lhs rhs p q)

end DotAxis0
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibRunningSum.lean ====
/-
  A sum built one term at a time.

  Let `a 0 = p 0` and `a (n + 1) = a n + p (n + 1)` for the positions below `N`. Then `a n` is the sum of the first
  `n + 1` terms, and at the last position it is the sum of all `N` terms. Only the monoid laws of the addition are
  used, so the statement holds in any commutative additive monoid — on the extended reals without any finiteness
  assumption.
-/
import Idealize.ShloMosaic.Lib.ValueIdx

namespace RunningSum

variable {β : Type*} [AddCommMonoid β]

/-- The term at position `s`, and zero from `N` on: the terms as a sequence over all naturals. -/
def term {N : ℕ} (p : Fin N → β) (s : ℕ) : β := if h : s < N then p ⟨s, h⟩ else 0

theorem term_of_lt {N : ℕ} (p : Fin N → β) {s : ℕ} (h : s < N) : term p s = p ⟨s, h⟩ := dif_pos h

/-- After position `n` the running value is the sum of the terms at positions `0, …, n`. -/
theorem prefix_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩) :
    ∀ (n : ℕ) (h : n < N), a n h = ∑ s ∈ Finset.range (n + 1), term p s
  | 0, h => by rw [h0 h, Finset.sum_range_one, term_of_lt p h]
  | n + 1, h => by
    rw [hs n h, prefix_eq p a h0 hs n (Nat.lt_of_succ_lt h), Finset.sum_range_succ _ (n + 1), term_of_lt p h]

/-- At the last position the running value is the sum of all the terms. -/
theorem last_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩)
    (n : ℕ) (h : n < N) (hlast : n + 1 = N) : a n h = ∑ s : Fin N, p s := by
  rw [prefix_eq p a h0 hs n h, hlast, ← Fin.sum_univ_eq_sum_range (term p) N]
  exact Finset.sum_congr rfl fun s _ => term_of_lt p s.isLt

end RunningSum
-- ==== Proof.RwtValue.lean ====
/-
  What the diffusion region leaves in its output array, on the extended reals.

  The grid is 16 × 8. At point (i, k) the body adds to a 512 × 256 accumulator, zeroed at k = 0, the product of the
  1024 × 512 tile of RW at block (k, i) with rows 1024 k to 1024 k + 1023 of Z0, contracted over the tile's 1024 rows:
  entry (p, q) gains sum_kk RW[1024 k + kk, 512 i + p] · Z0[1024 k + kk, q]. After k = 7 the entry is the sum of the
  eight groups of 1024 consecutive terms, that is sum_r RW[r, 512 i + p] · Z0[r, q] over all 8192 rows: the product of
  the transpose of RW with Z0 at row 512 i + p, column q. The accumulator is copied to output rows 512 i to 512 i + 511
  at k = 7, and these sixteen row blocks tile the output. Only associativity and commutativity of the addition and
  0 + x = x are used; nothing is assumed finite.
-/
import proofs.«129998_j66537633349711_2_alg».proof.Proof.RwtData
import proofs.«129998_j66537633349711_2_alg».proof.Proof.Spec
import proofs.«129998_j66537633349711_2_alg».proof.Proof.LibDotAxis0
import proofs.«129998_j66537633349711_2_alg».proof.Proof.LibGroupedSum
import proofs.«129998_j66537633349711_2_alg».proof.Proof.LibRunningSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

namespace RwtValue

/-- The printed index maps and the grid's coordinates in closed form, decided once over the 128 points: point t has
    coordinates (t / 8, t % 8); the RW window's block index is (t % 8, t / 8), the resident window's is (0, 0), the
    output window's is (t / 8, 0). -/
theorem idx_facts1 : ∀ t : Fin cfg1.N,
    win1_0.index t (0 : Fin 2) = t.val % 8 ∧ win1_0.index t (1 : Fin 2) = t.val / 8
    ∧ win1_1.index t (0 : Fin 2) = 0 ∧ win1_1.index t (1 : Fin 2) = 0
    ∧ win1_2.index t (0 : Fin 2) = t.val / 8 ∧ win1_2.index t (1 : Fin 2) = 0
    ∧ (grid1.coords t 0).val = t.val / 8 ∧ (grid1.coords t 1).val = t.val % 8 :=
  (by decide +kernel : ∀ t : Fin grid1.N, _)

/-- The grid has 128 points. -/
theorem N1 : cfg1.N = 128 := by decide

/-- One accumulation step at an entry: the accumulator's entry plus the 1024 products of the tile's column p with the
    resident rows from row 1024 k. -/
theorem step1_apply (i : grid1.Coords) (k : ℕ) (hk : (i 1).val = k) (hk8 : k < 8)
    (rw : Vec Ideal S1024x512 .f32) (z : Vec Ideal S8192x256 .f32) (acc : Vec Ideal S512x256 .f32)
    (p : Fin 512) (q : Fin 256) :
    step1 (F := Ideal) i rw z acc (ix2 p q)
      = acc (ix2 p q) + ∑ kk : Fin 1024, rw (ix2 kk p) * z (ix2 (⟨k * 1024 + kk.val, by omega⟩ : Fin 8192) q) := by
  unfold step1 k1_pay2
  simp only [shapeCast_self]
  refine congrArg (acc (ix2 p q) + ·) ?_
  refine (DotAxis0.matmul_zero_apply dot_S1024x512_S1024x256_S512x256_0_0_1_1_n_n rfl rfl rfl rfl rfl rfl
    (truncf FTy.bf16 rw bitsLt_bf16_f32) (truncf FTy.bf16 (View.ld z (rz1 i)) bitsLt_bf16_f32) none p q).trans ?_
  refine Finset.sum_congr rfl fun kk _ => ?_
  refine congrArg (rw (ix2 kk p) * ·) ?_
  show z ((rz1 i).idx (ix2 kk q)) = z _
  refine congrArg z (funext fun a => Fin.ext ?_)
  have ho := k1_off1_eq i
  match a with
  | ⟨0, _⟩ =>
    show k1_off1 i 0 + 1 * kk.val = k * 1024 + kk.val
    rw [ho, ← hk]; show 1024 * (i 1).val + 1 * kk.val = _; omega
  | ⟨1, _⟩ =>
    show k1_off1 i 1 + 1 * q.val = q.val
    rw [ho]; show 0 + 1 * q.val = _; omega

/-- The accumulator's reset value is zero at every entry. -/
theorem k1_pay1_apply (j : S512x256.Idx) : k1_pay1 (F := Ideal) j = 0 := by
  unfold k1_pay1
  simp only [shapeCast_self]
  exact Ideal.ofBits_zero_f32

section
variable (V : (c : Dev nD) → (b : Ref sig .tc) → Buf (Elt Ideal) ((c : Thread nD τ).loc b))

/-- The RW window's block at point t, at (kk, p): the array at row 1024 (t % 8) + kk, column 512 (t / 8) + p. -/
theorem iblk1_0_apply (c : Dev nD) (t : Fin cfg1.N) (kk : Fin 1024) (p : Fin 512) (r col : Fin 8192)
    (hr : r.val = 1024 * (t.val % 8) + kk.val) (hc : col.val = 512 * (t.val / 8) + p.val) :
    (iblk1 V c 0 t : Vec Ideal S1024x512 .f32) (ix2 kk p)
      = (V c (Pipeline.arrRef spec1 0) : S8192x8192.Idx → Elt Ideal .f32) (ix2 r col) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 1024 + 1 * kk.val = r.val; rw [e0, hr]; omega
  | ⟨1, _⟩ => show win1_0.index t 1 * 512 + 1 * p.val = col.val; rw [e1, hc]; omega

/-- The resident window's block at any point is the whole array. -/
theorem iblk1_1_apply (c : Dev nD) (t : Fin cfg1.N) (r : Fin 8192) (q : Fin 256) :
    (iblk1 V c 1 t : Vec Ideal S8192x256 .f32) (ix2 r q)
      = (V c (Pipeline.arrRef spec1 1) : S8192x256.Idx → Elt Ideal .f32) (ix2 r q) := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t 0 * 8192 + 1 * r.val = r.val; rw [e0]; omega
  | ⟨1, _⟩ => show win1_1.index t 1 * 256 + 1 * q.val = q.val; rw [e1]; omega

/-- The scratch accumulator's contents depend on the position only. -/
theorem scr1_congr (c : Dev nD) {n n' : ℕ} (e : n = n') (h : n < cfg1.N) (h' : n' < cfg1.N) :
    scr1 V c n h = scr1 V c n' h' := by subst e; rfl

theorem lt_N1 {i n : ℕ} (hi : i < 16) (hn : n < 8) : 8 * i + n < cfg1.N := by rw [N1]; omega

/-- The terms of one entry of the product of the transpose of RW with Z0. -/
abbrev term1 (RW : Mat 8192 8192) (Z0 : Mat 8192 256) (col : Fin 8192) (q : Fin 256) (k : Fin 8192) : EReal :=
  RW (ix2 k col) * Z0 (ix2 k q)

/-- The products of group s: rows 1024 s to 1024 s + 1023 of column col of RW against column q of Z0. -/
def grp (RW : Mat 8192 8192) (Z0 : Mat 8192 256) (col : Fin 8192) (q : Fin 256) (s : Fin 8) : EReal :=
  ∑ kk : Fin 1024, term1 RW Z0 col q ⟨s.val * 1024 + kk.val, GroupedSum.group_lt (J := 8) (B := 1024) (K := 8192) rfl s kk⟩

/-- The step at point t, on the window's blocks, at entry (p, q): the accumulator's entry plus group t % 8 of column
    512 (t / 8) + p. -/
theorem step_at_point (c : Dev nD) (t : Fin cfg1.N) (p : Fin 512) (q : Fin 256) (col : Fin 8192) (s : Fin 8)
    (hc : col.val = 512 * (t.val / 8) + p.val) (hs : s.val = t.val % 8) (acc : Vec Ideal S512x256 .f32) :
    step1 (F := Ideal) (grid1.coords t) (iblk1 V c 0 t) (iblk1 V c 1 t) acc (ix2 p q)
      = acc (ix2 p q) + grp (V c (Pipeline.arrRef spec1 0)) (V c (Pipeline.arrRef spec1 1)) col q s := by
  obtain ⟨-, -, -, -, -, -, -, g1⟩ := idx_facts1 t
  refine (step1_apply (grid1.coords t) s.val (g1.trans hs.symm) s.isLt (iblk1 V c 0 t) (iblk1 V c 1 t) acc p q).trans ?_
  refine congrArg (acc (ix2 p q) + ·) ?_
  unfold grp
  refine Finset.sum_congr rfl fun kk _ => ?_
  exact congrArg₂ (· * ·)
    (iblk1_0_apply V c t kk p ⟨s.val * 1024 + kk.val, by omega⟩ col (by show s.val * 1024 + kk.val = _; rw [hs]; omega) hc)
    (iblk1_1_apply V c t ⟨s.val * 1024 + kk.val, by omega⟩ q)

/-- After the last step of block row i the accumulator holds, at (p, q), the eight groups' sums of column 512 i + p. -/
theorem scr1_last_groups (c : Dev nD) (i : ℕ) (hi : i < 16) (p : Fin 512) (q : Fin 256) (col : Fin 8192)
    (hc : col.val = 512 * i + p.val) :
    scr1 V c (8 * i + 7) (lt_N1 hi (by omega)) (ix2 p q)
      = ∑ s : Fin 8, grp (V c (Pipeline.arrRef spec1 0)) (V c (Pipeline.arrRef spec1 1)) col q s := by
  refine RunningSum.last_eq (N := 8) (grp (V c (Pipeline.arrRef spec1 0)) (V c (Pipeline.arrRef spec1 1)) col q)
    (fun n hn => scr1 V c (8 * i + n) (lt_N1 hi hn) (ix2 p q)) ?_ ?_ 7 (by omega) rfl
  · intro h
    have hz : (8 * i + 0) % 8 = 0 := by omega
    have hd : (8 * i + 0) / 8 = i := by omega
    refine (congrFun (scr1_reset V c ⟨8 * i + 0, lt_N1 hi h⟩ hz) (ix2 p q)).trans ?_
    refine (step_at_point V c ⟨8 * i + 0, lt_N1 hi h⟩ p q col ⟨0, h⟩ (by show col.val = 512 * ((8 * i + 0) / 8) + p.val; rw [hd]; exact hc)
      (by show 0 = (8 * i + 0) % 8; omega) (k1_pay1 (F := Ideal))).trans ?_
    rw [k1_pay1_apply, zero_add]
  · intro n h
    have hz : ¬ (8 * i + (n + 1)) % 8 = 0 := by omega
    have hd : (8 * i + (n + 1)) / 8 = i := by omega
    refine (congrFun (scr1_acc V c ⟨8 * i + (n + 1), lt_N1 hi h⟩ hz) (ix2 p q)).trans ?_
    refine (step_at_point V c ⟨8 * i + (n + 1), lt_N1 hi h⟩ p q col ⟨n + 1, h⟩
      (by show col.val = 512 * ((8 * i + (n + 1)) / 8) + p.val; rw [hd]; exact hc)
      (by show n + 1 = (8 * i + (n + 1)) % 8; omega) _).trans ?_
    refine congrArg (· + grp (V c (Pipeline.arrRef spec1 0)) (V c (Pipeline.arrRef spec1 1)) col q ⟨n + 1, h⟩) ?_
    exact congrFun (scr1_congr V c (by show 8 * i + (n + 1) - 1 = 8 * i + n; omega) _ _) (ix2 p q)

/-- The eight groups' sums make up the whole contraction. -/
theorem groups_eq_diffAt (RW : Mat 8192 8192) (Z0 : Mat 8192 256) (col : Fin 8192) (q : Fin 256) :
    ∑ s : Fin 8, grp RW Z0 col q s = diffAt RW Z0 col q :=
  (GroupedSum.sum_groups (J := 8) (B := 1024) (K := 8192) rfl (term1 RW Z0 col q)).symm

/-- After the last step of block row i the accumulator holds the diffusion step's rows 512 i to 512 i + 511. -/
theorem scr1_last_apply (c : Dev nD) (i : ℕ) (hi : i < 16) (p : Fin 512) (q : Fin 256) (col : Fin 8192)
    (hc : col.val = 512 * i + p.val) :
    scr1 V c (8 * i + 7) (lt_N1 hi (by omega)) (ix2 p q)
      = diffAt (V c (Pipeline.arrRef spec1 0)) (V c (Pipeline.arrRef spec1 1)) col q :=
  (scr1_last_groups V c i hi p q col hc).trans (groups_eq_diffAt _ _ col q)

/-- The diffusion step as contents of the output array. -/
def G1 (c : Dev nD) : Buf (Elt Ideal) ((cfg1.win 2).arr.view.loc (c.tc : Thread nD τ)) :=
  fun j => diffAt (V c (Pipeline.arrRef spec1 0)) (V c (Pipeline.arrRef spec1 1)) (j 0) (j 1)

/-- What a point with k = 7 writes back is its block of the diffusion step: rows 512 (t / 8) to 512 (t / 8) + 511. -/
theorem flushed1_eq (c : Dev nD) (t : Fin cfg1.N) (hf : (cfg1.win 2).flush t = true) :
    (dat1 (F := Ideal) V c).flushed 2 t = ((cfg1.win 2).blk t).view.read (Elt Ideal) (G1 V c) := by
  have h7 : t.val % 8 = 7 := (flush1_2 t).mp hf
  have hN : t.val < 128 := lt_of_lt_of_eq t.isLt N1
  obtain ⟨-, -, -, -, e0, e1, -⟩ := idx_facts1 t
  show (cfg1.win 2).cut (grid1.coords t) ((dat1 (F := Ideal) V c).after 2 t) = _
  rw [after1_2]
  funext j
  have hj0 : (j 0).val < 512 := (j 0).isLt
  have hj1 : (j 1).val < 256 := (j 1).isLt
  have hx : (cfg1.win 2).xinj (grid1.coords t) j = ix2 (⟨(j 0).val, hj0⟩ : Fin 512) (⟨(j 1).val, hj1⟩ : Fin 256) :=
    funext fun a => by match a with | ⟨0, _⟩ => rfl | ⟨1, _⟩ => rfl
  show scr1 V c t.val t.isLt ((cfg1.win 2).xinj (grid1.coords t) j) = G1 V c (((cfg1.win 2).blk t).view.emb j)
  rw [hx]
  have hi : t.val / 8 < 16 := by omega
  refine (congrFun (scr1_congr V c (by omega : t.val = 8 * (t.val / 8) + 7) t.isLt (lt_N1 hi (by omega))) _).trans ?_
  refine (scr1_last_apply V c (t.val / 8) hi ⟨(j 0).val, hj0⟩ ⟨(j 1).val, hj1⟩
    ⟨512 * (t.val / 8) + (j 0).val, by omega⟩ rfl).trans ?_
  unfold G1
  refine congrArg₂ (diffAt (V c (Pipeline.arrRef spec1 0)) (V c (Pipeline.arrRef spec1 1))) (Fin.ext ?_) (Fin.ext ?_)
  · show 512 * (t.val / 8) + (j 0).val = win1_2.index t 0 * 512 + 1 * (j 0).val
    rw [e0]; omega
  · show (j 1).val = win1_2.index t 1 * 256 + 1 * (j 1).val
    rw [e1]; omega

/-- An index of the output array is in point t's block iff each coordinate is in the block's range on its axis. -/
theorem mem_blk1 (t : Fin cfg1.N) (i : S8192x256.Idx) :
    i ∈ ((cfg1.win 2).blk t).view.set
      ↔ ∀ a : Fin 2, win1_2.index t a * S512x256.size a ≤ (i a).val ∧ (i a).val < win1_2.index t a * S512x256.size a + S512x256.size a := by
  show i ∈ ((View.whole main_v4).slice (win1_2.rect t)).set ↔ _
  rw [View.set_slice_whole, Rect.mem_set_unit]
  exact Iff.rfl

/-- Row r of the output is covered by the last point of its block row, 8 (r / 512) + 7. -/
theorem cover1 (i : S8192x256.Idx) :
    ∃ t : Fin cfg1.N, (cfg1.win 2).flush t = true ∧ i ∈ ((cfg1.win 2).blk t).view.set := by
  have hi0 : (i 0).val < 8192 := (i 0).isLt
  have hi1 : (i 1).val < 256 := (i 1).isLt
  have hb : (i 0).val / 512 < 16 := by omega
  refine ⟨⟨8 * ((i 0).val / 512) + 7, lt_N1 hb (by omega)⟩, (flush1_2 _).mpr (by show (8 * ((i 0).val / 512) + 7) % 8 = 7; omega), ?_⟩
  rw [mem_blk1]
  obtain ⟨-, -, -, -, e0, e1, -⟩ := idx_facts1 ⟨8 * ((i 0).val / 512) + 7, lt_N1 hb (by omega)⟩
  have hd : (8 * ((i 0).val / 512) + 7) / 8 = (i 0).val / 512 := by omega
  intro a
  match a with
  | ⟨0, _⟩ =>
    show win1_2.index _ 0 * 512 ≤ (i 0).val ∧ (i 0).val < win1_2.index _ 0 * 512 + 512
    rw [e0]; show (8 * ((i 0).val / 512) + 7) / 8 * 512 ≤ (i 0).val ∧ (i 0).val < (8 * ((i 0).val / 512) + 7) / 8 * 512 + 512
    rw [hd]; omega
  | ⟨1, _⟩ =>
    show win1_2.index _ 1 * 256 ≤ (i 1).val ∧ (i 1).val < win1_2.index _ 1 * 256 + 256
    rw [e1]; omega

end

end RwtValue

section
variable (V : (c : Dev nD) → (b : Ref sig .tc) → Buf (Elt Ideal) ((c : Thread nD τ).loc b))

/-- The diffusion region leaves the product of the transpose of RW with Z0 in its output array. -/
theorem rwt_final (c : Dev nD) :
    (dat1 (F := Ideal) V c).arrAt 2 cfg1.N
      = fun j => diffAt (V c (Pipeline.arrRef spec1 0)) (V c (Pipeline.arrRef spec1 1)) (j 0) (j 1) :=
  (dat1 (F := Ideal) V c).arrAt_eq_of_cover 2 (RwtValue.G1 V c) (RwtValue.flushed1_eq V c) RwtValue.cover1

end

end Cert.KernelIdeal.Hand

end
-- ==== Proof.RefSide.lean ====
/-
  The reference program read as the specification. Its first three dense layers are the encoder at (r, c); the product
  of the transposed RW with that embedding is the diffusion step; its next three dense layers, of the diffused embedding,
  are the decoder; and its remaining lines are the loss stages: the same operations on the same literals, in another order
  (the reference computes the soft assignment before the decoder).
-/
import proofs.«129998_j66537633349711_2_alg».proof.Proof.RefRead
import proofs.«129998_j66537633349711_2_alg».proof.Proof.Spec
import proofs.«129998_j66537633349711_2_alg».proof.Proof.TailStages

noncomputable section

namespace Cert.KernelIdeal.Hand.Ref

open Idealize.ShloMosaic Idealize.ShloMosaic.TcCoe Idealize.ShloMosaic.ValueIdx
open Cert.ReferenceIdeal Cert.ReferenceIdeal.Gen Cert.ReferenceIdeal.ReadP

/-! ## The matrix stages, on the extended reals -/

section Stages

variable (x0 : (⟨Cert.ReferenceIdeal.S8192x2048, .f32⟩ : BufTy).Contents (Elt Ideal))
  (x1 : (⟨Cert.ReferenceIdeal.S8192x8192, .f32⟩ : BufTy).Contents (Elt Ideal))
  (x3 : (⟨Cert.ReferenceIdeal.S2048x1024, .f32⟩ : BufTy).Contents (Elt Ideal))
  (x4 : (⟨Cert.ReferenceIdeal.S1024, .f32⟩ : BufTy).Contents (Elt Ideal))
  (x5 : (⟨Cert.ReferenceIdeal.S1024x512, .f32⟩ : BufTy).Contents (Elt Ideal))
  (x6 : (⟨Cert.ReferenceIdeal.S512, .f32⟩ : BufTy).Contents (Elt Ideal))
  (x7 : (⟨Cert.ReferenceIdeal.S512x256, .f32⟩ : BufTy).Contents (Elt Ideal))
  (x8 : (⟨Cert.ReferenceIdeal.S256, .f32⟩ : BufTy).Contents (Elt Ideal))
  (x9 : (⟨Cert.ReferenceIdeal.S256x512, .f32⟩ : BufTy).Contents (Elt Ideal))
  (x10 : (⟨Cert.ReferenceIdeal.S512, .f32⟩ : BufTy).Contents (Elt Ideal))
  (x11 : (⟨Cert.ReferenceIdeal.S512x1024, .f32⟩ : BufTy).Contents (Elt Ideal))
  (x12 : (⟨Cert.ReferenceIdeal.S1024, .f32⟩ : BufTy).Contents (Elt Ideal))
  (x13 : (⟨Cert.ReferenceIdeal.S1024x2048, .f32⟩ : BufTy).Contents (Elt Ideal))
  (x14 : (⟨Cert.ReferenceIdeal.S2048, .f32⟩ : BufTy).Contents (Elt Ideal))

/-- The first encoder layer at (r, c): the dense layer of row r of X. -/
theorem enc_layer1 (r : Fin 8192) (c : Fin 1024) :
    val_main_v3 (F := Ideal) x0 x3 x4 (ix2 r c)
      = DenseSoftmax.dense (fun k => x0 (ix2 r k)) x3 (fun k => x4 (ix1 k)) c := by
  have hl : ∀ k : Fin 2048, lidx_main_v0 (ix2 r c) k = ix2 r k := fun k =>
    funext fun a => Fin.ext (by match a with | ⟨0, _⟩ => rfl | ⟨1, _⟩ => rfl)
  have hr : ∀ k : Fin 2048, ridx_main_v0 (ix2 r c) k = ix2 k c := fun k =>
    funext fun a => Fin.ext (by match a with | ⟨0, _⟩ => rfl | ⟨1, _⟩ => rfl)
  have hb : idx_main_v1 (idx_main_v2 (ix2 r c)) = ix1 c :=
    funext fun a => Fin.ext (by match a with | ⟨0, _⟩ => rfl)
  rw [val_main_v3_apply, val_main_v0_apply, val_main_v2_apply, val_main_v1_apply, hb]
  simp only [hl, hr, Ideal.addf_def]
  rfl

/-- The second encoder layer at (r, c): the dense layer of row r of the first layer's output. -/
theorem enc_layer2 (r : Fin 8192) (c : Fin 512) :
    val_main_v7 (F := Ideal) x0 x3 x4 x5 x6 (ix2 r c)
      = DenseSoftmax.dense (fun k => val_main_v3 (F := Ideal) x0 x3 x4 (ix2 r k)) x5 (fun k => x6 (ix1 k)) c := by
  have hl : ∀ k : Fin 1024, lidx_main_v4 (ix2 r c) k = ix2 r k := fun k =>
    funext fun a => Fin.ext (by match a with | ⟨0, _⟩ => rfl | ⟨1, _⟩ => rfl)
  have hr : ∀ k : Fin 1024, ridx_main_v4 (ix2 r c) k = ix2 k c := fun k =>
    funext fun a => Fin.ext (by match a with | ⟨0, _⟩ => rfl | ⟨1, _⟩ => rfl)
  have hb : idx_main_v5 (idx_main_v6 (ix2 r c)) = ix1 c :=
    funext fun a => Fin.ext (by match a with | ⟨0, _⟩ => rfl)
  rw [val_main_v7_apply, val_main_v4_apply, val_main_v6_apply, val_main_v5_apply, hb]
  simp only [hl, hr, Ideal.addf_def]
  rfl

/-- The third encoder layer at (r, c): the dense layer of row r of the second layer's output. -/
theorem enc_layer3 (r : Fin 8192) (c : Fin 256) :
    val_main_v11 (F := Ideal) x0 x3 x4 x5 x6 x7 x8 (ix2 r c)
      = DenseSoftmax.dense (fun k => val_main_v7 (F := Ideal) x0 x3 x4 x5 x6 (ix2 r k)) x7 (fun k => x8 (ix1 k)) c := by
  have hl : ∀ k : Fin 512, lidx_main_v8 (ix2 r c) k = ix2 r k := fun k =>
    funext fun a => Fin.ext (by match a with | ⟨0, _⟩ => rfl | ⟨1, _⟩ => rfl)
  have hr : ∀ k : Fin 512, ridx_main_v8 (ix2 r c) k = ix2 k c := fun k =>
    funext fun a => Fin.ext (by match a with | ⟨0, _⟩ => rfl | ⟨1, _⟩ => rfl)
  have hb : idx_main_v9 (idx_main_v10 (ix2 r c)) = ix1 c :=
    funext fun a => Fin.ext (by match a with | ⟨0, _⟩ => rfl)
  rw [val_main_v11_apply, val_main_v8_apply, val_main_v10_apply, val_main_v9_apply, hb]
  simp only [hl, hr, Ideal.addf_def]
  rfl

/-- The reference's embedding is the encoder, entry by entry. -/
theorem ref_enc :
    val_main_v11 (F := Ideal) x0 x3 x4 x5 x6 x7 x8
      = fun j => Cert.KernelIdeal.Hand.encAt x0 x3 (fun k => x4 (ix1 k)) x5 (fun k => x6 (ix1 k)) x7
          (fun k => x8 (ix1 k)) (j 0) (j 1) := by
  funext j
  obtain ⟨r, c, rfl⟩ : ∃ (r : Fin 8192) (c : Fin 256), j = ix2 r c := ⟨j 0, j 1, eq_ix2 j⟩
  show val_main_v11 (F := Ideal) x0 x3 x4 x5 x6 x7 x8 (ix2 r c)
      = Cert.KernelIdeal.Hand.encAt x0 x3 (fun k => x4 (ix1 k)) x5 (fun k => x6 (ix1 k)) x7 (fun k => x8 (ix1 k)) r c
  refine (enc_layer3 x0 x3 x4 x5 x6 x7 x8 r c).trans ?_
  unfold Cert.KernelIdeal.Hand.encAt Cert.KernelIdeal.Hand.mlp3
  refine congrArg (fun f => DenseSoftmax.dense f x7 (fun k => x8 (ix1 k)) c) (funext fun k2 => ?_)
  refine (enc_layer2 x0 x3 x4 x5 x6 r k2).trans ?_
  refine congrArg (fun f => DenseSoftmax.dense f x5 (fun k => x6 (ix1 k)) k2) (funext fun k1 => ?_)
  exact enc_layer1 x0 x3 x4 r k1

/-- The reference's diffused embedding is the diffusion step of its embedding, entry by entry: the transpose read at
    (r, k) is RW at (k, r). -/
theorem ref_diff :
    val_main_v13 (F := Ideal) x0 x1 x3 x4 x5 x6 x7 x8
      = fun j => Cert.KernelIdeal.Hand.diffAt x1 (val_main_v11 (F := Ideal) x0 x3 x4 x5 x6 x7 x8) (j 0) (j 1) := by
  funext j
  obtain ⟨r, c, rfl⟩ : ∃ (r : Fin 8192) (c : Fin 256), j = ix2 r c := ⟨j 0, j 1, eq_ix2 j⟩
  show val_main_v13 (F := Ideal) x0 x1 x3 x4 x5 x6 x7 x8 (ix2 r c)
      = Cert.KernelIdeal.Hand.diffAt x1 (val_main_v11 (F := Ideal) x0 x3 x4 x5 x6 x7 x8) r c
  have hl : ∀ k : Fin 8192, idx_main_v12 (lidx_main_v13 (ix2 r c) k) = ix2 k r := fun k =>
    funext fun a => Fin.ext (by match a with | ⟨0, _⟩ => rfl | ⟨1, _⟩ => rfl)
  have hr : ∀ k : Fin 8192, ridx_main_v13 (ix2 r c) k = ix2 k c := fun k =>
    funext fun a => Fin.ext (by match a with | ⟨0, _⟩ => rfl | ⟨1, _⟩ => rfl)
  rw [val_main_v13_apply]
  simp only [val_main_v12_apply, hl, hr]
  rfl

/-- The first decoder layer at (r, c): the dense layer of row r of the diffused embedding. -/
theorem dec_layer1 (r : Fin 8192) (c : Fin 512) :
    val_main_v41 (F := Ideal) x0 x1 x3 x4 x5 x6 x7 x8 x9 x10 (ix2 r c)
      = DenseSoftmax.dense (fun k => val_main_v13 (F := Ideal) x0 x1 x3 x4 x5 x6 x7 x8 (ix2 r k)) x9
          (fun k => x10 (ix1 k)) c := by
  have hl : ∀ k : Fin 256, lidx_main_v38 (ix2 r c) k = ix2 r k := fun k =>
    funext fun a => Fin.ext (by match a with | ⟨0, _⟩ => rfl | ⟨1, _⟩ => rfl)
  have hr : ∀ k : Fin 256, ridx_main_v38 (ix2 r c) k = ix2 k c := fun k =>
    funext fun a => Fin.ext (by match a with | ⟨0, _⟩ => rfl | ⟨1, _⟩ => rfl)
  have hb : idx_main_v39 (idx_main_v40 (ix2 r c)) = ix1 c :=
    funext fun a => Fin.ext (by match a with | ⟨0, _⟩ => rfl)
  rw [val_main_v41_apply, val_main_v38_apply, val_main_v40_apply, val_main_v39_apply, hb]
  simp only [hl, hr, Ideal.addf_def]
  rfl

/-- The second decoder layer at (r, c): the dense layer of row r of the first layer's output. -/
theorem dec_layer2 (r : Fin 8192) (c : Fin 1024) :
    val_main_v45 (F := Ideal) x0 x1 x3 x4 x5 x6 x7 x8 x9 x10 x11 x12 (ix2 r c)
      = DenseSoftmax.dense (fun k => val_main_v41 (F := Ideal) x0 x1 x3 x4 x5 x6 x7 x8 x9 x10 (ix2 r k)) x11
          (fun k => x12 (ix1 k)) c := by
  have hl : ∀ k : Fin 512, lidx_main_v42 (ix2 r c) k = ix2 r k := fun k =>
    funext fun a => Fin.ext (by match a with | ⟨0, _⟩ => rfl | ⟨1, _⟩ => rfl)
  have hr : ∀ k : Fin 512, ridx_main_v42 (ix2 r c) k = ix2 k c := fun k =>
    funext fun a => Fin.ext (by match a with | ⟨0, _⟩ => rfl | ⟨1, _⟩ => rfl)
  have hb : idx_main_v43 (idx_main_v44 (ix2 r c)) = ix1 c :=
    funext fun a => Fin.ext (by match a with | ⟨0, _⟩ => rfl)
  rw [val_main_v45_apply, val_main_v42_apply, val_main_v44_apply, val_main_v43_apply, hb]
  simp only [hl, hr, Ideal.addf_def]
  rfl

/-- The third decoder layer at (r, c): the dense layer of row r of the second layer's output. -/
theorem dec_layer3 (r : Fin 8192) (c : Fin 2048) :
    val_main_v49 (F := Ideal) x0 x1 x3 x4 x5 x6 x7 x8 x9 x10 x11 x12 x13 x14 (ix2 r c)
      = DenseSoftmax.dense (fun k => val_main_v45 (F := Ideal) x0 x1 x3 x4 x5 x6 x7 x8 x9 x10 x11 x12 (ix2 r k)) x13
          (fun k => x14 (ix1 k)) c := by
  have hl : ∀ k : Fin 1024, lidx_main_v46 (ix2 r c) k = ix2 r k := fun k =>
    funext fun a => Fin.ext (by match a with | ⟨0, _⟩ => rfl | ⟨1, _⟩ => rfl)
  have hr : ∀ k : Fin 1024, ridx_main_v46 (ix2 r c) k = ix2 k c := fun k =>
    funext fun a => Fin.ext (by match a with | ⟨0, _⟩ => rfl | ⟨1, _⟩ => rfl)
  have hb : idx_main_v47 (idx_main_v48 (ix2 r c)) = ix1 c :=
    funext fun a => Fin.ext (by match a with | ⟨0, _⟩ => rfl)
  rw [val_main_v49_apply, val_main_v46_apply, val_main_v48_apply, val_main_v47_apply, hb]
  simp only [hl, hr, Ideal.addf_def]
  rfl

/-- The reference's reconstruction logits are the decoder of its diffused embedding, entry by entry. -/
theorem ref_dec :
    val_main_v49 (F := Ideal) x0 x1 x3 x4 x5 x6 x7 x8 x9 x10 x11 x12 x13 x14
      = fun j => Cert.KernelIdeal.Hand.decAt (val_main_v13 (F := Ideal) x0 x1 x3 x4 x5 x6 x7 x8) x9
          (fun k => x10 (ix1 k)) x11 (fun k => x12 (ix1 k)) x13 (fun k => x14 (ix1 k)) (j 0) (j 1) := by
  funext j
  obtain ⟨r, c, rfl⟩ : ∃ (r : Fin 8192) (c : Fin 2048), j = ix2 r c := ⟨j 0, j 1, eq_ix2 j⟩
  show val_main_v49 (F := Ideal) x0 x1 x3 x4 x5 x6 x7 x8 x9 x10 x11 x12 x13 x14 (ix2 r c)
      = Cert.KernelIdeal.Hand.decAt (val_main_v13 (F := Ideal) x0 x1 x3 x4 x5 x6 x7 x8) x9
          (fun k => x10 (ix1 k)) x11 (fun k => x12 (ix1 k)) x13 (fun k => x14 (ix1 k)) r c
  refine (dec_layer3 x0 x1 x3 x4 x5 x6 x7 x8 x9 x10 x11 x12 x13 x14 r c).trans ?_
  unfold Cert.KernelIdeal.Hand.decAt Cert.KernelIdeal.Hand.mlp3
  refine congrArg (fun f => DenseSoftmax.dense f x13 (fun k => x14 (ix1 k)) c) (funext fun k2 => ?_)
  refine (dec_layer2 x0 x1 x3 x4 x5 x6 x7 x8 x9 x10 x11 x12 r k2).trans ?_
  refine congrArg (fun f => DenseSoftmax.dense f x11 (fun k => x12 (ix1 k)) k2) (funext fun k1 => ?_)
  exact dec_layer1 x0 x1 x3 x4 x5 x6 x7 x8 x9 x10 r k1

end Stages

/-! ## The loss stages, for any float instance -/

section Loss

variable {F : FTy → Type} [FloatOps F]
variable (x0 : (⟨Cert.ReferenceIdeal.S8192x2048, .f32⟩ : BufTy).Contents (Elt F))
  (x1 : (⟨Cert.ReferenceIdeal.S8192x8192, .f32⟩ : BufTy).Contents (Elt F))
  (x2 : (⟨Cert.ReferenceIdeal.S64x256, .f32⟩ : BufTy).Contents (Elt F))
  (x3 : (⟨Cert.ReferenceIdeal.S2048x1024, .f32⟩ : BufTy).Contents (Elt F))
  (x4 : (⟨Cert.ReferenceIdeal.S1024, .f32⟩ : BufTy).Contents (Elt F))
  (x5 : (⟨Cert.ReferenceIdeal.S1024x512, .f32⟩ : BufTy).Contents (Elt F))
  (x6 : (⟨Cert.ReferenceIdeal.S512, .f32⟩ : BufTy).Contents (Elt F))
  (x7 : (⟨Cert.ReferenceIdeal.S512x256, .f32⟩ : BufTy).Contents (Elt F))
  (x8 : (⟨Cert.ReferenceIdeal.S256, .f32⟩ : BufTy).Contents (Elt F))
  (x9 : (⟨Cert.ReferenceIdeal.S256x512, .f32⟩ : BufTy).Contents (Elt F))
  (x10 : (⟨Cert.ReferenceIdeal.S512, .f32⟩ : BufTy).Contents (Elt F))
  (x11 : (⟨Cert.ReferenceIdeal.S512x1024, .f32⟩ : BufTy).Contents (Elt F))
  (x12 : (⟨Cert.ReferenceIdeal.S1024, .f32⟩ : BufTy).Contents (Elt F))
  (x13 : (⟨Cert.ReferenceIdeal.S1024x2048, .f32⟩ : BufTy).Contents (Elt F))
  (x14 : (⟨Cert.ReferenceIdeal.S2048, .f32⟩ : BufTy).Contents (Elt F))

/-- The reference's result is the loss of its diffused embedding Z and its reconstruction logits Xp: every line after
    the diffusion step other than the decoder's is one loss stage, read over Z, Xp, the data and the centres. The soft
    assignment Q (the reference's lines 14 to 37) is the stages 9 to 32; the cross-entropy (lines 50 to 59) is the
    stages 42 to 51; the target distribution and the Kullback-Leibler term (lines 60 to 73) are the stages 33 to 41 and
    52 to 56; the last three lines are the last three stages. -/
theorem ref_tail :
    val_main_v76 (F := F) x0 x1 x2 x3 x4 x5 x6 x7 x8 x9 x10 x11 x12 x13 x14
      = Cert.KernelIdeal.Hand.Tail (F := F) (val_main_v13 (F := F) x0 x1 x3 x4 x5 x6 x7 x8)
          (val_main_v49 (F := F) x0 x1 x3 x4 x5 x6 x7 x8 x9 x10 x11 x12 x13 x14) x0 x2 := by
  unfold val_main_v76 val_main_v75 val_main_v74 val_main_v73 val_main_v72 val_main_v71 val_main_v70 val_main_v69
    val_main_v68 val_main_v67 val_main_v66 val_main_v65 val_main_v64 val_main_v63 val_main_v62 val_main_v61 val_main_v60
    val_main_v59 val_main_v58 val_main_v57 val_main_v56 val_main_v55 val_main_v54 val_main_v53 val_main_v52 val_main_v51
    val_main_v50 val_main_call0_v1 val_main_call0_v0
    val_main_v37 val_main_v36 val_main_v35 val_main_v34 val_main_v33 val_main_v32 val_main_v31 val_main_v30 val_main_v29
    val_main_v28 val_main_v27 val_main_v26 val_main_v25 val_main_v24 val_main_v23 val_main_v22 val_main_v21 val_main_v20
    val_main_v19 val_main_v18 val_main_v17 val_main_v16 val_main_v15 val_main_v14
  generalize val_main_v13 (F := F) x0 x1 x3 x4 x5 x6 x7 x8 = Z
  generalize val_main_v49 (F := F) x0 x1 x3 x4 x5 x6 x7 x8 x9 x10 x11 x12 x13 x14 = Xp
  rfl

end Loss

end Cert.KernelIdeal.Hand.Ref

end
-- ==== Proof.Bridge.lean ====
/-
  Both programs compute one function. From the launch contents x0 … x14 of the fifteen argument arrays: the encoder's
  output encX (three dense layers of each row of x0), the diffused embedding zX = RW^T · encX, the reconstruction
  logits xpX (three dense layers of each row of zX) and the loss of these. The kernel program's regions leave exactly
  these arrays (the encoder and decoder tile by tile, the diffusion as blocked partial sums regrouped into the whole
  sum), its bias rows being the bias vectors recast; the reference's stages are the same sums; and both apply the same
  loss stages to them.
-/
import proofs.«129998_j66537633349711_2_alg».proof.Proof.RunValue
import proofs.«129998_j66537633349711_2_alg».proof.Proof.EncValue
import proofs.«129998_j66537633349711_2_alg».proof.Proof.DecValue
import proofs.«129998_j66537633349711_2_alg».proof.Proof.RwtValue
import proofs.«129998_j66537633349711_2_alg».proof.Proof.RefSide

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

/-- A vector of extended reals over a literal extent. -/
abbrev Vec1 (a : ℕ) : Type := (⟨1, ![a]⟩ : Shape).Idx → EReal

section Spec
variable (x0 : Mat 8192 2048) (x1 : Mat 8192 8192) (x2 : Mat 64 256) (x3 : Mat 2048 1024) (x4 : Vec1 1024) (x5 : Mat 1024 512) (x6 : Vec1 512)
  (x7 : Mat 512 256) (x8 : Vec1 256) (x9 : Mat 256 512) (x10 : Vec1 512) (x11 : Mat 512 1024) (x12 : Vec1 1024) (x13 : Mat 1024 2048) (x14 : Vec1 2048)

/-- The encoder's output array. -/
def encX : Mat 8192 256 := fun j =>
  encAt x0 x3 (fun k => x4 (ix1 k)) x5 (fun k => x6 (ix1 k)) x7 (fun k => x8 (ix1 k)) (j 0) (j 1)
/-- The diffused embedding. -/
def zX : Mat 8192 256 := fun j => diffAt x1 (encX x0 x3 x4 x5 x6 x7 x8) (j 0) (j 1)
/-- The reconstruction logits. -/
def xpX : Mat 8192 2048 := fun j =>
  decAt (zX x0 x1 x3 x4 x5 x6 x7 x8) x9 (fun k => x10 (ix1 k)) x11 (fun k => x12 (ix1 k)) x13 (fun k => x14 (ix1 k)) (j 0) (j 1)
/-- The loss. -/
def lossX : (⟨S_, .f32⟩ : BufTy).Contents (Elt Ideal) :=
  Tail (F := Ideal) (zX x0 x1 x3 x4 x5 x6 x7 x8) (xpX x0 x1 x3 x4 x5 x6 x7 x8 x9 x10 x11 x12 x13 x14) x0 x2

/-- The reference's result term is the loss of its arguments. -/
theorem ref_loss :
    Cert.ReferenceIdeal.ReadP.val_main_v76 (F := Ideal) x0 x1 x2 x3 x4 x5 x6 x7 x8 x9 x10 x11 x12 x13 x14
      = lossX x0 x1 x2 x3 x4 x5 x6 x7 x8 x9 x10 x11 x12 x13 x14 := by
  rw [Ref.ref_tail (F := Ideal) x0 x1 x2 x3 x4 x5 x6 x7 x8 x9 x10 x11 x12 x13 x14]
  unfold lossX
  have hz : Cert.ReferenceIdeal.ReadP.val_main_v13 (F := Ideal) x0 x1 x3 x4 x5 x6 x7 x8 = zX x0 x1 x3 x4 x5 x6 x7 x8 := by
    rw [Ref.ref_diff, Ref.ref_enc]; rfl
  have hxp : Cert.ReferenceIdeal.ReadP.val_main_v49 (F := Ideal) x0 x1 x3 x4 x5 x6 x7 x8 x9 x10 x11 x12 x13 x14
      = xpX x0 x1 x3 x4 x5 x6 x7 x8 x9 x10 x11 x12 x13 x14 := by
    rw [Ref.ref_dec, hz]; rfl
  rw [hz, hxp]

end Spec

section Kernel
variable (m : (ℓ : Loc nD τ sig) → Buf (Elt Ideal) ℓ) (ρ : Dev nD → PrngReg)

/-- The encoder region leaves the encoder's output array. -/
theorem kernel_enc (c : Dev nD) :
    W2 m ρ c (Proc.devRef .tc main_v3) = encX (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e0 : V1 m ρ c (Pipeline.arrRef spec0 0) = (m ((c : Thread nD τ).loc main_arg0)) := (W1_keep m ρ c main_arg0 (by decide)).trans rfl
  have e1 : V1 m ρ c (Pipeline.arrRef spec0 1) = (m ((c : Thread nD τ).loc main_arg3)) := (W1_keep m ρ c main_arg3 (by decide)).trans rfl
  have e3 : V1 m ρ c (Pipeline.arrRef spec0 3) = (m ((c : Thread nD τ).loc main_arg5)) := (W1_keep m ρ c main_arg5 (by decide)).trans rfl
  have e5 : V1 m ρ c (Pipeline.arrRef spec0 5) = (m ((c : Thread nD τ).loc main_arg7)) := (W1_keep m ρ c main_arg7 (by decide)).trans rfl
  have b2 : (fun k => V1 m ρ c (Pipeline.arrRef spec0 2) (ix2 0 k)) = fun k => (m ((c : Thread nD τ).loc main_arg4)) (ix1 k) := funext fun k => bias_v0 (W0 m ρ c) k
  have b4 : (fun k => V1 m ρ c (Pipeline.arrRef spec0 4) (ix2 0 k)) = fun k => (m ((c : Thread nD τ).loc main_arg6)) (ix1 k) := funext fun k => bias_v1 (W0 m ρ c) k
  have b6 : (fun k => V1 m ρ c (Pipeline.arrRef spec0 6) (ix2 0 k)) = fun k => (m ((c : Thread nD τ).loc main_arg8)) (ix1 k) := funext fun k => bias_v2 (W0 m ρ c) k
  refine ((W2_arr m ρ c 7).trans (enc_final (V1 m ρ) c)).trans ?_
  rw [e0, e1, e3, e5, b2, b4, b6]; rfl

/-- The diffusion region leaves the diffused embedding. -/
theorem kernel_Z (c : Dev nD) :
    W3 m ρ c (Proc.devRef .tc main_v4) = zX (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e0 : V2 m ρ c (Pipeline.arrRef spec1 0) = (m ((c : Thread nD τ).loc main_arg1)) :=
    (W2_keep m ρ c main_arg1 (by decide)).trans ((W1_keep m ρ c main_arg1 (by decide)).trans rfl)
  have e1 : V2 m ρ c (Pipeline.arrRef spec1 1) = encX (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := kernel_enc m ρ c
  refine ((W3_arr m ρ c 2).trans (rwt_final (V2 m ρ) c)).trans ?_
  rw [e0, e1]; rfl

/-- The decoder region leaves the reconstruction logits. -/
theorem kernel_Xp (c : Dev nD) :
    W5 m ρ c (Proc.devRef .tc main_v8) = xpX (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have keep3 : ∀ r : Ref sig .tc, r ∉ hostOps0_W → r ≠ main_v3 → r ≠ main_v4 → W3 m ρ c (Proc.devRef .tc r) = m ((c : Thread nD τ).loc r) :=
    fun r h0 ha hb => (W3_keep m ρ c r hb).trans ((W2_keep m ρ c r ha).trans ((W1_keep m ρ c r h0).trans rfl))
  have e0 : V4 m ρ c (Pipeline.arrRef spec2 0) = zX (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (W4_keep m ρ c main_v4 (by decide)).trans (kernel_Z m ρ c)
  have e1 : V4 m ρ c (Pipeline.arrRef spec2 1) = (m ((c : Thread nD τ).loc main_arg9)) := (W4_keep m ρ c main_arg9 (by decide)).trans (keep3 main_arg9 (by decide) (by decide) (by decide))
  have e3 : V4 m ρ c (Pipeline.arrRef spec2 3) = (m ((c : Thread nD τ).loc main_arg11)) := (W4_keep m ρ c main_arg11 (by decide)).trans (keep3 main_arg11 (by decide) (by decide) (by decide))
  have e5 : V4 m ρ c (Pipeline.arrRef spec2 5) = (m ((c : Thread nD τ).loc main_arg13)) := (W4_keep m ρ c main_arg13 (by decide)).trans (keep3 main_arg13 (by decide) (by decide) (by decide))
  have b2 : (fun k => V4 m ρ c (Pipeline.arrRef spec2 2) (ix2 0 k)) = fun k => (m ((c : Thread nD τ).loc main_arg10)) (ix1 k) :=
    funext fun k => (bias_v5 (W3 m ρ c) k).trans (congrFun (keep3 main_arg10 (by decide) (by decide) (by decide)) (ix1 k))
  have b4 : (fun k => V4 m ρ c (Pipeline.arrRef spec2 4) (ix2 0 k)) = fun k => (m ((c : Thread nD τ).loc main_arg12)) (ix1 k) :=
    funext fun k => (bias_v6 (W3 m ρ c) k).trans (congrFun (keep3 main_arg12 (by decide) (by decide) (by decide)) (ix1 k))
  have b6 : (fun k => V4 m ρ c (Pipeline.arrRef spec2 6) (ix2 0 k)) = fun k => (m ((c : Thread nD τ).loc main_arg14)) (ix1 k) :=
    funext fun k => (bias_v7 (W3 m ρ c) k).trans (congrFun (keep3 main_arg14 (by decide) (by decide) (by decide)) (ix1 k))
  refine ((W5_arr m ρ c 7).trans (dec_final (V4 m ρ) c)).trans ?_
  rw [e0, e1, e3, e5, b2, b4, b6]; rfl

/-- The kernel program's run at the ideal instance: the result is the loss of the arguments. -/
theorem run_loss : θ_run defs (onTc (τ := τ) (main (F := Ideal))) ⟨m, fun _ => 0, ρ⟩ (fun r => ∀ c : Dev nD,
      r.2.mem ((c.tc : Thread nD τ).loc main_v59)
        = lossX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (by rw [kernel_Z m ρ c, kernel_Xp m ρ c]; rfl), (h c).2⟩) (run_value m ρ)

end Kernel

end Cert.KernelIdeal.Hand

end
-- ==== Proof.lean ====
/-
  The certificate. The kernel program is three kernel regions among host operations: a three-layer encoder over row
  tiles, the product with the transpose of RW accumulated over eight blocks of the contracted axis in a scratch
  accumulator, a three-layer decoder over row tiles; then the clustering and reconstruction losses in plain host
  arithmetic. Its frame, at either float instance, is the run of its items between known buffer contents (no item writes
  an argument). At the ideal instance a change of float format is the identity and every matrix product is the exact
  sum, so the encoder and decoder tiles are the reference's dense layers row by row, the eight partial sums regroup into
  the reference's one sum over the contracted axis (associativity and commutativity of + on the extended reals and
  0 + x = x: no finiteness is needed, and the precondition is never opened), and both programs apply the same loss
  stages to the same arrays. The idealization rewrote nothing, so it preserves the program trivially.
-/
import proofs.«129998_j66537633349711_2_alg».proof.Defs
import proofs.«129998_j66537633349711_2_alg».proof.Proof.Gen.Kernel
import proofs.«129998_j66537633349711_2_alg».proof.Proof.Gen.KernelIdeal
import proofs.«129998_j66537633349711_2_alg».proof.Proof.Gen.ReferenceIdeal
import proofs.«129998_j66537633349711_2_alg».proof.Proof.Gen.Pre_finite_inputs
import proofs.«129998_j66537633349711_2_alg».proof.Proof.KRunFrame
import proofs.«129998_j66537633349711_2_alg».proof.Proof.Bridge

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end at the loss of the arguments' launch contents, which agree. -/
theorem algebraic : Cert.algebraic_KernelIdeal_ReferenceIdeal := by
  intro m ρ m' ρ' _ hagree
  refine ⟨_, Cert.KernelIdeal.Hand.run_loss m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14⟩ := hagree c
  refine (Cert.ReferenceIdeal.ReadP.val_main_v76_eq m' c).trans ?_
  rw [h0, h1, h2, h3, h4, h5, h6, h7, h8, h9, h10, h11, h12, h13, h14]
  exact Cert.KernelIdeal.Hand.ref_loss _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
